-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x2 : Shape := ⟨2, ![4096, 2]⟩
abbrev S8x2048x688 : Shape := ⟨3, ![8, 2048, 688]⟩
abbrev S8x688x2048 : Shape := ⟨3, ![8, 688, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S8x2048x688 : S_.BroadcastsInDim S8x2048x688 (![] : Fin 0 → Fin S8x2048x688.rank)
  reducesTo_S8x2048x688_S_d0_1_2 : S8x2048x688.ReducesTo [0, 1, 2] S_
  bcast_S_S8x688x2048 : S_.BroadcastsInDim S8x688x2048 (![] : Fin 0 → Fin S8x688x2048.rank)
  reducesTo_S8x688x2048_S_d0_1_2 : S8x688x2048.ReducesTo [0, 1, 2] S_

variable [Facts]

def fn_part1 {F : FTy → Type} [FloatOps F] (main_arg1 : IVec S4096x2 32) (main_arg5 : FVec F S8x688x2048 .f32) (main_v13 : IVec S_ 1) (main_v16 : IVec S8x2048x688 1) : IVec S_ 1 :=
  let main_c_5 : IVec S_ 1 := constantI S_ 1 1#1
  let main_v17 : IVec S_ 1 := (fun x v => Host.reduce IntOp.andi x v reducesTo_S8x2048x688_S_d0_1_2 h_S_) main_v16 main_c_5
  let main_v18 : IVec S_ 1 := andi main_v13 main_v17
  let main_v19 : FVec F S8x688x2048 .f32 := Host.absf main_arg5
  let main_cst_6 : FVec F S_ .f32 := constant S_ .f32 0x7F800000#32
  let main_v20 : FVec F S8x688x2048 .f32 := broadcastInDim S8x688x2048 ![] bcast_S_S8x688x2048 main_cst_6
  let main_v21 : IVec S8x688x2048 1 := cmpf .olt main_v19 main_v20
  let main_c_7 : IVec S_ 1 := constantI S_ 1 1#1
  let main_v22 : IVec S_ 1 := (fun x v => Host.reduce IntOp.andi x v reducesTo_S8x688x2048_S_d0_1_2 h_S_) main_v21 main_c_7
  let main_v23 : IVec S_ 1 := andi main_v18 main_v22
  let main_c_8 : IVec S_ 32 := constantI S_ 32 0#32
  let main_v24 : IVec S4096x2 32 := broadcastInDim S4096x2 ![] bcast_S_S4096x2 main_c_8
  let main_v25 : IVec S4096x2 1 := cmpi .sge main_arg1 main_v24
  let main_c_9 : IVec S_ 32 := constantI S_ 32 7#32
  let main_v26 : IVec S4096x2 32 := broadcastInDim S4096x2 ![] bcast_S_S4096x2 main_c_9
  let main_v27 : IVec S4096x2 1 := cmpi .sle main_arg1 main_v26
  let main_v28 : IVec S4096x2 1 := andi main_v25 main_v27
  let main_c_10 : IVec S_ 1 := constantI S_ 1 1#1
  let main_v29 : IVec S_ 1 := (fun x v => Host.reduce IntOp.andi x v reducesTo_S4096x2_S_d0_1 h_S_) main_v28 main_c_10
  let main_v30 : IVec S_ 1 := andi main_v23 main_v29
  main_v30

def fn {F : FTy → Type} [FloatOps F] (main_arg0 : FVec F S4096x2048 .f32) (main_arg1 : IVec S4096x2 32) (main_arg2 : FVec F S4096x2 .f32) (main_arg3 : FVec F S8x2048x688 .f32) (main_arg4 : FVec F S8x2048x688 .f32) (main_arg5 : FVec F S8x688x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2 .f32 := Host.absf main_arg2
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S8x2048x688 .f32 := Host.absf main_arg3
  let main_cst_2 : FVec F S_ .f32 := constant S_ .f32 0x7F800000#32
  let main_v10 : FVec F S8x2048x688 .f32 := broadcastInDim S8x2048x688 ![] bcast_S_S8x2048x688 main_cst_2
  let main_v11 : IVec S8x2048x688 1 := cmpf .olt main_v9 main_v10
  let main_c_3 : IVec S_ 1 := constantI S_ 1 1#1
  let main_v12 : IVec S_ 1 := (fun x v => Host.reduce IntOp.andi x v reducesTo_S8x2048x688_S_d0_1_2 h_S_) main_v11 main_c_3
  let main_v13 : IVec S_ 1 := andi main_v8 main_v12
  let main_v14 : FVec F S8x2048x688 .f32 := Host.absf main_arg4
  let main_cst_4 : FVec F S_ .f32 := constant S_ .f32 0x7F800000#32
  let main_v15 : FVec F S8x2048x688 .f32 := broadcastInDim S8x2048x688 ![] bcast_S_S8x2048x688 main_cst_4
  let main_v16 : IVec S8x2048x688 1 := cmpf .olt main_v14 main_v15
  fn_part1 (F := F) main_arg1 main_arg5 main_v13 main_v16
-- ==== Kernel.lean ====
abbrev S4096x2048 : Shape := ⟨2, ![4096, 2048]⟩
abbrev S4096x2 : Shape := ⟨2, ![4096, 2]⟩
abbrev S8x2048x688 : Shape := ⟨3, ![8, 2048, 688]⟩
abbrev S8x688x2048 : Shape := ⟨3, ![8, 688, 2048]⟩
abbrev S8192 : Shape := ⟨1, ![8192]⟩
abbrev S4096 : Shape := ⟨1, ![4096]⟩
abbrev S_ : Shape := ⟨0, ![]⟩
abbrev S8192x1 : Shape := ⟨2, ![8192, 1]⟩
abbrev S8 : Shape := ⟨1, ![8]⟩
abbrev S12289x2048 : Shape := ⟨2, ![12289, 2048]⟩
abbrev S8192x2048 : Shape := ⟨2, ![8192, 2048]⟩
abbrev S12288x2048 : Shape := ⟨2, ![12288, 2048]⟩
abbrev S8x1536x2048 : Shape := ⟨3, ![8, 1536, 2048]⟩
abbrev S12289 : Shape := ⟨1, ![12289]⟩
abbrev S12288 : Shape := ⟨1, ![12288]⟩
abbrev S8x1536x1 : Shape := ⟨3, ![8, 1536, 1]⟩
abbrev S1x512x2048 : Shape := ⟨3, ![1, 512, 2048]⟩
abbrev S1x2048x688 : Shape := ⟨3, ![1, 2048, 688]⟩
abbrev S1x688x2048 : Shape := ⟨3, ![1, 688, 2048]⟩
abbrev S1x512x1 : Shape := ⟨3, ![1, 512, 1]⟩
abbrev S512x2048 : Shape := ⟨2, ![512, 2048]⟩
abbrev S2048x688 : Shape := ⟨2, ![2048, 688]⟩
abbrev S688x2048 : Shape := ⟨2, ![688, 2048]⟩
abbrev S512x1 : Shape := ⟨2, ![512, 1]⟩
abbrev S512x688 : Shape := ⟨2, ![512, 688]⟩

abbrev nBuf : Space → Nat
  | .hbm => 161
  | .vmem => 12
  | .smem => 0
  | _ => 0

abbrev hbmTy0_0 (i : Nat) : BufTy := match i % 128 with
  | 0 => ⟨S4096x2048, .f32⟩
  | 1 => ⟨S4096x2, .i32⟩
  | 2 => ⟨S4096x2, .f32⟩
  | 3 => ⟨S8x2048x688, .f32⟩
  | 4 => ⟨S8x2048x688, .f32⟩
  | 5 => ⟨S8x688x2048, .f32⟩
  | 6 => ⟨S8192, .i32⟩
  | 7 => ⟨S8192, .f32⟩
  | 8 => ⟨S4096, .i32⟩
  | 9 => ⟨S4096x2, .i32⟩
  | 10 => ⟨S8192, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192, .i32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192, .f32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S8192x1, .i32⟩
  | 40 => ⟨S8192, .i32⟩
  | 41 => ⟨S_, .i32⟩
  | 42 => ⟨S8, .i32⟩
  | 43 => ⟨S_, .i32⟩
  | 44 => ⟨S_, .i32⟩
  | 45 => ⟨S8192, .i32⟩
  | 46 => ⟨S8192, .i32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S_, .i32⟩
  | 56 => ⟨S8192, .i32⟩
  | 57 => ⟨S8, .i32⟩
  | 58 => ⟨S_, .i32⟩
  | 59 => ⟨S_, .i32⟩
  | 60 => ⟨S8, .i32⟩
  | 61 => ⟨S8, .i32⟩
  | 62 => ⟨S8192, .i32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S8192, .i32⟩
  | 72 => ⟨S8192, .i32⟩
  | 73 => ⟨S_, .i32⟩
  | 74 => ⟨S8192, .i32⟩
  | 75 => ⟨S8192, .i1⟩
  | 76 => ⟨S_, .i32⟩
  | 77 => ⟨S8192, .i32⟩
  | 78 => ⟨S8192, .i32⟩
  | 79 => ⟨S8192, .i32⟩
  | 80 => ⟨S_, .i32⟩
  | 81 => ⟨S_, .i32⟩
  | 82 => ⟨S8192, .i32⟩
  | 83 => ⟨S8192, .i32⟩
  | 84 => ⟨S_, .f32⟩
  | 85 => ⟨S8192, .f32⟩
  | 86 => ⟨S8192, .f32⟩
  | 87 => ⟨S_, .f32⟩
  | 88 => ⟨S_, .f32⟩
  | 89 => ⟨S8192, .f32⟩
  | 90 => ⟨S8192, .f32⟩
  | 91 => ⟨S4096x2048, .bf16⟩
  | 92 => ⟨S_, .bf16⟩
  | 93 => ⟨S12289x2048, .bf16⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S8192x1, .i32⟩
  | 102 => ⟨S8192x2048, .bf16⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S12289x2048, .bf16⟩
  | 112 => ⟨S12288x2048, .bf16⟩
  | 113 => ⟨S8x1536x2048, .bf16⟩
  | 114 => ⟨S_, .f32⟩
  | 115 => ⟨S12289, .f32⟩
  | 116 => ⟨S_, .i32⟩
  | 117 => ⟨S8192, .i32⟩
  | 118 => ⟨S8192, .i1⟩
  | 119 => ⟨S_, .i32⟩
  | 120 => ⟨S8192, .i32⟩
  | 121 => ⟨S8192, .i32⟩
  | 122 => ⟨S8192, .i32⟩
  | 123 => ⟨S8192x1, .i32⟩
  | 124 => ⟨S12289, .f32⟩
  | 125 => ⟨S12288, .f32⟩
  | 126 => ⟨S8x1536x1, .f32⟩
  | 127 => ⟨S8x2048x688, .bf16⟩
  | _ => ⟨S4096x2048, .f32⟩

abbrev hbmTy0_1 (i : Nat) : BufTy := match i % 128 with
  | 0 => ⟨S8x2048x688, .bf16⟩
  | 1 => ⟨S8x688x2048, .bf16⟩
  | 2 => ⟨S8x1536x2048, .bf16⟩
  | 3 => ⟨S12288x2048, .bf16⟩
  | 4 => ⟨S_, .i32⟩
  | 5 => ⟨S8192, .i32⟩
  | 6 => ⟨S8192, .i32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192x2048, .bf16⟩
  | 16 => ⟨S8192x1, .i1⟩
  | 17 => ⟨S_, .bf16⟩
  | 18 => ⟨S8192x2048, .i1⟩
  | 19 => ⟨S8192x2048, .bf16⟩
  | 20 => ⟨S8192x2048, .bf16⟩
  | 21 => ⟨S_, .f32⟩
  | 22 => ⟨S4096x2048, .f32⟩
  | 23 => ⟨S8192x2048, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | .local _ .vmem, ⟨0, _⟩ => ⟨S1x512x2048, .bf16⟩
  | .local _ .vmem, ⟨1, _⟩ => ⟨S1x512x2048, .bf16⟩
  | .local _ .vmem, ⟨2, _⟩ => ⟨S1x2048x688, .bf16⟩
  | .local _ .vmem, ⟨3, _⟩ => ⟨S1x2048x688, .bf16⟩
  | .local _ .vmem, ⟨4, _⟩ => ⟨S1x2048x688, .bf16⟩
  | .local _ .vmem, ⟨5, _⟩ => ⟨S1x2048x688, .bf16⟩
  | .local _ .vmem, ⟨6, _⟩ => ⟨S1x688x2048, .bf16⟩
  | .local _ .vmem, ⟨7, _⟩ => ⟨S1x688x2048, .bf16⟩
  | .local _ .vmem, ⟨8, _⟩ => ⟨S1x512x1, .f32⟩
  | .local _ .vmem, ⟨9, _⟩ => ⟨S1x512x1, .f32⟩
  | .local _ .vmem, ⟨10, _⟩ => ⟨S1x512x2048, .bf16⟩
  | .local _ .vmem, ⟨11, _⟩ => ⟨S1x512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_c_6 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_call2_call0_c : Ref sig .tc := ⟨.hbm, 58, rfl⟩
abbrev main_call2_call0_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_12 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_14 : Ref sig .tc := ⟨.hbm, 80, rfl⟩
abbrev main_call3_v0 : Ref sig .tc := ⟨.hbm, 81, rfl⟩
abbrev main_call3_v1 : Ref sig .tc := ⟨.hbm, 82, rfl⟩
abbrev main_v53 : Ref sig .tc := ⟨.hbm, 83, rfl⟩
abbrev main_cst : Ref sig .tc := ⟨.hbm, 84, rfl⟩
abbrev main_v54 : Ref sig .tc := ⟨.hbm, 85, rfl⟩
abbrev main_v55 : Ref sig .tc := ⟨.hbm, 86, rfl⟩
abbrev main_cst_15 : Ref sig .tc := ⟨.hbm, 87, rfl⟩
abbrev main_call4_v0 : Ref sig .tc := ⟨.hbm, 88, rfl⟩
abbrev main_call4_v1 : Ref sig .tc := ⟨.hbm, 89, rfl⟩
abbrev main_v56 : Ref sig .tc := ⟨.hbm, 90, rfl⟩
abbrev main_v57 : Ref sig .tc := ⟨.hbm, 91, rfl⟩
abbrev main_cst_16 : Ref sig .tc := ⟨.hbm, 92, rfl⟩
abbrev main_v58 : Ref sig .tc := ⟨.hbm, 93, rfl⟩
abbrev main_c_17 : Ref sig .tc := ⟨.hbm, 94, rfl⟩
abbrev main_v59 : Ref sig .tc := ⟨.hbm, 95, rfl⟩
abbrev main_v60 : Ref sig .tc := ⟨.hbm, 96, rfl⟩
abbrev main_c_18 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_19 : Ref sig .tc := ⟨.hbm, 103, rfl⟩
abbrev main_v66 : Ref sig .tc := ⟨.hbm, 104, rfl⟩
abbrev main_v67 : Ref sig .tc := ⟨.hbm, 105, rfl⟩
abbrev main_c_20 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_21 : Ref sig .tc := ⟨.hbm, 114, rfl⟩
abbrev main_v75 : Ref sig .tc := ⟨.hbm, 115, rfl⟩
abbrev main_c_22 : Ref sig .tc := ⟨.hbm, 116, rfl⟩
abbrev main_v76 : Ref sig .tc := ⟨.hbm, 117, rfl⟩
abbrev main_v77 : Ref sig .tc := ⟨.hbm, 118, rfl⟩
abbrev main_c_23 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_24 : Ref sig .tc := ⟨.hbm, 132, rfl⟩
abbrev main_v90 : Ref sig .tc := ⟨.hbm, 133, rfl⟩
abbrev main_v91 : Ref sig .tc := ⟨.hbm, 134, rfl⟩
abbrev main_c_25 : Ref sig .tc := ⟨.hbm, 135, rfl⟩
abbrev main_v92 : Ref sig .tc := ⟨.hbm, 136, rfl⟩
abbrev main_v93 : Ref sig .tc := ⟨.hbm, 137, rfl⟩
abbrev main_c_26 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_27 : Ref sig .tc := ⟨.hbm, 145, rfl⟩
abbrev main_call5_v0 : Ref sig .tc := ⟨.hbm, 146, rfl⟩
abbrev main_call5_v1 : Ref sig .tc := ⟨.hbm, 147, rfl⟩
abbrev main_v100 : Ref sig .tc := ⟨.hbm, 148, rfl⟩
abbrev main_cst_28 : Ref sig .tc := ⟨.hbm, 149, rfl⟩
abbrev main_v101 : Ref sig .tc := ⟨.hbm, 150, rfl⟩
abbrev main_v102 : Ref sig .tc := ⟨.hbm, 151, rfl⟩
abbrev main_c_29 : Ref sig .tc := ⟨.hbm, 152, rfl⟩
abbrev main_v103 : Ref sig .tc := ⟨.hbm, 153, rfl⟩
abbrev main_v104 : Ref sig .tc := ⟨.hbm, 154, rfl⟩
abbrev main_c_30 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x688x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4096x2_S8192 : S4096x2.ShapeCasts S8192
  bcast_S4096_S4096x2_0 : S4096.BroadcastsInDim S4096x2 (![0] : Fin 1 → Fin S4096x2.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8 : S_.BroadcastsInDim S8 (![] : Fin 0 → Fin S8.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bitsLt_bf16_f32 : FTy.bits .bf16 < FTy.bits .f32
  bcast_S_S12289x2048 : S_.BroadcastsInDim S12289x2048 (![] : Fin 0 → Fin S12289x2048.rank)
  slices_S12289x2048_S12288x2048_0_0 : S12289x2048.Slices ![0, 0] S12288x2048
  shapeCasts_S12288x2048_S8x1536x2048 : S12288x2048.ShapeCasts S8x1536x2048
  bcast_S_S12289 : S_.BroadcastsInDim S12289 (![] : Fin 0 → Fin S12289.rank)
  slices_S12289_S12288_0 : S12289.Slices ![0] S12288
  shapeCasts_S12288_S8x1536x1 : S12288.ShapeCasts S8x1536x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x688_S1x2048x688_0_0_0 : ∀ a, (![0, 0, 0] : Fin 3 → Nat) a + S1x2048x688.size a ≤ S1x2048x688.size a
  h_S1x2048x688 : 0 < S1x2048x688.numel
  shapeCasts_S1x2048x688_S2048x688 : S1x2048x688.ShapeCasts S2048x688
  inb_S1x688x2048_S1x688x2048_0_0_0 : ∀ a, (![0, 0, 0] : Fin 3 → Nat) a + S1x688x2048.size a ≤ S1x688x2048.size a
  h_S1x688x2048 : 0 < S1x688x2048.numel
  shapeCasts_S1x688x2048_S688x2048 : S1x688x2048.ShapeCasts S688x2048
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x2048 : S512x1.Broadcasts S512x2048
  shapeCasts_S512x2048_S1x512x2048 : S512x2048.ShapeCasts S1x512x2048
  packedbf16_S1x512x2048_S1x512x2048_0_0_0 : (Rect.unit (s := S1x512x2048) ![0, 0, 0] S1x512x2048.size inb_S1x512x2048_S1x512x2048_0_0_0).PackedRows (EltTy.packing .bf16)
  shapeCasts_S8x1536x2048_S12288x2048 : S8x1536x2048.ShapeCasts S12288x2048
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  bcast_S_S4096x2048 : S_.BroadcastsInDim S4096x2048 (![] : Fin 0 → Fin S4096x2048.rank)
  gather_S8192_S8192x1_S8192_n_0_n_n_0_1_1_wf : GatherDims.WF S8192 S8192x1 S8192 [] [0] [] [0] [] 1 ![1]
  scatter_S8_S8192x1_S8192_n_0_0_1_wf : ScatterDims.WF S8 S8192x1 S8192 [] [0] [0] 1
  gather_S8_S8192x1_S8192_n_0_n_n_0_1_1_wf : GatherDims.WF S8 S8192x1 S8192 [] [0] [] [0] [] 1 ![1]
  gather_S4096x2048_S8192x1_S8192x2048_1_0_n_n_0_1_12048_wf : GatherDims.WF S4096x2048 S8192x1 S8192x2048 [1] [0] [] [0] [] 1 ![1, 2048]
  scatter_S12289x2048_S8192x1_S8192x2048_1_0_0_1_wf : ScatterDims.WF S12289x2048 S8192x1 S8192x2048 [1] [0] [0] 1
  scatter_S12289_S8192x1_S8192_n_0_0_1_wf : ScatterDims.WF S12289 S8192x1 S8192 [] [0] [0] 1
  dot_S512x2048_S2048x688_S512x688_1_0_0_1_n_n_wf : DotDims.WF S512x2048 S2048x688 S512x688 [1] [0] [0] [1] [] []
  dot_S512x688_S688x2048_S512x2048_1_0_0_1_n_n_wf : DotDims.WF S512x688 S688x2048 S512x2048 [1] [0] [0] [1] [] []
  gather_S12288x2048_S8192x1_S8192x2048_1_0_n_n_0_1_12048_wf : GatherDims.WF S12288x2048 S8192x1 S8192x2048 [1] [0] [] [0] [] 1 ![1, 2048]
  scatter_S4096x2048_S8192x1_S8192x2048_1_0_0_1_wf : ScatterDims.WF S4096x2048 S8192x1 S8192x2048 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x1536x2048.size a
  hwx0_0 : ∀ i : grid0.Coords, EltTy.bits .bf16 = 32 ∨ (Rect.block (s := S8x1536x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x688.size a ≤ S8x2048x688.size a
  hwx0_1 : ∀ i : grid0.Coords, EltTy.bits .bf16 = 32 ∨ (Rect.block (s := S8x2048x688) S1x2048x688.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x688.size a ≤ S8x2048x688.size a
  hwx0_2 : ∀ i : grid0.Coords, EltTy.bits .bf16 = 32 ∨ (Rect.block (s := S8x2048x688) S1x2048x688.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x688x2048.size a ≤ S8x688x2048.size a
  hwx0_3 : ∀ i : grid0.Coords, EltTy.bits .bf16 = 32 ∨ (Rect.block (s := S8x688x2048) S1x688x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S8x1536x1.size a
  hwx0_4 : ∀ i : grid0.Coords, EltTy.bits .f32 = 32 ∨ (Rect.block (s := S8x1536x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S8x1536x2048.size a
  hwx0_5 : ∀ i : grid0.Coords, EltTy.bits .bf16 = 32 ∨ (Rect.block (s := S8x1536x2048) S1x512x2048.size (cc0_transform_5 i) (hinb0_5 i)).WholeWords (EltTy.packing .bf16)

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def scatter_S8_S8192x1_S8192_n_0_0_1 : ScatterDims S8 S8192x1 S8192 where
  updateWindowDims := []
  insertedWindowDims := [0]
  scatterDimsToOperandDims := [0]
  indexVectorDim := 1
  wf := scatter_S8_S8192x1_S8192_n_0_0_1_wf
def gather_S8_S8192x1_S8192_n_0_n_n_0_1_1 : GatherDims S8 S8192x1 S8192 where
  offsetDims := []
  collapsedSliceDims := [0]
  operandBatchingDims := []
  startIndicesBatchingDims := []
  startIndexMap := [0]
  indexVectorDim := 1
  sliceSizes := ![1]
  wf := gather_S8_S8192x1_S8192_n_0_n_n_0_1_1_wf
def gather_S4096x2048_S8192x1_S8192x2048_1_0_n_n_0_1_12048 : GatherDims S4096x2048 S8192x1 S8192x2048 where
  offsetDims := [1]
  collapsedSliceDims := [0]
  operandBatchingDims := []
  startIndicesBatchingDims := []
  startIndexMap := [0]
  indexVectorDim := 1
  sliceSizes := ![1, 2048]
  wf := gather_S4096x2048_S8192x1_S8192x2048_1_0_n_n_0_1_12048_wf
def scatter_S12289x2048_S8192x1_S8192x2048_1_0_0_1 : ScatterDims S12289x2048 S8192x1 S8192x2048 where
  updateWindowDims := [1]
  insertedWindowDims := [0]
  scatterDimsToOperandDims := [0]
  indexVectorDim := 1
  wf := scatter_S12289x2048_S8192x1_S8192x2048_1_0_0_1_wf
def scatter_S12289_S8192x1_S8192_n_0_0_1 : ScatterDims S12289 S8192x1 S8192 where
  updateWindowDims := []
  insertedWindowDims := [0]
  scatterDimsToOperandDims := [0]
  indexVectorDim := 1
  wf := scatter_S12289_S8192x1_S8192_n_0_0_1_wf
def dot_S512x2048_S2048x688_S512x688_1_0_0_1_n_n : DotDims S512x2048 S2048x688 S512x688 where
  lhsContracting := [1]
  rhsContracting := [0]
  lhsNonContracting := [0]
  rhsNonContracting := [1]
  lhsBatch := []
  rhsBatch := []
  wf := dot_S512x2048_S2048x688_S512x688_1_0_0_1_n_n_wf
def dot_S512x688_S688x2048_S512x2048_1_0_0_1_n_n : DotDims S512x688 S688x2048 S512x2048 where
  lhsContracting := [1]
  rhsContracting := [0]
  lhsNonContracting := [0]
  rhsNonContracting := [1]
  lhsBatch := []
  rhsBatch := []
  wf := dot_S512x688_S688x2048_S512x2048_1_0_0_1_n_n_wf
def gather_S12288x2048_S8192x1_S8192x2048_1_0_n_n_0_1_12048 : GatherDims S12288x2048 S8192x1 S8192x2048 where
  offsetDims := [1]
  collapsedSliceDims := [0]
  operandBatchingDims := []
  startIndicesBatchingDims := []
  startIndexMap := [0]
  indexVectorDim := 1
  sliceSizes := ![1, 2048]
  wf := gather_S12288x2048_S8192x1_S8192x2048_1_0_n_n_0_1_12048_wf
def scatter_S4096x2048_S8192x1_S8192x2048_1_0_0_1 : ScatterDims S4096x2048 S8192x1 S8192x2048 where
  updateWindowDims := [1]
  insertedWindowDims := [0]
  scatterDimsToOperandDims := [0]
  indexVectorDim := 1
  wf := scatter_S4096x2048_S8192x1_S8192x2048_1_0_0_1_wf

abbrev win0_0 : Pipeline.Window sig grid0 :=
  Pipeline.Window.ofSpec (Memref.whole main_v74) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v85) S1x2048x688.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v86) S1x2048x688.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v87) S1x688x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v84) S1x512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v88) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096x2 : Shape := ⟨2, ![4096, 2]⟩
abbrev S8x2048x688 : Shape := ⟨3, ![8, 2048, 688]⟩
abbrev S8x688x2048 : Shape := ⟨3, ![8, 688, 2048]⟩
abbrev S8192 : Shape := ⟨1, ![8192]⟩
abbrev S4096 : Shape := ⟨1, ![4096]⟩
abbrev S_ : Shape := ⟨0, ![]⟩
abbrev S8192x1 : Shape := ⟨2, ![8192, 1]⟩
abbrev S8 : Shape := ⟨1, ![8]⟩
abbrev S12289x2048 : Shape := ⟨2, ![12289, 2048]⟩
abbrev S8192x2048 : Shape := ⟨2, ![8192, 2048]⟩
abbrev S12288x2048 : Shape := ⟨2, ![12288, 2048]⟩
abbrev S8x1536x2048 : Shape := ⟨3, ![8, 1536, 2048]⟩
abbrev S8x1536x688 : Shape := ⟨3, ![8, 1536, 688]⟩

abbrev nBuf : Space → Nat
  | .hbm => 153
  | .vmem => 0
  | .smem => 0
  | _ => 0

abbrev hbmTy0_0 (i : Nat) : BufTy := match i % 128 with
  | 0 => ⟨S4096x2048, .f32⟩
  | 1 => ⟨S4096x2, .i32⟩
  | 2 => ⟨S4096x2, .f32⟩
  | 3 => ⟨S8x2048x688, .f32⟩
  | 4 => ⟨S8x2048x688, .f32⟩
  | 5 => ⟨S8x688x2048, .f32⟩
  | 6 => ⟨S8192, .i32⟩
  | 7 => ⟨S8192, .f32⟩
  | 8 => ⟨S4096, .i32⟩
  | 9 => ⟨S4096x2, .i32⟩
  | 10 => ⟨S8192, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192, .i32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192, .f32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S8192x1, .i32⟩
  | 40 => ⟨S8192, .i32⟩
  | 41 => ⟨S_, .i32⟩
  | 42 => ⟨S8, .i32⟩
  | 43 => ⟨S_, .i32⟩
  | 44 => ⟨S_, .i32⟩
  | 45 => ⟨S8192, .i32⟩
  | 46 => ⟨S8192, .i32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S_, .i32⟩
  | 56 => ⟨S8192, .i32⟩
  | 57 => ⟨S8, .i32⟩
  | 58 => ⟨S_, .i32⟩
  | 59 => ⟨S_, .i32⟩
  | 60 => ⟨S8, .i32⟩
  | 61 => ⟨S8, .i32⟩
  | 62 => ⟨S8192, .i32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S8192, .i32⟩
  | 72 => ⟨S8192, .i32⟩
  | 73 => ⟨S_, .i32⟩
  | 74 => ⟨S8192, .i32⟩
  | 75 => ⟨S8192, .i1⟩
  | 76 => ⟨S_, .i32⟩
  | 77 => ⟨S8192, .i32⟩
  | 78 => ⟨S8192, .i32⟩
  | 79 => ⟨S8192, .i32⟩
  | 80 => ⟨S_, .i32⟩
  | 81 => ⟨S_, .i32⟩
  | 82 => ⟨S8192, .i32⟩
  | 83 => ⟨S8192, .i32⟩
  | 84 => ⟨S_, .f32⟩
  | 85 => ⟨S12289x2048, .f32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x2048, .f32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S12289x2048, .f32⟩
  | 104 => ⟨S12288x2048, .f32⟩
  | 105 => ⟨S8x1536x2048, .f32⟩
  | 106 => ⟨S8x1536x688, .f32⟩
  | 107 => ⟨S8x1536x688, .f32⟩
  | 108 => ⟨S8x1536x688, .f32⟩
  | 109 => ⟨S_, .f32⟩
  | 110 => ⟨S8x1536x688, .f32⟩
  | 111 => ⟨S8x1536x688, .f32⟩
  | 112 => ⟨S_, .f32⟩
  | 113 => ⟨S8x1536x688, .f32⟩
  | 114 => ⟨S8x1536x688, .f32⟩
  | 115 => ⟨S8x1536x688, .f32⟩
  | 116 => ⟨S8x1536x688, .f32⟩
  | 117 => ⟨S8x1536x688, .f32⟩
  | 118 => ⟨S8x1536x2048, .f32⟩
  | 119 => ⟨S12288x2048, .f32⟩
  | 120 => ⟨S_, .i32⟩
  | 121 => ⟨S8192, .i32⟩
  | 122 => ⟨S8192, .i32⟩
  | 123 => ⟨S_, .i32⟩
  | 124 => ⟨S8192, .i32⟩
  | 125 => ⟨S8192, .i1⟩
  | 126 => ⟨S_, .i32⟩
  | 127 => ⟨S8192, .i32⟩
  | _ => ⟨S4096x2048, .f32⟩

abbrev hbmTy0_1 (i : Nat) : BufTy := match i % 128 with
  | 0 => ⟨S8192, .i32⟩
  | 1 => ⟨S8192, .i32⟩
  | 2 => ⟨S8192x1, .i32⟩
  | 3 => ⟨S8192x2048, .f32⟩
  | 4 => ⟨S_, .f32⟩
  | 5 => ⟨S8192, .f32⟩
  | 6 => ⟨S8192, .f32⟩
  | 7 => ⟨S_, .f32⟩
  | 8 => ⟨S_, .f32⟩
  | 9 => ⟨S8192, .f32⟩
  | 10 => ⟨S8192, .f32⟩
  | 11 => ⟨S8192x1, .f32⟩
  | 12 => ⟨S_, .f32⟩
  | 13 => ⟨S4096x2048, .f32⟩
  | 14 => ⟨S8192x2048, .f32⟩
  | 15 => ⟨S8192x2048, .f32⟩
  | 16 => ⟨S_, .i32⟩
  | 17 => ⟨S8192, .i32⟩
  | 18 => ⟨S8192, .i1⟩
  | 19 => ⟨S_, .i32⟩
  | 20 => ⟨S8192, .i32⟩
  | 21 => ⟨S8192, .i32⟩
  | 22 => ⟨S8192, .i32⟩
  | 23 => ⟨S8192x1, .i32⟩
  | 24 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_c_6 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_call2_call0_c : Ref sig .tc := ⟨.hbm, 58, rfl⟩
abbrev main_call2_call0_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_12 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_14 : Ref sig .tc := ⟨.hbm, 80, rfl⟩
abbrev main_call3_v0 : Ref sig .tc := ⟨.hbm, 81, rfl⟩
abbrev main_call3_v1 : Ref sig .tc := ⟨.hbm, 82, rfl⟩
abbrev main_v53 : Ref sig .tc := ⟨.hbm, 83, rfl⟩
abbrev main_cst : Ref sig .tc := ⟨.hbm, 84, rfl⟩
abbrev main_v54 : Ref sig .tc := ⟨.hbm, 85, rfl⟩
abbrev main_c_15 : Ref sig .tc := ⟨.hbm, 86, rfl⟩
abbrev main_v55 : Ref sig .tc := ⟨.hbm, 87, rfl⟩
abbrev main_v56 : Ref sig .tc := ⟨.hbm, 88, rfl⟩
abbrev main_c_16 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_17 : Ref sig .tc := ⟨.hbm, 95, rfl⟩
abbrev main_v62 : Ref sig .tc := ⟨.hbm, 96, rfl⟩
abbrev main_v63 : Ref sig .tc := ⟨.hbm, 97, rfl⟩
abbrev main_c_18 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_call4_v0 : Ref sig .tc := ⟨.hbm, 107, rfl⟩
abbrev main_call4_v1 : Ref sig .tc := ⟨.hbm, 108, rfl⟩
abbrev main_call4_cst : Ref sig .tc := ⟨.hbm, 109, rfl⟩
abbrev main_call4_v2 : Ref sig .tc := ⟨.hbm, 110, rfl⟩
abbrev main_call4_v3 : Ref sig .tc := ⟨.hbm, 111, rfl⟩
abbrev main_call4_cst_0 : Ref sig .tc := ⟨.hbm, 112, rfl⟩
abbrev main_call4_v4 : Ref sig .tc := ⟨.hbm, 113, rfl⟩
abbrev main_call4_v5 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_c_19 : Ref sig .tc := ⟨.hbm, 120, rfl⟩
abbrev main_v77 : Ref sig .tc := ⟨.hbm, 121, rfl⟩
abbrev main_v78 : Ref sig .tc := ⟨.hbm, 122, rfl⟩
abbrev main_c_20 : Ref sig .tc := ⟨.hbm, 123, rfl⟩
abbrev main_v79 : Ref sig .tc := ⟨.hbm, 124, rfl⟩
abbrev main_v80 : Ref sig .tc := ⟨.hbm, 125, rfl⟩
abbrev main_c_21 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_22 : Ref sig .tc := ⟨.hbm, 132, rfl⟩
abbrev main_v86 : Ref sig .tc := ⟨.hbm, 133, rfl⟩
abbrev main_v87 : Ref sig .tc := ⟨.hbm, 134, rfl⟩
abbrev main_cst_23 : Ref sig .tc := ⟨.hbm, 135, rfl⟩
abbrev main_call5_v0 : Ref sig .tc := ⟨.hbm, 136, rfl⟩
abbrev main_call5_v1 : Ref sig .tc := ⟨.hbm, 137, rfl⟩
abbrev main_v88 : Ref sig .tc := ⟨.hbm, 138, rfl⟩
abbrev main_v89 : Ref sig .tc := ⟨.hbm, 139, rfl⟩
abbrev main_cst_24 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_c_25 : Ref sig .tc := ⟨.hbm, 144, rfl⟩
abbrev main_v93 : Ref sig .tc := ⟨.hbm, 145, rfl⟩
abbrev main_v94 : Ref sig .tc := ⟨.hbm, 146, rfl⟩
abbrev main_c_26 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩

abbrev nD : Nat := 1
abbrev τ : Topo := Topo.v7x

variable {F : FTy → Type} [FloatOps F]

class Facts₀ : Prop where
  shapeCasts_S4096x2_S8192 : S4096x2.ShapeCasts S8192
  bcast_S4096_S4096x2_0 : S4096.BroadcastsInDim S4096x2 (![0] : Fin 1 → Fin S4096x2.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8 : S_.BroadcastsInDim S8 (![] : Fin 0 → Fin S8.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S12289x2048 : S_.BroadcastsInDim S12289x2048 (![] : Fin 0 → Fin S12289x2048.rank)
  slices_S12289x2048_S12288x2048_0_0 : S12289x2048.Slices ![0, 0] S12288x2048
  shapeCasts_S12288x2048_S8x1536x2048 : S12288x2048.ShapeCasts S8x1536x2048
  bcast_S_S8x1536x688 : S_.BroadcastsInDim S8x1536x688 (![] : Fin 0 → Fin S8x1536x688.rank)
  shapeCasts_S8x1536x2048_S12288x2048 : S8x1536x2048.ShapeCasts S12288x2048
  bcast_S_S4096x2048 : S_.BroadcastsInDim S4096x2048 (![] : Fin 0 → Fin S4096x2048.rank)
  bcast_S8192x1_S8192x2048_0_1 : S8192x1.BroadcastsInDim S8192x2048 (![0, 1] : Fin 2 → Fin S8192x2048.rank)
  gather_S8192_S8192x1_S8192_n_0_n_n_0_1_1_wf : GatherDims.WF S8192 S8192x1 S8192 [] [0] [] [0] [] 1 ![1]
  scatter_S8_S8192x1_S8192_n_0_0_1_wf : ScatterDims.WF S8 S8192x1 S8192 [] [0] [0] 1
  gather_S8_S8192x1_S8192_n_0_n_n_0_1_1_wf : GatherDims.WF S8 S8192x1 S8192 [] [0] [] [0] [] 1 ![1]
  gather_S4096x2048_S8192x1_S8192x2048_1_0_n_n_0_1_12048_wf : GatherDims.WF S4096x2048 S8192x1 S8192x2048 [1] [0] [] [0] [] 1 ![1, 2048]
  scatter_S12289x2048_S8192x1_S8192x2048_1_0_0_1_wf : ScatterDims.WF S12289x2048 S8192x1 S8192x2048 [1] [0] [0] 1
  dot_S8x1536x2048_S8x2048x688_S8x1536x688_2_1_1_2_0_0_wf : DotDims.WF S8x1536x2048 S8x2048x688 S8x1536x688 [2] [1] [1] [2] [0] [0]
  dot_S8x1536x688_S8x688x2048_S8x1536x2048_2_1_1_2_0_0_wf : DotDims.WF S8x1536x688 S8x688x2048 S8x1536x2048 [2] [1] [1] [2] [0] [0]
  gather_S12288x2048_S8192x1_S8192x2048_1_0_n_n_0_1_12048_wf : GatherDims.WF S12288x2048 S8192x1 S8192x2048 [1] [0] [] [0] [] 1 ![1, 2048]
  scatter_S4096x2048_S8192x1_S8192x2048_1_0_0_1_wf : ScatterDims.WF S4096x2048 S8192x1 S8192x2048 [1] [0] [0] 1

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def scatter_S8_S8192x1_S8192_n_0_0_1 : ScatterDims S8 S8192x1 S8192 where
  updateWindowDims := []
  insertedWindowDims := [0]
  scatterDimsToOperandDims := [0]
  indexVectorDim := 1
  wf := scatter_S8_S8192x1_S8192_n_0_0_1_wf
def gather_S8_S8192x1_S8192_n_0_n_n_0_1_1 : GatherDims S8 S8192x1 S8192 where
  offsetDims := []
  collapsedSliceDims := [0]
  operandBatchingDims := []
  startIndicesBatchingDims := []
  startIndexMap := [0]
  indexVectorDim := 1
  sliceSizes := ![1]
  wf := gather_S8_S8192x1_S8192_n_0_n_n_0_1_1_wf
def gather_S4096x2048_S8192x1_S8192x2048_1_0_n_n_0_1_12048 : GatherDims S4096x2048 S8192x1 S8192x2048 where
  offsetDims := [1]
  collapsedSliceDims := [0]
  operandBatchingDims := []
  startIndicesBatchingDims := []
  startIndexMap := [0]
  indexVectorDim := 1
  sliceSizes := ![1, 2048]
  wf := gather_S4096x2048_S8192x1_S8192x2048_1_0_n_n_0_1_12048_wf
def scatter_S12289x2048_S8192x1_S8192x2048_1_0_0_1 : ScatterDims S12289x2048 S8192x1 S8192x2048 where
  updateWindowDims := [1]
  insertedWindowDims := [0]
  scatterDimsToOperandDims := [0]
  indexVectorDim := 1
  wf := scatter_S12289x2048_S8192x1_S8192x2048_1_0_0_1_wf
def dot_S8x1536x2048_S8x2048x688_S8x1536x688_2_1_1_2_0_0 : DotDims S8x1536x2048 S8x2048x688 S8x1536x688 where
  lhsContracting := [2]
  rhsContracting := [1]
  lhsNonContracting := [1]
  rhsNonContracting := [2]
  lhsBatch := [0]
  rhsBatch := [0]
  wf := dot_S8x1536x2048_S8x2048x688_S8x1536x688_2_1_1_2_0_0_wf
def dot_S8x1536x688_S8x688x2048_S8x1536x2048_2_1_1_2_0_0 : DotDims S8x1536x688 S8x688x2048 S8x1536x2048 where
  lhsContracting := [2]
  rhsContracting := [1]
  lhsNonContracting := [1]
  rhsNonContracting := [2]
  lhsBatch := [0]
  rhsBatch := [0]
  wf := dot_S8x1536x688_S8x688x2048_S8x1536x2048_2_1_1_2_0_0_wf
def gather_S12288x2048_S8192x1_S8192x2048_1_0_n_n_0_1_12048 : GatherDims S12288x2048 S8192x1 S8192x2048 where
  offsetDims := [1]
  collapsedSliceDims := [0]
  operandBatchingDims := []
  startIndicesBatchingDims := []
  startIndexMap := [0]
  indexVectorDim := 1
  sliceSizes := ![1, 2048]
  wf := gather_S12288x2048_S8192x1_S8192x2048_1_0_n_n_0_1_12048_wf
def scatter_S4096x2048_S8192x1_S8192x2048_1_0_0_1 : ScatterDims S4096x2048 S8192x1 S8192x2048 where
  updateWindowDims := [1]
  insertedWindowDims := [0]
  scatterDimsToOperandDims := [0]
  indexVectorDim := 1
  wf := scatter_S4096x2048_S8192x1_S8192x2048_1_0_0_1_wf

class Facts : Prop extends Facts₀ where

variable [Facts]
-- ==== Proof.RefOps.lean ====
/-
  The reference program as ONE straight line of 147 host operations, and its run.

  The printed @main is three windows of statements, six of them calls of module-local functions; a call runs the
  callee's operations on the caller's buffers, so written out at the call sites the whole program is one list of
  operations (`ops`), and @main is that list run in order (`main_eq`). A straight line of host operations always
  terminates, and every buffer ends at the fold of the operations' results over what the launch put there (`run`).
-/
import proofs.«116065_j74380243632185_2_alg».proof.ReferenceIdeal
import proofs.«116065_j74380243632185_2_alg».proof.Proof.Gen.ReferenceIdeal
import Idealize.ShloMosaic.Lib.StableHlo.Run

noncomputable section

namespace Cert.Moe.Ref

open Idealize.ShloMosaic Idealize.SL.Sem Cert.ReferenceIdeal Cert.ReferenceIdeal.Facts₀

variable {F : FTy → Type} [FloatOps F]

/-- The reference's operations, in program order, the callees' written out at their call sites. -/
abbrev ops : List (HloOp τ sig (Elt F)) :=
  [ StableHlo.reshape main_arg1 main_v0 rfl shapeCasts_S4096x2_S8192,
    StableHlo.reshape main_arg2 main_v1 rfl shapeCasts_S4096x2_S8192,
    StableHlo.nullary main_v2 (iotaInDim S4096 32 0),
    StableHlo.unary main_v2 main_v3 (broadcastInDim S4096x2 ![0] bcast_S4096_S4096x2_0 : (⟨S4096, .i32⟩ : BufTy).Contents (Elt F) → (⟨S4096x2, .i32⟩ : BufTy).Contents (Elt F)),
    StableHlo.reshape main_v3 main_v4 rfl shapeCasts_S4096x2_S8192,
    StableHlo.TRef.nullary main_call0.v0 (iotaInDim S8192 32 0),
    StableHlo.TRef.binary (.of main_v0 : StableHlo.TRef sig ⟨S8192, .i32⟩) main_call0.v0 main_call0.v1_0 (fun x y => (Host.sort2 S8192 0 comparator_i32_i32_d0 x y).1),
    StableHlo.TRef.binary (.of main_v0 : StableHlo.TRef sig ⟨S8192, .i32⟩) main_call0.v0 main_call0.v1_1 (fun x y => (Host.sort2 S8192 0 comparator_i32_i32_d0 x y).2),
    StableHlo.nullary main_c (constantI S_ 32 0#32),
    StableHlo.unary main_c main_v6 (broadcastInDim S8192 ![] bcast_S_S8192 : (⟨S_, .i32⟩ : BufTy).Contents (Elt F) → (⟨S8192, .i32⟩ : BufTy).Contents (Elt F)),
    StableHlo.binary main_v5 main_v6 main_v7 (cmpi .slt : (⟨S8192, .i32⟩ : BufTy).Contents (Elt F) → (⟨S8192, .i32⟩ : BufTy).Contents (Elt F) → (⟨S8192, .i1⟩ : BufTy).Contents (Elt F)),
    StableHlo.nullary main_c_0 (constantI S_ 32 8192#32),
    StableHlo.unary main_c_0 main_v8 (broadcastInDim S8192 ![] bcast_S_S8192 : (⟨S_, .i32⟩ : BufTy).Contents (Elt F) → (⟨S8192, .i32⟩ : BufTy).Contents (Elt F)),
    StableHlo.binary main_v5 main_v8 main_v9 (addi : (⟨S8192, .i32⟩ : BufTy).Contents (Elt F) → (⟨S8192, .i32⟩ : BufTy).Contents (Elt F) → (⟨S8192, .i32⟩ : BufTy).Contents (Elt F)),
    StableHlo.ternary main_v7 main_v9 main_v5 main_v10 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v10 main_v11 (broadcastInDim S8192x1 ![0] bcast_S8192_S8192x1_0 : (⟨S8192, .i32⟩ : BufTy).Contents (Elt F) → (⟨S8192x1, .i32⟩ : BufTy).Contents (Elt F)),
    StableHlo.binary main_v0 main_v11 main_v12 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    StableHlo.nullary main_c_1 (constantI S_ 32 0#32),
    StableHlo.unary main_c_1 main_v13 (broadcastInDim S8192 ![] bcast_S_S8192 : (⟨S_, .i32⟩ : BufTy).Contents (Elt F) → (⟨S8192, .i32⟩ : BufTy).Contents (Elt F)),
    StableHlo.binary main_v5 main_v13 main_v14 (cmpi .slt : (⟨S8192, .i32⟩ : BufTy).Contents (Elt F) → (⟨S8192, .i32⟩ : BufTy).Contents (Elt F) → (⟨S8192, .i1⟩ : BufTy).Contents (Elt F)),
    StableHlo.nullary main_c_2 (constantI S_ 32 8192#32),
    StableHlo.unary main_c_2 main_v15 (broadcastInDim S8192 ![] bcast_S_S8192 : (⟨S_, .i32⟩ : BufTy).Contents (Elt F) → (⟨S8192, .i32⟩ : BufTy).Contents (Elt F)),
    StableHlo.binary main_v5 main_v15 main_v16 (addi : (⟨S8192, .i32⟩ : BufTy).Contents (Elt F) → (⟨S8192, .i32⟩ : BufTy).Contents (Elt F) → (⟨S8192, .i32⟩ : BufTy).Contents (Elt F)),
    StableHlo.ternary main_v14 main_v16 main_v5 main_v17 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v17 main_v18 (broadcastInDim S8192x1 ![0] bcast_S8192_S8192x1_0 : (⟨S8192, .i32⟩ : BufTy).Contents (Elt F) → (⟨S8192x1, .i32⟩ : BufTy).Contents (Elt F)),
    StableHlo.binary main_v1 main_v18 main_v19 ((fun x i => Host.gather gather_S8192_S8192x1_S8192_n_0_n_n_0_1_1 x i) : (⟨S8192, .f32⟩ : BufTy).Contents (Elt F) → (⟨S8192x1, .i32⟩ : BufTy).Contents (Elt F) → (⟨S8192, .f32⟩ : BufTy).Contents (Elt F)),
    StableHlo.nullary main_c_3 (constantI S_ 32 0#32),
    StableHlo.unary main_c_3 main_v20 (broadcastInDim S8192 ![] bcast_S_S8192 : (⟨S_, .i32⟩ : BufTy).Contents (Elt F) → (⟨S8192, .i32⟩ : BufTy).Contents (Elt F)),
    StableHlo.binary main_v5 main_v20 main_v21 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 8192#32),
    StableHlo.unary main_c_4 main_v22 (broadcastInDim S8192 ![] bcast_S_S8192 : (⟨S_, .i32⟩ : BufTy).Contents (Elt F) → (⟨S8192, .i32⟩ : BufTy).Contents (Elt F)),
    StableHlo.binary main_v5 main_v22 main_v23 (addi : (⟨S8192, .i32⟩ : BufTy).Contents (Elt F) → (⟨S8192, .i32⟩ : BufTy).Contents (Elt F) → (⟨S8192, .i32⟩ : BufTy).Contents (Elt F)),
    StableHlo.ternary main_v21 main_v23 main_v5 main_v24 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v24 main_v25 (broadcastInDim S8192x1 ![0] bcast_S8192_S8192x1_0 : (⟨S8192, .i32⟩ : BufTy).Contents (Elt F) → (⟨S8192x1, .i32⟩ : BufTy).Contents (Elt F)),
    StableHlo.binary main_v4 main_v25 main_v26 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    StableHlo.nullary main_c_5 (constantI S_ 32 0#32),
    StableHlo.unary main_c_5 main_v27 (broadcastInDim S8 ![] bcast_S_S8 : (⟨S_, .i32⟩ : BufTy).Contents (Elt F) → (⟨S8, .i32⟩ : BufTy).Contents (Elt F)),
    StableHlo.nullary main_c_6 (constantI S_ 32 0#32),
    StableHlo.TRef.unary (.of main_c_6 : StableHlo.TRef sig ⟨S_, .i32⟩) main_call1.v0 id,
    StableHlo.TRef.unary main_call1.v0 main_call1.v1 (broadcastInDim S8192 ![] bcast_S_S8192),
    StableHlo.TRef.binary main_call1.v1 (.of main_v12 : StableHlo.TRef sig ⟨S8192, .i32⟩) main_call1.v2 maxsi,
    StableHlo.nullary main_c_7 (constantI S_ 32 0#32),
    StableHlo.unary main_c_7 main_v29 (broadcastInDim S8192 ![] bcast_S_S8192 : (⟨S_, .i32⟩ : BufTy).Contents (Elt F) → (⟨S8192, .i32⟩ : BufTy).Contents (Elt F)),
    StableHlo.binary main_v28 main_v29 main_v30 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 8#32),
    StableHlo.unary main_c_8 main_v31 (broadcastInDim S8192 ![] bcast_S_S8192 : (⟨S_, .i32⟩ : BufTy).Contents (Elt F) → (⟨S8192, .i32⟩ : BufTy).Contents (Elt F)),
    StableHlo.binary main_v28 main_v31 main_v32 (addi : (⟨S8192, .i32⟩ : BufTy).Contents (Elt F) → (⟨S8192, .i32⟩ : BufTy).Contents (Elt F) → (⟨S8192, .i32⟩ : BufTy).Contents (Elt F)),
    StableHlo.ternary main_v30 main_v32 main_v28 main_v33 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v33 main_v34 (broadcastInDim S8192x1 ![0] bcast_S8192_S8192x1_0 : (⟨S8192, .i32⟩ : BufTy).Contents (Elt F) → (⟨S8192x1, .i32⟩ : BufTy).Contents (Elt F)),
    StableHlo.nullary main_c_9 (constantI S_ 32 1#32),
    StableHlo.unary main_c_9 main_v35 (broadcastInDim S8192 ![] bcast_S_S8192 : (⟨S_, .i32⟩ : BufTy).Contents (Elt F) → (⟨S8192, .i32⟩ : BufTy).Contents (Elt F)),
    StableHlo.ternary main_v27 main_v34 main_v35 main_v36 ((fun x i u => Host.scatter scatter_S8_S8192x1_S8192_n_0_0_1 IntOp.addi x i u) : (⟨S8, .i32⟩ : BufTy).Contents (Elt F) → (⟨S8192x1, .i32⟩ : BufTy).Contents (Elt F) → (⟨S8192, .i32⟩ : BufTy).Contents (Elt F) → (⟨S8, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v36 : StableHlo.TRef sig ⟨S8, .i32⟩) main_call2.call0.v0 main_call2.call0.v1 (fun x v => Host.reduceWindow IntOp.addi ![8] ![1] ![7] ![0] x v reduceWindows_S8_S8_w8s1p7_0 h_S_),
    StableHlo.binary main_v37 main_v36 main_v38 (subi : (⟨S8, .i32⟩ : BufTy).Contents (Elt F) → (⟨S8, .i32⟩ : BufTy).Contents (Elt F) → (⟨S8, .i32⟩ : BufTy).Contents (Elt F)),
    StableHlo.nullary main_v39 (iotaInDim S8192 32 0),
    StableHlo.nullary main_c_10 (constantI S_ 32 0#32),
    StableHlo.unary main_c_10 main_v40 (broadcastInDim S8192 ![] bcast_S_S8192 : (⟨S_, .i32⟩ : BufTy).Contents (Elt F) → (⟨S8192, .i32⟩ : BufTy).Contents (Elt F)),
    StableHlo.binary main_v12 main_v40 main_v41 (cmpi .slt : (⟨S8192, .i32⟩ : BufTy).Contents (Elt F) → (⟨S8192, .i32⟩ : BufTy).Contents (Elt F) → (⟨S8192, .i1⟩ : BufTy).Contents (Elt F)),
    StableHlo.nullary main_c_11 (constantI S_ 32 8#32),
    StableHlo.unary main_c_11 main_v42 (broadcastInDim S8192 ![] bcast_S_S8192 : (⟨S_, .i32⟩ : BufTy).Contents (Elt F) → (⟨S8192, .i32⟩ : BufTy).Contents (Elt F)),
    StableHlo.binary main_v12 main_v42 main_v43 (addi : (⟨S8192, .i32⟩ : BufTy).Contents (Elt F) → (⟨S8192, .i32⟩ : BufTy).Contents (Elt F) → (⟨S8192, .i32⟩ : BufTy).Contents (Elt F)),
    StableHlo.ternary main_v41 main_v43 main_v12 main_v44 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v44 main_v45 (broadcastInDim S8192x1 ![0] bcast_S8192_S8192x1_0 : (⟨S8192, .i32⟩ : BufTy).Contents (Elt F) → (⟨S8192x1, .i32⟩ : BufTy).Contents (Elt F)),
    StableHlo.binary main_v38 main_v45 main_v46 ((fun x i => Host.gather gather_S8_S8192x1_S8192_n_0_n_n_0_1_1 x i) : (⟨S8, .i32⟩ : BufTy).Contents (Elt F) → (⟨S8192x1, .i32⟩ : BufTy).Contents (Elt F) → (⟨S8192, .i32⟩ : BufTy).Contents (Elt F)),
    StableHlo.binary main_v39 main_v46 main_v47 (subi : (⟨S8192, .i32⟩ : BufTy).Contents (Elt F) → (⟨S8192, .i32⟩ : BufTy).Contents (Elt F) → (⟨S8192, .i32⟩ : BufTy).Contents (Elt F)),
    StableHlo.nullary main_c_12 (constantI S_ 32 1536#32),
    StableHlo.unary main_c_12 main_v48 (broadcastInDim S8192 ![] bcast_S_S8192 : (⟨S_, .i32⟩ : BufTy).Contents (Elt F) → (⟨S8192, .i32⟩ : BufTy).Contents (Elt F)),
    StableHlo.binary main_v47 main_v48 main_v49 (cmpi .slt : (⟨S8192, .i32⟩ : BufTy).Contents (Elt F) → (⟨S8192, .i32⟩ : BufTy).Contents (Elt F) → (⟨S8192, .i1⟩ : BufTy).Contents (Elt F)),
    StableHlo.nullary main_c_13 (constantI S_ 32 1536#32),
    StableHlo.unary main_c_13 main_v50 (broadcastInDim S8192 ![] bcast_S_S8192 : (⟨S_, .i32⟩ : BufTy).Contents (Elt F) → (⟨S8192, .i32⟩ : BufTy).Contents (Elt F)),
    StableHlo.binary main_v12 main_v50 main_v51 (muli : (⟨S8192, .i32⟩ : BufTy).Contents (Elt F) → (⟨S8192, .i32⟩ : BufTy).Contents (Elt F) → (⟨S8192, .i32⟩ : BufTy).Contents (Elt F)),
    StableHlo.binary main_v51 main_v47 main_v52 (addi : (⟨S8192, .i32⟩ : BufTy).Contents (Elt F) → (⟨S8192, .i32⟩ : BufTy).Contents (Elt F) → (⟨S8192, .i32⟩ : BufTy).Contents (Elt F)),
    StableHlo.nullary main_c_14 (constantI S_ 32 12288#32),
    StableHlo.TRef.unary (.of main_c_14 : StableHlo.TRef sig ⟨S_, .i32⟩) main_call3.v0 id,
    StableHlo.TRef.unary main_call3.v0 main_call3.v1 (broadcastInDim S8192 ![] bcast_S_S8192),
    StableHlo.TRef.ternary (.of main_v49 : StableHlo.TRef sig ⟨S8192, .i1⟩) (.of main_v52 : StableHlo.TRef sig ⟨S8192, .i32⟩) main_call3.v1 main_call3.v2 select,
    StableHlo.nullary main_cst (constant S_ .f32 0x00000000#32),
    StableHlo.unary main_cst main_v54 (broadcastInDim S12289x2048 ![] bcast_S_S12289x2048 : (⟨S_, .f32⟩ : BufTy).Contents (Elt F) → (⟨S12289x2048, .f32⟩ : BufTy).Contents (Elt F)),
    StableHlo.nullary main_c_15 (constantI S_ 32 0#32),
    StableHlo.unary main_c_15 main_v55 (broadcastInDim S8192 ![] bcast_S_S8192 : (⟨S_, .i32⟩ : BufTy).Contents (Elt F) → (⟨S8192, .i32⟩ : BufTy).Contents (Elt F)),
    StableHlo.binary main_v26 main_v55 main_v56 (cmpi .slt : (⟨S8192, .i32⟩ : BufTy).Contents (Elt F) → (⟨S8192, .i32⟩ : BufTy).Contents (Elt F) → (⟨S8192, .i1⟩ : BufTy).Contents (Elt F)),
    StableHlo.nullary main_c_16 (constantI S_ 32 4096#32),
    StableHlo.unary main_c_16 main_v57 (broadcastInDim S8192 ![] bcast_S_S8192 : (⟨S_, .i32⟩ : BufTy).Contents (Elt F) → (⟨S8192, .i32⟩ : BufTy).Contents (Elt F)),
    StableHlo.binary main_v26 main_v57 main_v58 (addi : (⟨S8192, .i32⟩ : BufTy).Contents (Elt F) → (⟨S8192, .i32⟩ : BufTy).Contents (Elt F) → (⟨S8192, .i32⟩ : BufTy).Contents (Elt F)),
    StableHlo.ternary main_v56 main_v58 main_v26 main_v59 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v59 main_v60 (broadcastInDim S8192x1 ![0] bcast_S8192_S8192x1_0 : (⟨S8192, .i32⟩ : BufTy).Contents (Elt F) → (⟨S8192x1, .i32⟩ : BufTy).Contents (Elt F)),
    StableHlo.binary main_arg0 main_v60 main_v61 ((fun x i => Host.gather gather_S4096x2048_S8192x1_S8192x2048_1_0_n_n_0_1_12048 x i) : (⟨S4096x2048, .f32⟩ : BufTy).Contents (Elt F) → (⟨S8192x1, .i32⟩ : BufTy).Contents (Elt F) → (⟨S8192x2048, .f32⟩ : BufTy).Contents (Elt F)),
    StableHlo.nullary main_c_17 (constantI S_ 32 0#32),
    StableHlo.unary main_c_17 main_v62 (broadcastInDim S8192 ![] bcast_S_S8192 : (⟨S_, .i32⟩ : BufTy).Contents (Elt F) → (⟨S8192, .i32⟩ : BufTy).Contents (Elt F)),
    StableHlo.binary main_v53 main_v62 main_v63 (cmpi .slt : (⟨S8192, .i32⟩ : BufTy).Contents (Elt F) → (⟨S8192, .i32⟩ : BufTy).Contents (Elt F) → (⟨S8192, .i1⟩ : BufTy).Contents (Elt F)),
    StableHlo.nullary main_c_18 (constantI S_ 32 12289#32),
    StableHlo.unary main_c_18 main_v64 (broadcastInDim S8192 ![] bcast_S_S8192 : (⟨S_, .i32⟩ : BufTy).Contents (Elt F) → (⟨S8192, .i32⟩ : BufTy).Contents (Elt F)),
    StableHlo.binary main_v53 main_v64 main_v65 (addi : (⟨S8192, .i32⟩ : BufTy).Contents (Elt F) → (⟨S8192, .i32⟩ : BufTy).Contents (Elt F) → (⟨S8192, .i32⟩ : BufTy).Contents (Elt F)),
    StableHlo.ternary main_v63 main_v65 main_v53 main_v66 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v66 main_v67 (broadcastInDim S8192x1 ![0] bcast_S8192_S8192x1_0 : (⟨S8192, .i32⟩ : BufTy).Contents (Elt F) → (⟨S8192x1, .i32⟩ : BufTy).Contents (Elt F)),
    StableHlo.ternary main_v54 main_v67 main_v61 main_v68 ((fun x i u => Host.scatter scatter_S12289x2048_S8192x1_S8192x2048_1_0_0_1 (fun _ b => b) x i u) : (⟨S12289x2048, .f32⟩ : BufTy).Contents (Elt F) → (⟨S8192x1, .i32⟩ : BufTy).Contents (Elt F) → (⟨S8192x2048, .f32⟩ : BufTy).Contents (Elt F) → (⟨S12289x2048, .f32⟩ : BufTy).Contents (Elt F)),
    StableHlo.unary main_v68 main_v69 ((extractStridedSlice S12288x2048 ![0, 0] · slices_S12289x2048_S12288x2048_0_0) : (⟨S12289x2048, .f32⟩ : BufTy).Contents (Elt F) → (⟨S12288x2048, .f32⟩ : BufTy).Contents (Elt F)),
    StableHlo.reshape main_v69 main_v70 rfl shapeCasts_S12288x2048_S8x1536x2048,
    StableHlo.binary main_v70 main_arg3 main_v71 ((fun l r => Host.dotGeneral dot_S8x1536x2048_S8x2048x688_S8x1536x688_2_1_1_2_0_0 none l r) : (⟨S8x1536x2048, .f32⟩ : BufTy).Contents (Elt F) → (⟨S8x2048x688, .f32⟩ : BufTy).Contents (Elt F) → (⟨S8x1536x688, .f32⟩ : BufTy).Contents (Elt F)),
    StableHlo.TRef.unary (.of main_v71 : StableHlo.TRef sig ⟨S8x1536x688, .f32⟩) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S8x1536x688 ![] bcast_S_S8x1536x688),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S8x1536x688 ![] bcast_S_S8x1536x688),
    StableHlo.TRef.binary main_call4.v4 main_call4.v3 main_call4.v5 Host.divf,
    StableHlo.TRef.binary (.of main_v71 : StableHlo.TRef sig ⟨S8x1536x688, .f32⟩) main_call4.v5 main_call4.v6 mulf,
    StableHlo.binary main_v70 main_arg4 main_v73 ((fun l r => Host.dotGeneral dot_S8x1536x2048_S8x2048x688_S8x1536x688_2_1_1_2_0_0 none l r) : (⟨S8x1536x2048, .f32⟩ : BufTy).Contents (Elt F) → (⟨S8x2048x688, .f32⟩ : BufTy).Contents (Elt F) → (⟨S8x1536x688, .f32⟩ : BufTy).Contents (Elt F)),
    StableHlo.binary main_v72 main_v73 main_v74 (mulf : (⟨S8x1536x688, .f32⟩ : BufTy).Contents (Elt F) → (⟨S8x1536x688, .f32⟩ : BufTy).Contents (Elt F) → (⟨S8x1536x688, .f32⟩ : BufTy).Contents (Elt F)),
    StableHlo.binary main_v74 main_arg5 main_v75 ((fun l r => Host.dotGeneral dot_S8x1536x688_S8x688x2048_S8x1536x2048_2_1_1_2_0_0 none l r) : (⟨S8x1536x688, .f32⟩ : BufTy).Contents (Elt F) → (⟨S8x688x2048, .f32⟩ : BufTy).Contents (Elt F) → (⟨S8x1536x2048, .f32⟩ : BufTy).Contents (Elt F)),
    StableHlo.reshape main_v75 main_v76 rfl shapeCasts_S8x1536x2048_S12288x2048,
    StableHlo.nullary main_c_19 (constantI S_ 32 12287#32),
    StableHlo.unary main_c_19 main_v77 (broadcastInDim S8192 ![] bcast_S_S8192 : (⟨S_, .i32⟩ : BufTy).Contents (Elt F) → (⟨S8192, .i32⟩ : BufTy).Contents (Elt F)),
    StableHlo.binary main_v53 main_v77 main_v78 (minsi : (⟨S8192, .i32⟩ : BufTy).Contents (Elt F) → (⟨S8192, .i32⟩ : BufTy).Contents (Elt F) → (⟨S8192, .i32⟩ : BufTy).Contents (Elt F)),
    StableHlo.nullary main_c_20 (constantI S_ 32 0#32),
    StableHlo.unary main_c_20 main_v79 (broadcastInDim S8192 ![] bcast_S_S8192 : (⟨S_, .i32⟩ : BufTy).Contents (Elt F) → (⟨S8192, .i32⟩ : BufTy).Contents (Elt F)),
    StableHlo.binary main_v78 main_v79 main_v80 (cmpi .slt : (⟨S8192, .i32⟩ : BufTy).Contents (Elt F) → (⟨S8192, .i32⟩ : BufTy).Contents (Elt F) → (⟨S8192, .i1⟩ : BufTy).Contents (Elt F)),
    StableHlo.nullary main_c_21 (constantI S_ 32 12288#32),
    StableHlo.unary main_c_21 main_v81 (broadcastInDim S8192 ![] bcast_S_S8192 : (⟨S_, .i32⟩ : BufTy).Contents (Elt F) → (⟨S8192, .i32⟩ : BufTy).Contents (Elt F)),
    StableHlo.binary main_v78 main_v81 main_v82 (addi : (⟨S8192, .i32⟩ : BufTy).Contents (Elt F) → (⟨S8192, .i32⟩ : BufTy).Contents (Elt F) → (⟨S8192, .i32⟩ : BufTy).Contents (Elt F)),
    StableHlo.ternary main_v80 main_v82 main_v78 main_v83 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v83 main_v84 (broadcastInDim S8192x1 ![0] bcast_S8192_S8192x1_0 : (⟨S8192, .i32⟩ : BufTy).Contents (Elt F) → (⟨S8192x1, .i32⟩ : BufTy).Contents (Elt F)),
    StableHlo.binary main_v76 main_v84 main_v85 ((fun x i => Host.gather gather_S12288x2048_S8192x1_S8192x2048_1_0_n_n_0_1_12048 x i) : (⟨S12288x2048, .f32⟩ : BufTy).Contents (Elt F) → (⟨S8192x1, .i32⟩ : BufTy).Contents (Elt F) → (⟨S8192x2048, .f32⟩ : BufTy).Contents (Elt F)),
    StableHlo.nullary main_cst_22 (constant S_ .f32 0x3F800000#32),
    StableHlo.unary main_cst_22 main_v86 (broadcastInDim S8192 ![] bcast_S_S8192 : (⟨S_, .f32⟩ : BufTy).Contents (Elt F) → (⟨S8192, .f32⟩ : BufTy).Contents (Elt F)),
    StableHlo.binary main_v19 main_v86 main_v87 (mulf : (⟨S8192, .f32⟩ : BufTy).Contents (Elt F) → (⟨S8192, .f32⟩ : BufTy).Contents (Elt F) → (⟨S8192, .f32⟩ : BufTy).Contents (Elt F)),
    StableHlo.nullary main_cst_23 (constant S_ .f32 0x00000000#32),
    StableHlo.TRef.unary (.of main_cst_23 : StableHlo.TRef sig ⟨S_, .f32⟩) main_call5.v0 id,
    StableHlo.TRef.unary main_call5.v0 main_call5.v1 (broadcastInDim S8192 ![] bcast_S_S8192),
    StableHlo.TRef.ternary (.of main_v49 : StableHlo.TRef sig ⟨S8192, .i1⟩) (.of main_v87 : StableHlo.TRef sig ⟨S8192, .f32⟩) main_call5.v1 main_call5.v2 select,
    StableHlo.unary main_v88 main_v89 (broadcastInDim S8192x1 ![0] bcast_S8192_S8192x1_0 : (⟨S8192, .f32⟩ : BufTy).Contents (Elt F) → (⟨S8192x1, .f32⟩ : BufTy).Contents (Elt F)),
    StableHlo.nullary main_cst_24 (constant S_ .f32 0x00000000#32),
    StableHlo.unary main_cst_24 main_v90 (broadcastInDim S4096x2048 ![] bcast_S_S4096x2048 : (⟨S_, .f32⟩ : BufTy).Contents (Elt F) → (⟨S4096x2048, .f32⟩ : BufTy).Contents (Elt F)),
    StableHlo.unary main_v89 main_v91 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v85 main_v91 main_v92 (mulf : (⟨S8192x2048, .f32⟩ : BufTy).Contents (Elt F) → (⟨S8192x2048, .f32⟩ : BufTy).Contents (Elt F) → (⟨S8192x2048, .f32⟩ : BufTy).Contents (Elt F)),
    StableHlo.nullary main_c_25 (constantI S_ 32 0#32),
    StableHlo.unary main_c_25 main_v93 (broadcastInDim S8192 ![] bcast_S_S8192 : (⟨S_, .i32⟩ : BufTy).Contents (Elt F) → (⟨S8192, .i32⟩ : BufTy).Contents (Elt F)),
    StableHlo.binary main_v26 main_v93 main_v94 (cmpi .slt : (⟨S8192, .i32⟩ : BufTy).Contents (Elt F) → (⟨S8192, .i32⟩ : BufTy).Contents (Elt F) → (⟨S8192, .i1⟩ : BufTy).Contents (Elt F)),
    StableHlo.nullary main_c_26 (constantI S_ 32 4096#32),
    StableHlo.unary main_c_26 main_v95 (broadcastInDim S8192 ![] bcast_S_S8192 : (⟨S_, .i32⟩ : BufTy).Contents (Elt F) → (⟨S8192, .i32⟩ : BufTy).Contents (Elt F)),
    StableHlo.binary main_v26 main_v95 main_v96 (addi : (⟨S8192, .i32⟩ : BufTy).Contents (Elt F) → (⟨S8192, .i32⟩ : BufTy).Contents (Elt F) → (⟨S8192, .i32⟩ : BufTy).Contents (Elt F)),
    StableHlo.ternary main_v94 main_v96 main_v26 main_v97 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v97 main_v98 (broadcastInDim S8192x1 ![0] bcast_S8192_S8192x1_0 : (⟨S8192, .i32⟩ : BufTy).Contents (Elt F) → (⟨S8192x1, .i32⟩ : BufTy).Contents (Elt F)),
    StableHlo.ternary main_v90 main_v98 main_v92 main_v99 ((fun x i u => Host.scatterAdd scatter_S4096x2048_S8192x1_S8192x2048_1_0_0_1 x i u) : (⟨S4096x2048, .f32⟩ : BufTy).Contents (Elt F) → (⟨S8192x1, .i32⟩ : BufTy).Contents (Elt F) → (⟨S8192x2048, .f32⟩ : BufTy).Contents (Elt F) → (⟨S4096x2048, .f32⟩ : BufTy).Contents (Elt F)) ]

/-- Operations 1 … 35: the pairs sorted by expert: their expert numbers, scores and tokens in sorted order. -/
abbrev opsA : List (HloOp τ sig (Elt F)) :=
  [ StableHlo.reshape main_arg1 main_v0 rfl shapeCasts_S4096x2_S8192,
    StableHlo.reshape main_arg2 main_v1 rfl shapeCasts_S4096x2_S8192,
    StableHlo.nullary main_v2 (iotaInDim S4096 32 0),
    StableHlo.unary main_v2 main_v3 (broadcastInDim S4096x2 ![0] bcast_S4096_S4096x2_0 : (⟨S4096, .i32⟩ : BufTy).Contents (Elt F) → (⟨S4096x2, .i32⟩ : BufTy).Contents (Elt F)),
    StableHlo.reshape main_v3 main_v4 rfl shapeCasts_S4096x2_S8192,
    StableHlo.TRef.nullary main_call0.v0 (iotaInDim S8192 32 0),
    StableHlo.TRef.binary (.of main_v0 : StableHlo.TRef sig ⟨S8192, .i32⟩) main_call0.v0 main_call0.v1_0 (fun x y => (Host.sort2 S8192 0 comparator_i32_i32_d0 x y).1),
    StableHlo.TRef.binary (.of main_v0 : StableHlo.TRef sig ⟨S8192, .i32⟩) main_call0.v0 main_call0.v1_1 (fun x y => (Host.sort2 S8192 0 comparator_i32_i32_d0 x y).2),
    StableHlo.nullary main_c (constantI S_ 32 0#32),
    StableHlo.unary main_c main_v6 (broadcastInDim S8192 ![] bcast_S_S8192 : (⟨S_, .i32⟩ : BufTy).Contents (Elt F) → (⟨S8192, .i32⟩ : BufTy).Contents (Elt F)),
    StableHlo.binary main_v5 main_v6 main_v7 (cmpi .slt : (⟨S8192, .i32⟩ : BufTy).Contents (Elt F) → (⟨S8192, .i32⟩ : BufTy).Contents (Elt F) → (⟨S8192, .i1⟩ : BufTy).Contents (Elt F)),
    StableHlo.nullary main_c_0 (constantI S_ 32 8192#32),
    StableHlo.unary main_c_0 main_v8 (broadcastInDim S8192 ![] bcast_S_S8192 : (⟨S_, .i32⟩ : BufTy).Contents (Elt F) → (⟨S8192, .i32⟩ : BufTy).Contents (Elt F)),
    StableHlo.binary main_v5 main_v8 main_v9 (addi : (⟨S8192, .i32⟩ : BufTy).Contents (Elt F) → (⟨S8192, .i32⟩ : BufTy).Contents (Elt F) → (⟨S8192, .i32⟩ : BufTy).Contents (Elt F)),
    StableHlo.ternary main_v7 main_v9 main_v5 main_v10 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v10 main_v11 (broadcastInDim S8192x1 ![0] bcast_S8192_S8192x1_0 : (⟨S8192, .i32⟩ : BufTy).Contents (Elt F) → (⟨S8192x1, .i32⟩ : BufTy).Contents (Elt F)),
    StableHlo.binary main_v0 main_v11 main_v12 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    StableHlo.nullary main_c_1 (constantI S_ 32 0#32),
    StableHlo.unary main_c_1 main_v13 (broadcastInDim S8192 ![] bcast_S_S8192 : (⟨S_, .i32⟩ : BufTy).Contents (Elt F) → (⟨S8192, .i32⟩ : BufTy).Contents (Elt F)),
    StableHlo.binary main_v5 main_v13 main_v14 (cmpi .slt : (⟨S8192, .i32⟩ : BufTy).Contents (Elt F) → (⟨S8192, .i32⟩ : BufTy).Contents (Elt F) → (⟨S8192, .i1⟩ : BufTy).Contents (Elt F)),
    StableHlo.nullary main_c_2 (constantI S_ 32 8192#32),
    StableHlo.unary main_c_2 main_v15 (broadcastInDim S8192 ![] bcast_S_S8192 : (⟨S_, .i32⟩ : BufTy).Contents (Elt F) → (⟨S8192, .i32⟩ : BufTy).Contents (Elt F)),
    StableHlo.binary main_v5 main_v15 main_v16 (addi : (⟨S8192, .i32⟩ : BufTy).Contents (Elt F) → (⟨S8192, .i32⟩ : BufTy).Contents (Elt F) → (⟨S8192, .i32⟩ : BufTy).Contents (Elt F)),
    StableHlo.ternary main_v14 main_v16 main_v5 main_v17 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v17 main_v18 (broadcastInDim S8192x1 ![0] bcast_S8192_S8192x1_0 : (⟨S8192, .i32⟩ : BufTy).Contents (Elt F) → (⟨S8192x1, .i32⟩ : BufTy).Contents (Elt F)),
    StableHlo.binary main_v1 main_v18 main_v19 ((fun x i => Host.gather gather_S8192_S8192x1_S8192_n_0_n_n_0_1_1 x i) : (⟨S8192, .f32⟩ : BufTy).Contents (Elt F) → (⟨S8192x1, .i32⟩ : BufTy).Contents (Elt F) → (⟨S8192, .f32⟩ : BufTy).Contents (Elt F)),
    StableHlo.nullary main_c_3 (constantI S_ 32 0#32),
    StableHlo.unary main_c_3 main_v20 (broadcastInDim S8192 ![] bcast_S_S8192 : (⟨S_, .i32⟩ : BufTy).Contents (Elt F) → (⟨S8192, .i32⟩ : BufTy).Contents (Elt F)),
    StableHlo.binary main_v5 main_v20 main_v21 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 8192#32),
    StableHlo.unary main_c_4 main_v22 (broadcastInDim S8192 ![] bcast_S_S8192 : (⟨S_, .i32⟩ : BufTy).Contents (Elt F) → (⟨S8192, .i32⟩ : BufTy).Contents (Elt F)),
    StableHlo.binary main_v5 main_v22 main_v23 (addi : (⟨S8192, .i32⟩ : BufTy).Contents (Elt F) → (⟨S8192, .i32⟩ : BufTy).Contents (Elt F) → (⟨S8192, .i32⟩ : BufTy).Contents (Elt F)),
    StableHlo.ternary main_v21 main_v23 main_v5 main_v24 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v24 main_v25 (broadcastInDim S8192x1 ![0] bcast_S8192_S8192x1_0 : (⟨S8192, .i32⟩ : BufTy).Contents (Elt F) → (⟨S8192x1, .i32⟩ : BufTy).Contents (Elt F)),
    StableHlo.binary main_v4 main_v25 main_v26 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)) ]

/-- Operations 36 … 78: the counts, the places within the runs, which pairs fit, and the rows they own. -/
abbrev opsB : List (HloOp τ sig (Elt F)) :=
  [ StableHlo.nullary main_c_5 (constantI S_ 32 0#32),
    StableHlo.unary main_c_5 main_v27 (broadcastInDim S8 ![] bcast_S_S8 : (⟨S_, .i32⟩ : BufTy).Contents (Elt F) → (⟨S8, .i32⟩ : BufTy).Contents (Elt F)),
    StableHlo.nullary main_c_6 (constantI S_ 32 0#32),
    StableHlo.TRef.unary (.of main_c_6 : StableHlo.TRef sig ⟨S_, .i32⟩) main_call1.v0 id,
    StableHlo.TRef.unary main_call1.v0 main_call1.v1 (broadcastInDim S8192 ![] bcast_S_S8192),
    StableHlo.TRef.binary main_call1.v1 (.of main_v12 : StableHlo.TRef sig ⟨S8192, .i32⟩) main_call1.v2 maxsi,
    StableHlo.nullary main_c_7 (constantI S_ 32 0#32),
    StableHlo.unary main_c_7 main_v29 (broadcastInDim S8192 ![] bcast_S_S8192 : (⟨S_, .i32⟩ : BufTy).Contents (Elt F) → (⟨S8192, .i32⟩ : BufTy).Contents (Elt F)),
    StableHlo.binary main_v28 main_v29 main_v30 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 8#32),
    StableHlo.unary main_c_8 main_v31 (broadcastInDim S8192 ![] bcast_S_S8192 : (⟨S_, .i32⟩ : BufTy).Contents (Elt F) → (⟨S8192, .i32⟩ : BufTy).Contents (Elt F)),
    StableHlo.binary main_v28 main_v31 main_v32 (addi : (⟨S8192, .i32⟩ : BufTy).Contents (Elt F) → (⟨S8192, .i32⟩ : BufTy).Contents (Elt F) → (⟨S8192, .i32⟩ : BufTy).Contents (Elt F)),
    StableHlo.ternary main_v30 main_v32 main_v28 main_v33 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v33 main_v34 (broadcastInDim S8192x1 ![0] bcast_S8192_S8192x1_0 : (⟨S8192, .i32⟩ : BufTy).Contents (Elt F) → (⟨S8192x1, .i32⟩ : BufTy).Contents (Elt F)),
    StableHlo.nullary main_c_9 (constantI S_ 32 1#32),
    StableHlo.unary main_c_9 main_v35 (broadcastInDim S8192 ![] bcast_S_S8192 : (⟨S_, .i32⟩ : BufTy).Contents (Elt F) → (⟨S8192, .i32⟩ : BufTy).Contents (Elt F)),
    StableHlo.ternary main_v27 main_v34 main_v35 main_v36 ((fun x i u => Host.scatter scatter_S8_S8192x1_S8192_n_0_0_1 IntOp.addi x i u) : (⟨S8, .i32⟩ : BufTy).Contents (Elt F) → (⟨S8192x1, .i32⟩ : BufTy).Contents (Elt F) → (⟨S8192, .i32⟩ : BufTy).Contents (Elt F) → (⟨S8, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v36 : StableHlo.TRef sig ⟨S8, .i32⟩) main_call2.call0.v0 main_call2.call0.v1 (fun x v => Host.reduceWindow IntOp.addi ![8] ![1] ![7] ![0] x v reduceWindows_S8_S8_w8s1p7_0 h_S_),
    StableHlo.binary main_v37 main_v36 main_v38 (subi : (⟨S8, .i32⟩ : BufTy).Contents (Elt F) → (⟨S8, .i32⟩ : BufTy).Contents (Elt F) → (⟨S8, .i32⟩ : BufTy).Contents (Elt F)),
    StableHlo.nullary main_v39 (iotaInDim S8192 32 0),
    StableHlo.nullary main_c_10 (constantI S_ 32 0#32),
    StableHlo.unary main_c_10 main_v40 (broadcastInDim S8192 ![] bcast_S_S8192 : (⟨S_, .i32⟩ : BufTy).Contents (Elt F) → (⟨S8192, .i32⟩ : BufTy).Contents (Elt F)),
    StableHlo.binary main_v12 main_v40 main_v41 (cmpi .slt : (⟨S8192, .i32⟩ : BufTy).Contents (Elt F) → (⟨S8192, .i32⟩ : BufTy).Contents (Elt F) → (⟨S8192, .i1⟩ : BufTy).Contents (Elt F)),
    StableHlo.nullary main_c_11 (constantI S_ 32 8#32),
    StableHlo.unary main_c_11 main_v42 (broadcastInDim S8192 ![] bcast_S_S8192 : (⟨S_, .i32⟩ : BufTy).Contents (Elt F) → (⟨S8192, .i32⟩ : BufTy).Contents (Elt F)),
    StableHlo.binary main_v12 main_v42 main_v43 (addi : (⟨S8192, .i32⟩ : BufTy).Contents (Elt F) → (⟨S8192, .i32⟩ : BufTy).Contents (Elt F) → (⟨S8192, .i32⟩ : BufTy).Contents (Elt F)),
    StableHlo.ternary main_v41 main_v43 main_v12 main_v44 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v44 main_v45 (broadcastInDim S8192x1 ![0] bcast_S8192_S8192x1_0 : (⟨S8192, .i32⟩ : BufTy).Contents (Elt F) → (⟨S8192x1, .i32⟩ : BufTy).Contents (Elt F)),
    StableHlo.binary main_v38 main_v45 main_v46 ((fun x i => Host.gather gather_S8_S8192x1_S8192_n_0_n_n_0_1_1 x i) : (⟨S8, .i32⟩ : BufTy).Contents (Elt F) → (⟨S8192x1, .i32⟩ : BufTy).Contents (Elt F) → (⟨S8192, .i32⟩ : BufTy).Contents (Elt F)),
    StableHlo.binary main_v39 main_v46 main_v47 (subi : (⟨S8192, .i32⟩ : BufTy).Contents (Elt F) → (⟨S8192, .i32⟩ : BufTy).Contents (Elt F) → (⟨S8192, .i32⟩ : BufTy).Contents (Elt F)),
    StableHlo.nullary main_c_12 (constantI S_ 32 1536#32),
    StableHlo.unary main_c_12 main_v48 (broadcastInDim S8192 ![] bcast_S_S8192 : (⟨S_, .i32⟩ : BufTy).Contents (Elt F) → (⟨S8192, .i32⟩ : BufTy).Contents (Elt F)),
    StableHlo.binary main_v47 main_v48 main_v49 (cmpi .slt : (⟨S8192, .i32⟩ : BufTy).Contents (Elt F) → (⟨S8192, .i32⟩ : BufTy).Contents (Elt F) → (⟨S8192, .i1⟩ : BufTy).Contents (Elt F)),
    StableHlo.nullary main_c_13 (constantI S_ 32 1536#32),
    StableHlo.unary main_c_13 main_v50 (broadcastInDim S8192 ![] bcast_S_S8192 : (⟨S_, .i32⟩ : BufTy).Contents (Elt F) → (⟨S8192, .i32⟩ : BufTy).Contents (Elt F)),
    StableHlo.binary main_v12 main_v50 main_v51 (muli : (⟨S8192, .i32⟩ : BufTy).Contents (Elt F) → (⟨S8192, .i32⟩ : BufTy).Contents (Elt F) → (⟨S8192, .i32⟩ : BufTy).Contents (Elt F)),
    StableHlo.binary main_v51 main_v47 main_v52 (addi : (⟨S8192, .i32⟩ : BufTy).Contents (Elt F) → (⟨S8192, .i32⟩ : BufTy).Contents (Elt F) → (⟨S8192, .i32⟩ : BufTy).Contents (Elt F)),
    StableHlo.nullary main_c_14 (constantI S_ 32 12288#32),
    StableHlo.TRef.unary (.of main_c_14 : StableHlo.TRef sig ⟨S_, .i32⟩) main_call3.v0 id,
    StableHlo.TRef.unary main_call3.v0 main_call3.v1 (broadcastInDim S8192 ![] bcast_S_S8192),
    StableHlo.TRef.ternary (.of main_v49 : StableHlo.TRef sig ⟨S8192, .i1⟩) (.of main_v52 : StableHlo.TRef sig ⟨S8192, .i32⟩) main_call3.v1 main_call3.v2 select ]

/-- Operations 79 … 100: the token table. -/
abbrev opsC1 : List (HloOp τ sig (Elt F)) :=
  [ StableHlo.nullary main_cst (constant S_ .f32 0x00000000#32),
    StableHlo.unary main_cst main_v54 (broadcastInDim S12289x2048 ![] bcast_S_S12289x2048 : (⟨S_, .f32⟩ : BufTy).Contents (Elt F) → (⟨S12289x2048, .f32⟩ : BufTy).Contents (Elt F)),
    StableHlo.nullary main_c_15 (constantI S_ 32 0#32),
    StableHlo.unary main_c_15 main_v55 (broadcastInDim S8192 ![] bcast_S_S8192 : (⟨S_, .i32⟩ : BufTy).Contents (Elt F) → (⟨S8192, .i32⟩ : BufTy).Contents (Elt F)),
    StableHlo.binary main_v26 main_v55 main_v56 (cmpi .slt : (⟨S8192, .i32⟩ : BufTy).Contents (Elt F) → (⟨S8192, .i32⟩ : BufTy).Contents (Elt F) → (⟨S8192, .i1⟩ : BufTy).Contents (Elt F)),
    StableHlo.nullary main_c_16 (constantI S_ 32 4096#32),
    StableHlo.unary main_c_16 main_v57 (broadcastInDim S8192 ![] bcast_S_S8192 : (⟨S_, .i32⟩ : BufTy).Contents (Elt F) → (⟨S8192, .i32⟩ : BufTy).Contents (Elt F)),
    StableHlo.binary main_v26 main_v57 main_v58 (addi : (⟨S8192, .i32⟩ : BufTy).Contents (Elt F) → (⟨S8192, .i32⟩ : BufTy).Contents (Elt F) → (⟨S8192, .i32⟩ : BufTy).Contents (Elt F)),
    StableHlo.ternary main_v56 main_v58 main_v26 main_v59 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v59 main_v60 (broadcastInDim S8192x1 ![0] bcast_S8192_S8192x1_0 : (⟨S8192, .i32⟩ : BufTy).Contents (Elt F) → (⟨S8192x1, .i32⟩ : BufTy).Contents (Elt F)),
    StableHlo.binary main_arg0 main_v60 main_v61 ((fun x i => Host.gather gather_S4096x2048_S8192x1_S8192x2048_1_0_n_n_0_1_12048 x i) : (⟨S4096x2048, .f32⟩ : BufTy).Contents (Elt F) → (⟨S8192x1, .i32⟩ : BufTy).Contents (Elt F) → (⟨S8192x2048, .f32⟩ : BufTy).Contents (Elt F)),
    StableHlo.nullary main_c_17 (constantI S_ 32 0#32),
    StableHlo.unary main_c_17 main_v62 (broadcastInDim S8192 ![] bcast_S_S8192 : (⟨S_, .i32⟩ : BufTy).Contents (Elt F) → (⟨S8192, .i32⟩ : BufTy).Contents (Elt F)),
    StableHlo.binary main_v53 main_v62 main_v63 (cmpi .slt : (⟨S8192, .i32⟩ : BufTy).Contents (Elt F) → (⟨S8192, .i32⟩ : BufTy).Contents (Elt F) → (⟨S8192, .i1⟩ : BufTy).Contents (Elt F)),
    StableHlo.nullary main_c_18 (constantI S_ 32 12289#32),
    StableHlo.unary main_c_18 main_v64 (broadcastInDim S8192 ![] bcast_S_S8192 : (⟨S_, .i32⟩ : BufTy).Contents (Elt F) → (⟨S8192, .i32⟩ : BufTy).Contents (Elt F)),
    StableHlo.binary main_v53 main_v64 main_v65 (addi : (⟨S8192, .i32⟩ : BufTy).Contents (Elt F) → (⟨S8192, .i32⟩ : BufTy).Contents (Elt F) → (⟨S8192, .i32⟩ : BufTy).Contents (Elt F)),
    StableHlo.ternary main_v63 main_v65 main_v53 main_v66 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v66 main_v67 (broadcastInDim S8192x1 ![0] bcast_S8192_S8192x1_0 : (⟨S8192, .i32⟩ : BufTy).Contents (Elt F) → (⟨S8192x1, .i32⟩ : BufTy).Contents (Elt F)),
    StableHlo.ternary main_v54 main_v67 main_v61 main_v68 ((fun x i u => Host.scatter scatter_S12289x2048_S8192x1_S8192x2048_1_0_0_1 (fun _ b => b) x i u) : (⟨S12289x2048, .f32⟩ : BufTy).Contents (Elt F) → (⟨S8192x1, .i32⟩ : BufTy).Contents (Elt F) → (⟨S8192x2048, .f32⟩ : BufTy).Contents (Elt F) → (⟨S12289x2048, .f32⟩ : BufTy).Contents (Elt F)),
    StableHlo.unary main_v68 main_v69 ((extractStridedSlice S12288x2048 ![0, 0] · slices_S12289x2048_S12288x2048_0_0) : (⟨S12289x2048, .f32⟩ : BufTy).Contents (Elt F) → (⟨S12288x2048, .f32⟩ : BufTy).Contents (Elt F)),
    StableHlo.reshape main_v69 main_v70 rfl shapeCasts_S12288x2048_S8x1536x2048 ]

/-- Operations 101 … 114: the gated unit of every table row. -/
abbrev opsC2 : List (HloOp τ sig (Elt F)) :=
  [ StableHlo.binary main_v70 main_arg3 main_v71 ((fun l r => Host.dotGeneral dot_S8x1536x2048_S8x2048x688_S8x1536x688_2_1_1_2_0_0 none l r) : (⟨S8x1536x2048, .f32⟩ : BufTy).Contents (Elt F) → (⟨S8x2048x688, .f32⟩ : BufTy).Contents (Elt F) → (⟨S8x1536x688, .f32⟩ : BufTy).Contents (Elt F)),
    StableHlo.TRef.unary (.of main_v71 : StableHlo.TRef sig ⟨S8x1536x688, .f32⟩) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S8x1536x688 ![] bcast_S_S8x1536x688),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S8x1536x688 ![] bcast_S_S8x1536x688),
    StableHlo.TRef.binary main_call4.v4 main_call4.v3 main_call4.v5 Host.divf,
    StableHlo.TRef.binary (.of main_v71 : StableHlo.TRef sig ⟨S8x1536x688, .f32⟩) main_call4.v5 main_call4.v6 mulf,
    StableHlo.binary main_v70 main_arg4 main_v73 ((fun l r => Host.dotGeneral dot_S8x1536x2048_S8x2048x688_S8x1536x688_2_1_1_2_0_0 none l r) : (⟨S8x1536x2048, .f32⟩ : BufTy).Contents (Elt F) → (⟨S8x2048x688, .f32⟩ : BufTy).Contents (Elt F) → (⟨S8x1536x688, .f32⟩ : BufTy).Contents (Elt F)),
    StableHlo.binary main_v72 main_v73 main_v74 (mulf : (⟨S8x1536x688, .f32⟩ : BufTy).Contents (Elt F) → (⟨S8x1536x688, .f32⟩ : BufTy).Contents (Elt F) → (⟨S8x1536x688, .f32⟩ : BufTy).Contents (Elt F)),
    StableHlo.binary main_v74 main_arg5 main_v75 ((fun l r => Host.dotGeneral dot_S8x1536x688_S8x688x2048_S8x1536x2048_2_1_1_2_0_0 none l r) : (⟨S8x1536x688, .f32⟩ : BufTy).Contents (Elt F) → (⟨S8x688x2048, .f32⟩ : BufTy).Contents (Elt F) → (⟨S8x1536x2048, .f32⟩ : BufTy).Contents (Elt F)),
    StableHlo.reshape main_v75 main_v76 rfl shapeCasts_S8x1536x2048_S12288x2048 ]

/-- Operations 115 … 147: the rows read back, weighted, and added to their tokens. -/
abbrev opsD : List (HloOp τ sig (Elt F)) :=
  [ StableHlo.nullary main_c_19 (constantI S_ 32 12287#32),
    StableHlo.unary main_c_19 main_v77 (broadcastInDim S8192 ![] bcast_S_S8192 : (⟨S_, .i32⟩ : BufTy).Contents (Elt F) → (⟨S8192, .i32⟩ : BufTy).Contents (Elt F)),
    StableHlo.binary main_v53 main_v77 main_v78 (minsi : (⟨S8192, .i32⟩ : BufTy).Contents (Elt F) → (⟨S8192, .i32⟩ : BufTy).Contents (Elt F) → (⟨S8192, .i32⟩ : BufTy).Contents (Elt F)),
    StableHlo.nullary main_c_20 (constantI S_ 32 0#32),
    StableHlo.unary main_c_20 main_v79 (broadcastInDim S8192 ![] bcast_S_S8192 : (⟨S_, .i32⟩ : BufTy).Contents (Elt F) → (⟨S8192, .i32⟩ : BufTy).Contents (Elt F)),
    StableHlo.binary main_v78 main_v79 main_v80 (cmpi .slt : (⟨S8192, .i32⟩ : BufTy).Contents (Elt F) → (⟨S8192, .i32⟩ : BufTy).Contents (Elt F) → (⟨S8192, .i1⟩ : BufTy).Contents (Elt F)),
    StableHlo.nullary main_c_21 (constantI S_ 32 12288#32),
    StableHlo.unary main_c_21 main_v81 (broadcastInDim S8192 ![] bcast_S_S8192 : (⟨S_, .i32⟩ : BufTy).Contents (Elt F) → (⟨S8192, .i32⟩ : BufTy).Contents (Elt F)),
    StableHlo.binary main_v78 main_v81 main_v82 (addi : (⟨S8192, .i32⟩ : BufTy).Contents (Elt F) → (⟨S8192, .i32⟩ : BufTy).Contents (Elt F) → (⟨S8192, .i32⟩ : BufTy).Contents (Elt F)),
    StableHlo.ternary main_v80 main_v82 main_v78 main_v83 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v83 main_v84 (broadcastInDim S8192x1 ![0] bcast_S8192_S8192x1_0 : (⟨S8192, .i32⟩ : BufTy).Contents (Elt F) → (⟨S8192x1, .i32⟩ : BufTy).Contents (Elt F)),
    StableHlo.binary main_v76 main_v84 main_v85 ((fun x i => Host.gather gather_S12288x2048_S8192x1_S8192x2048_1_0_n_n_0_1_12048 x i) : (⟨S12288x2048, .f32⟩ : BufTy).Contents (Elt F) → (⟨S8192x1, .i32⟩ : BufTy).Contents (Elt F) → (⟨S8192x2048, .f32⟩ : BufTy).Contents (Elt F)),
    StableHlo.nullary main_cst_22 (constant S_ .f32 0x3F800000#32),
    StableHlo.unary main_cst_22 main_v86 (broadcastInDim S8192 ![] bcast_S_S8192 : (⟨S_, .f32⟩ : BufTy).Contents (Elt F) → (⟨S8192, .f32⟩ : BufTy).Contents (Elt F)),
    StableHlo.binary main_v19 main_v86 main_v87 (mulf : (⟨S8192, .f32⟩ : BufTy).Contents (Elt F) → (⟨S8192, .f32⟩ : BufTy).Contents (Elt F) → (⟨S8192, .f32⟩ : BufTy).Contents (Elt F)),
    StableHlo.nullary main_cst_23 (constant S_ .f32 0x00000000#32),
    StableHlo.TRef.unary (.of main_cst_23 : StableHlo.TRef sig ⟨S_, .f32⟩) main_call5.v0 id,
    StableHlo.TRef.unary main_call5.v0 main_call5.v1 (broadcastInDim S8192 ![] bcast_S_S8192),
    StableHlo.TRef.ternary (.of main_v49 : StableHlo.TRef sig ⟨S8192, .i1⟩) (.of main_v87 : StableHlo.TRef sig ⟨S8192, .f32⟩) main_call5.v1 main_call5.v2 select,
    StableHlo.unary main_v88 main_v89 (broadcastInDim S8192x1 ![0] bcast_S8192_S8192x1_0 : (⟨S8192, .f32⟩ : BufTy).Contents (Elt F) → (⟨S8192x1, .f32⟩ : BufTy).Contents (Elt F)),
    StableHlo.nullary main_cst_24 (constant S_ .f32 0x00000000#32),
    StableHlo.unary main_cst_24 main_v90 (broadcastInDim S4096x2048 ![] bcast_S_S4096x2048 : (⟨S_, .f32⟩ : BufTy).Contents (Elt F) → (⟨S4096x2048, .f32⟩ : BufTy).Contents (Elt F)),
    StableHlo.unary main_v89 main_v91 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v85 main_v91 main_v92 (mulf : (⟨S8192x2048, .f32⟩ : BufTy).Contents (Elt F) → (⟨S8192x2048, .f32⟩ : BufTy).Contents (Elt F) → (⟨S8192x2048, .f32⟩ : BufTy).Contents (Elt F)),
    StableHlo.nullary main_c_25 (constantI S_ 32 0#32),
    StableHlo.unary main_c_25 main_v93 (broadcastInDim S8192 ![] bcast_S_S8192 : (⟨S_, .i32⟩ : BufTy).Contents (Elt F) → (⟨S8192, .i32⟩ : BufTy).Contents (Elt F)),
    StableHlo.binary main_v26 main_v93 main_v94 (cmpi .slt : (⟨S8192, .i32⟩ : BufTy).Contents (Elt F) → (⟨S8192, .i32⟩ : BufTy).Contents (Elt F) → (⟨S8192, .i1⟩ : BufTy).Contents (Elt F)),
    StableHlo.nullary main_c_26 (constantI S_ 32 4096#32),
    StableHlo.unary main_c_26 main_v95 (broadcastInDim S8192 ![] bcast_S_S8192 : (⟨S_, .i32⟩ : BufTy).Contents (Elt F) → (⟨S8192, .i32⟩ : BufTy).Contents (Elt F)),
    StableHlo.binary main_v26 main_v95 main_v96 (addi : (⟨S8192, .i32⟩ : BufTy).Contents (Elt F) → (⟨S8192, .i32⟩ : BufTy).Contents (Elt F) → (⟨S8192, .i32⟩ : BufTy).Contents (Elt F)),
    StableHlo.ternary main_v94 main_v96 main_v26 main_v97 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v97 main_v98 (broadcastInDim S8192x1 ![0] bcast_S8192_S8192x1_0 : (⟨S8192, .i32⟩ : BufTy).Contents (Elt F) → (⟨S8192x1, .i32⟩ : BufTy).Contents (Elt F)),
    StableHlo.ternary main_v90 main_v98 main_v92 main_v99 ((fun x i u => Host.scatterAdd scatter_S4096x2048_S8192x1_S8192x2048_1_0_0_1 x i u) : (⟨S4096x2048, .f32⟩ : BufTy).Contents (Elt F) → (⟨S8192x1, .i32⟩ : BufTy).Contents (Elt F) → (⟨S8192x2048, .f32⟩ : BufTy).Contents (Elt F) → (⟨S4096x2048, .f32⟩ : BufTy).Contents (Elt F)) ]

/-- The line is its five stretches in order. -/
theorem ops_split : (ops : List (HloOp τ sig (Elt F))) = opsA ++ (opsB ++ (opsC1 ++ (opsC2 ++ opsD))) := rfl

/-- Each operation touches TensorCore buffers only. -/
theorem ops_sub : (ops : List (HloOp τ sig (Elt F))).Forall fun op => op.bufs ⊆ StableHlo.tcRefs τ sig :=
  ⟨StableHlo.reshape_bufs_sub .., StableHlo.reshape_bufs_sub .., StableHlo.nullary_bufs_sub .., StableHlo.unary_bufs_sub .., StableHlo.reshape_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.reshape_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub ..⟩

-- 147 binds re-associated: the rewrite under the chain recurses once per statement
set_option maxRecDepth 16384 in
set_option maxHeartbeats 4000000 in
/-- @main is that straight line: the windows and the callees unfolded, the records read at their fields, both sides
    are one chain of steps once sequencing is re-associated. -/
theorem main_eq (c : Dev nD) : main (F := F) c = StableHlo.seq ops := by
  simp only [main, main_part0, main_part1, main_part2, fn_argsort.body, fn_clip.body, fn_cumsum_0.body, fn_cumsum.body, fn_where.body, fn_silu.body, fn_where_1.body, StableHlo.seq, bind_assoc, pure_bind]

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of the reference terminates, and every buffer ends at
    the fold of the operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ

end Cert.Moe.Ref

end
-- ==== Proof.Dispatch.lean ====
/-
  The routing that both programs share, as functions of the expert-index array alone.

  Every token carries two expert numbers. The 8192 (token, choice) pairs are put in order of expert number by a
  stable sort; a pair's place within its expert's run is its position less the number of pairs of smaller expert
  number; a pair whose place is below the capacity 1536 is kept and owns row "expert * 1536 + place" of a table of
  8 * 1536 rows, every other pair is sent to the spare row 12288. The functions below are those steps, one per
  operation, in the spelling both printed programs use; the later modules state everything about the routing
  through them and never open them again.
-/
import proofs.«116065_j74380243632185_2_alg».proof.KernelIdeal
import Idealize.ShloMosaic.PureOps.Ideal

noncomputable section

namespace Cert.Moe

open Idealize.ShloMosaic Cert.KernelIdeal Cert.KernelIdeal.Facts₀

variable [Cert.KernelIdeal.Facts]

/-- A vector of 8192 copies of one 32-bit word. -/
def bc (v : BitVec 32) : IVec S8192 32 := broadcastInDim S8192 ![] bcast_S_S8192 (constantI S_ 32 v)

/-- A start index as the host reads it before a lookup in an array of `n` entries: a negative word counts from
    the end. -/
def nrm (n : BitVec 32) (x : IVec S8192 32) : IVec S8192 32 := select (cmpi .slt x (bc 0#32)) (addi x (bc n)) x

/-- A vector stood up as a column of start indices. -/
def col (x : IVec S8192 32) : IVec S8192x1 32 := broadcastInDim S8192x1 ![0] bcast_S8192_S8192x1_0 x

/-- The (token, choice) pairs' expert numbers, in the order token-major. -/
def flatE (a1 : IVec S4096x2 32) : IVec S8192 32 := shapeCast S8192 a1 shapeCasts_S4096x2_S8192

/-- The pairs' scores in the same order. -/
def flatS (a2 : FVec Ideal S4096x2 .f32) : FVec Ideal S8192 .f32 := shapeCast S8192 a2 shapeCasts_S4096x2_S8192

/-- The pairs' token numbers in the same order: pair `2 t + k` belongs to token `t`. -/
def tok : IVec S8192 32 :=
  shapeCast S8192 (broadcastInDim S4096x2 ![0] bcast_S4096_S4096x2_0 (iotaInDim S4096 32 0)) shapeCasts_S4096x2_S8192

/-- The stable sorting permutation of the pairs by expert number: entry `i` is the pair that lands at place `i`. -/
def order (a1 : IVec S4096x2 32) : IVec S8192 32 :=
  (Host.sort2 S8192 0 comparator_i32_i32_d0 (flatE a1) (iotaInDim S8192 32 0)).2

/-- The sorted places as a column of start indices. -/
def ordIdx (a1 : IVec S4096x2 32) : IVec S8192x1 32 := col (nrm 8192#32 (order a1))

/-- The expert numbers in sorted order. -/
def se (a1 : IVec S4096x2 32) : IVec S8192 32 := Host.gather gather_S8192_S8192x1_S8192_n_0_n_n_0_1_1 (flatE a1) (ordIdx a1)

/-- The scores in sorted order. -/
def ssrt (a1 : IVec S4096x2 32) (a2 : FVec Ideal S4096x2 .f32) : FVec Ideal S8192 .f32 :=
  Host.gather gather_S8192_S8192x1_S8192_n_0_n_n_0_1_1 (flatS a2) (ordIdx a1)

/-- The token numbers in sorted order. -/
def st (a1 : IVec S4096x2 32) : IVec S8192 32 := Host.gather gather_S8192_S8192x1_S8192_n_0_n_n_0_1_1 tok (ordIdx a1)

/-- The sorted expert numbers with the negative ones raised to zero. -/
def clipped (a1 : IVec S4096x2 32) : IVec S8192 32 :=
  maxsi (broadcastInDim S8192 ![] bcast_S_S8192 (id (constantI S_ 32 0#32))) (se a1)

/-- How many pairs each of the eight experts received. -/
def counts (a1 : IVec S4096x2 32) : IVec S8 32 :=
  Host.scatter scatter_S8_S8192x1_S8192_n_0_0_1 IntOp.addi (broadcastInDim S8 ![] bcast_S_S8 (constantI S_ 32 0#32))
    (col (nrm 8#32 (clipped a1))) (bc 1#32)

/-- The running totals of the counts, each expert's own count included. -/
def csum (a1 : IVec S4096x2 32) : IVec S8 32 :=
  Host.reduceWindow IntOp.addi ![8] ![1] ![7] ![0] (counts a1) (broadcastInDim S_ ![] bcast_S_S_ (constantI S_ 32 0#32))
    reduceWindows_S8_S8_w8s1p7_0 h_S_

/-- How many pairs went to experts of smaller number. -/
def offs (a1 : IVec S4096x2 32) : IVec S8 32 := subi (csum a1) (counts a1)

/-- A sorted pair's place within its expert's run. -/
def pos (a1 : IVec S4096x2 32) : IVec S8192 32 :=
  subi (iotaInDim S8192 32 0) (Host.gather gather_S8_S8192x1_S8192_n_0_n_n_0_1_1 (offs a1) (col (nrm 8#32 (se a1))))

/-- Whether the pair fits within its expert's capacity. -/
def valid (a1 : IVec S4096x2 32) : IVec S8192 1 := cmpi .slt (pos a1) (bc 1536#32)

/-- The table row a sorted pair owns: expert * 1536 + place when it fits, the spare row 12288 otherwise. -/
def slot (a1 : IVec S4096x2 32) : IVec S8192 32 :=
  select (valid a1) (addi (muli (se a1) (bc 1536#32)) (pos a1))
    (broadcastInDim S8192 ![] bcast_S_S8192 (id (constantI S_ 32 12288#32)))

/-- A sorted pair's weight: its score (times the scale one) when it fits, zero otherwise. -/
def wgt (a1 : IVec S4096x2 32) (a2 : FVec Ideal S4096x2 .f32) : FVec Ideal S8192 .f32 :=
  select (valid a1) (mulf (ssrt a1 a2) (broadcastInDim S8192 ![] bcast_S_S8192 (constant S_ .f32 0x3F800000#32)))
    (broadcastInDim S8192 ![] bcast_S_S8192 (id (constant S_ .f32 0x00000000#32)))

/-- The column of rows the pairs are written to (a table of 12289 rows, the spare one last). -/
def slotIdx (a1 : IVec S4096x2 32) : IVec S8192x1 32 := col (nrm 12289#32 (slot a1))

/-- The column of rows the pairs read their results from (a table of 12288 rows: the spare row reads the last). -/
def rowIdx (a1 : IVec S4096x2 32) : IVec S8192x1 32 := col (nrm 12288#32 (minsi (slot a1) (bc 12287#32)))

/-- The column of tokens the pairs' results are added to. -/
def tokIdx (a1 : IVec S4096x2 32) : IVec S8192x1 32 := col (nrm 4096#32 (st a1))

end Cert.Moe

end
-- ==== Proof.Spec.lean ====
/-
  What the two programs compute, stated once over the routing functions.

  The token table: row "expert * 1536 + place" holds the features of the token whose pair owns that row, every unowned
  row is zero. The weight table: the same rows hold the owning pairs' weights. Each row of the token table goes through
  its expert's gated unit (two products with the expert's first matrices, the first passed through x * sigmoid x, their
  entrywise product multiplied by the expert's second matrix). The kernel multiplies each result row by the weight in
  the same row of the weight table and, pair by pair, reads the row its pair owns (nothing when the pair does not fit);
  the reference reads the unweighted row and multiplies it by the pair's own weight. Both then add every pair's row to
  its token's result.
-/
import proofs.«116065_j74380243632185_2_alg».proof.Proof.Dispatch
import Idealize.ShloMosaic.Lib.ValueIdx

noncomputable section

open scoped BigOperators

namespace Cert.Moe

open Idealize.ShloMosaic Idealize.ShloMosaic.ValueIdx Cert.KernelIdeal Cert.KernelIdeal.Facts₀

variable [Cert.KernelIdeal.Facts]

/-- Every expert number names one of the eight experts. -/
def InRange (a1 : IVec S4096x2 32) : Prop := ∀ i, 0 ≤ (a1 i).toInt ∧ (a1 i).toInt ≤ 7

/-- The weight table with its spare row: the pairs' weights written at the rows they own, zero elsewhere. -/
def wtab (a1 : IVec S4096x2 32) (a2 : FVec Ideal S4096x2 .f32) : FVec Ideal S12289 .f32 :=
  Host.scatter scatter_S12289_S8192x1_S8192_n_0_0_1 (fun _ b => b)
    (broadcastInDim S12289 ![] bcast_S_S12289 (constant S_ .f32 0x00000000#32)) (slotIdx a1) (wgt a1 a2)

/-- The weight table without the spare row. -/
def wvec (a1 : IVec S4096x2 32) (a2 : FVec Ideal S4096x2 .f32) : FVec Ideal S12288 .f32 :=
  extractStridedSlice S12288 ![0] (wtab a1 a2) slices_S12289_S12288_0

/-- The weight table laid out expert by expert, one column. -/
def wbuf (a1 : IVec S4096x2 32) (a2 : FVec Ideal S4096x2 .f32) : FVec Ideal S8x1536x1 .f32 :=
  shapeCast S8x1536x1 (wvec a1 a2) shapeCasts_S12288_S8x1536x1

/-- The token table laid out expert by expert, in the format `φ` of the features `X`; `z` is that format's zero word. -/
def xtab {φ : FTy} (z : BitVec φ.bits) (X : FVec Ideal S4096x2048 φ) (a1 : IVec S4096x2 32) : FVec Ideal S8x1536x2048 φ :=
  shapeCast S8x1536x2048
    (extractStridedSlice S12288x2048 ![0, 0]
      (Host.scatter scatter_S12289x2048_S8192x1_S8192x2048_1_0_0_1 (fun _ b => b)
        (broadcastInDim S12289x2048 ![] bcast_S_S12289x2048 (constant S_ φ z)) (slotIdx a1)
        (Host.gather gather_S4096x2048_S8192x1_S8192x2048_1_0_n_n_0_1_12048 X (tokIdx a1)))
      slices_S12289x2048_S12288x2048_0_0)
    shapeCasts_S12288x2048_S8x1536x2048

/-! ## The gated unit, entry by entry -/

/-- Row `r` of expert `e`'s table against column `h` of one of that expert's first matrices. -/
def proj (xb : S8x1536x2048.Idx → EReal) (w : S8x2048x688.Idx → EReal) (e : Fin 8) (r : Fin 1536) (h : Fin 688) : EReal :=
  ∑ k : Fin 2048, xb (ix3 e r k) * w (ix3 e k h)

/-- The hidden entry: (g * sigmoid g) * u for the two projections g, u. -/
def hid (xb : S8x1536x2048.Idx → EReal) (wg wu : S8x2048x688.Idx → EReal) (e : Fin 8) (r : Fin 1536) (h : Fin 688) : EReal :=
  proj xb wg e r h * Ideal.logistic (proj xb wg e r h) * proj xb wu e r h

/-- The unit's output entry, before any weighting. -/
def unit (xb : S8x1536x2048.Idx → EReal) (wg wu : S8x2048x688.Idx → EReal) (wd : S8x688x2048.Idx → EReal)
    (e : Fin 8) (r : Fin 1536) (d : Fin 2048) : EReal :=
  ∑ h : Fin 688, hid xb wg wu e r h * wd (ix3 e h d)

/-- What the kernel's region leaves in its output array, as ONE function of its five operand arrays: the unit's
    output times the weight of the same row. -/
def G (xb : S8x1536x2048.Idx → EReal) (wg wu : S8x2048x688.Idx → EReal) (wd : S8x688x2048.Idx → EReal)
    (wb : S8x1536x1.Idx → EReal) : S8x1536x2048.Idx → EReal :=
  fun j => unit xb wg wu wd (j 0) (j 1) (j 2) * wb (ix3 (j 0) (j 1) 0)

/-! ## The two endings -/

/-- The kernel's per-pair rows: the weighted row the pair owns, or zero when the pair does not fit. -/
def rowsK (Y : FVec Ideal S8x1536x2048 .bf16) (a1 : IVec S4096x2 32) : FVec Ideal S8192x2048 .f32 :=
  extf .f32
    (select
      (broadcastInDim S8192x2048 ![0, 1] bcast_S8192x1_S8192x2048_0_1 (broadcastInDim S8192x1 ![0] bcast_S8192_S8192x1_0 (valid a1)))
      (Host.gather gather_S12288x2048_S8192x1_S8192x2048_1_0_n_n_0_1_12048
        (shapeCast S12288x2048 Y shapeCasts_S8x1536x2048_S12288x2048) (rowIdx a1))
      (broadcastInDim S8192x2048 ![] bcast_S_S8192x2048 (constant S_ .bf16 0x0000#16)))
    bitsLt_bf16_f32

/-- The kernel's result: every pair's row added to its token. -/
def kerOut (Y : FVec Ideal S8x1536x2048 .bf16) (a1 : IVec S4096x2 32) : FVec Ideal S4096x2048 .f32 :=
  Host.scatterAdd scatter_S4096x2048_S8192x1_S8192x2048_1_0_0_1
    (broadcastInDim S4096x2048 ![] bcast_S_S4096x2048 (constant S_ .f32 0x00000000#32)) (tokIdx a1) (rowsK Y a1)

/-- The reference's per-pair rows: the unweighted row times the pair's own weight. -/
def rowsR (Y : FVec Ideal S8x1536x2048 .f32) (a1 : IVec S4096x2 32) (a2 : FVec Ideal S4096x2 .f32) : FVec Ideal S8192x2048 .f32 :=
  mulf
    (Host.gather gather_S12288x2048_S8192x1_S8192x2048_1_0_n_n_0_1_12048
      (shapeCast S12288x2048 Y shapeCasts_S8x1536x2048_S12288x2048) (rowIdx a1))
    (broadcastInDim S8192x2048 ![0, 1] bcast_S8192x1_S8192x2048_0_1 (broadcastInDim S8192x1 ![0] bcast_S8192_S8192x1_0 (wgt a1 a2)))

/-- The reference's result from its unit outputs `Y`. -/
def refOutOf (Y : FVec Ideal S8x1536x2048 .f32) (a1 : IVec S4096x2 32) (a2 : FVec Ideal S4096x2 .f32) : FVec Ideal S4096x2048 .f32 :=
  Host.scatterAdd scatter_S4096x2048_S8192x1_S8192x2048_1_0_0_1
    (broadcastInDim S4096x2048 ![] bcast_S_S4096x2048 (constant S_ .f32 0x00000000#32)) (tokIdx a1) (rowsR Y a1 a2)

end Cert.Moe

end
-- ==== Proof.RefSpec.lean ====
/-
  The reference's gated unit as the host computes it: three batched matrix products (one batch per expert), the
  first result passed through x * (1 / (1 + exp (-x))), and its result array from the token table.
-/
import proofs.«116065_j74380243632185_2_alg».proof.Proof.Spec
import proofs.«116065_j74380243632185_2_alg».proof.ReferenceIdeal

noncomputable section

namespace Cert.Moe

open Idealize.ShloMosaic Idealize.ShloMosaic.ValueIdx

variable [Cert.KernelIdeal.Facts] [Cert.ReferenceIdeal.Facts]

/-- x * (1 / (1 + exp (-x))), entry by entry, in the host's operations. -/
def siluH (x : FVec Ideal Cert.ReferenceIdeal.S8x1536x688 .f32) : FVec Ideal Cert.ReferenceIdeal.S8x1536x688 .f32 :=
  mulf x
    (Host.divf
      (broadcastInDim Cert.ReferenceIdeal.S8x1536x688 ![] Cert.ReferenceIdeal.Facts₀.bcast_S_S8x1536x688 (constant Cert.ReferenceIdeal.S_ .f32 0x3F800000#32))
      (addf
        (broadcastInDim Cert.ReferenceIdeal.S8x1536x688 ![] Cert.ReferenceIdeal.Facts₀.bcast_S_S8x1536x688 (constant Cert.ReferenceIdeal.S_ .f32 0x3F800000#32))
        (Host.exp (Host.negf x))))

/-- The unit's outputs for every row of the token table, as the host's three batched products. -/
def Yref (xb : FVec Ideal Cert.ReferenceIdeal.S8x1536x2048 .f32) (wg wu : FVec Ideal Cert.ReferenceIdeal.S8x2048x688 .f32)
    (wd : FVec Ideal Cert.ReferenceIdeal.S8x688x2048 .f32) : FVec Ideal Cert.ReferenceIdeal.S8x1536x2048 .f32 :=
  Host.dotGeneral Cert.ReferenceIdeal.dot_S8x1536x688_S8x688x2048_S8x1536x2048_2_1_1_2_0_0 none
    (mulf (siluH (Host.dotGeneral Cert.ReferenceIdeal.dot_S8x1536x2048_S8x2048x688_S8x1536x688_2_1_1_2_0_0 none xb wg))
      (Host.dotGeneral Cert.ReferenceIdeal.dot_S8x1536x2048_S8x2048x688_S8x1536x688_2_1_1_2_0_0 none xb wu))
    wd

/-- The reference's result as one function of its six arguments. -/
def refOut (a0 : FVec Ideal Cert.KernelIdeal.S4096x2048 .f32) (a1 : IVec Cert.KernelIdeal.S4096x2 32)
    (a2 : FVec Ideal Cert.KernelIdeal.S4096x2 .f32) (a3 a4 : FVec Ideal Cert.ReferenceIdeal.S8x2048x688 .f32)
    (a5 : FVec Ideal Cert.ReferenceIdeal.S8x688x2048 .f32) : FVec Ideal Cert.KernelIdeal.S4096x2048 .f32 :=
  refOutOf (Yref (xtab (φ := .f32) 0x00000000#32 a0 a1) a3 a4 a5) a1 a2

end Cert.Moe

end
-- ==== Proof.RefStageA.lean ====
/-
  The reference's first stretch, from any contents: the pairs' expert numbers, scores and token numbers in sorted order
  are the routing functions of the two index arrays; the float arguments are left as they were.
-/
import proofs.«116065_j74380243632185_2_alg».proof.Proof.RefOps
import proofs.«116065_j74380243632185_2_alg».proof.Proof.RefSpec

noncomputable section

namespace Cert.Moe.Ref

open Idealize.ShloMosaic Idealize.ShloMosaic.StableHlo Idealize.SL.Sem Cert.ReferenceIdeal

variable [Cert.KernelIdeal.Facts]

attribute [local irreducible] Host.gather Host.sort2 in
set_option maxRecDepth 65536 in
set_option maxHeartbeats 4000000 in
theorem stageA (W : Valuation τ sig (Elt Ideal)) (a1 : IVec Cert.KernelIdeal.S4096x2 32) (a2 : FVec Ideal Cert.KernelIdeal.S4096x2 .f32)
    (h1 : W (Proc.devRef .tc main_arg1) = a1) (h2 : W (Proc.devRef .tc main_arg2) = a2) :
    (after (opsA (F := Ideal)) W (Proc.devRef .tc main_v12) : IVec S8192 32) = se a1
    ∧ (after (opsA (F := Ideal)) W (Proc.devRef .tc main_v19) : FVec Ideal S8192 .f32) = ssrt a1 a2
    ∧ (after (opsA (F := Ideal)) W (Proc.devRef .tc main_v26) : IVec S8192 32) = st a1
    ∧ after (opsA (F := Ideal)) W (Proc.devRef .tc main_arg0) = W (Proc.devRef .tc main_arg0)
    ∧ after (opsA (F := Ideal)) W (Proc.devRef .tc main_arg3) = W (Proc.devRef .tc main_arg3)
    ∧ after (opsA (F := Ideal)) W (Proc.devRef .tc main_arg4) = W (Proc.devRef .tc main_arg4)
    ∧ after (opsA (F := Ideal)) W (Proc.devRef .tc main_arg5) = W (Proc.devRef .tc main_arg5) := by
  subst h1 h2
  after_results_simp
  refine ⟨?_, ?_, ?_, ?_, ?_, ?_, ?_⟩
  all_goals first | trivial | rfl

end Cert.Moe.Ref

end
-- ==== Proof.RefStageB.lean ====
/-
  The reference's second stretch, from any contents holding the sorted expert numbers: which pairs fit and the rows they
  own are the routing functions; everything the later stretches read is left as it was.
-/
import proofs.«116065_j74380243632185_2_alg».proof.Proof.RefOps
import proofs.«116065_j74380243632185_2_alg».proof.Proof.RefSpec

noncomputable section

namespace Cert.Moe.Ref

open Idealize.ShloMosaic Idealize.ShloMosaic.StableHlo Idealize.SL.Sem Cert.ReferenceIdeal

variable [Cert.KernelIdeal.Facts]

attribute [local irreducible] Host.gather Host.scatter Host.reduceWindow in
set_option maxRecDepth 65536 in
set_option maxHeartbeats 4000000 in
theorem stageB (W : Valuation τ sig (Elt Ideal)) (a1 : IVec Cert.KernelIdeal.S4096x2 32)
    (h12 : (W (Proc.devRef .tc main_v12) : IVec S8192 32) = se a1) :
    (after (opsB (F := Ideal)) W (Proc.devRef .tc main_v53) : IVec S8192 32) = slot a1
    ∧ (after (opsB (F := Ideal)) W (Proc.devRef .tc main_v49) : IVec S8192 1) = valid a1
    ∧ after (opsB (F := Ideal)) W (Proc.devRef .tc main_v19) = W (Proc.devRef .tc main_v19)
    ∧ after (opsB (F := Ideal)) W (Proc.devRef .tc main_v26) = W (Proc.devRef .tc main_v26)
    ∧ after (opsB (F := Ideal)) W (Proc.devRef .tc main_arg0) = W (Proc.devRef .tc main_arg0)
    ∧ after (opsB (F := Ideal)) W (Proc.devRef .tc main_arg3) = W (Proc.devRef .tc main_arg3)
    ∧ after (opsB (F := Ideal)) W (Proc.devRef .tc main_arg4) = W (Proc.devRef .tc main_arg4)
    ∧ after (opsB (F := Ideal)) W (Proc.devRef .tc main_arg5) = W (Proc.devRef .tc main_arg5) := by
  after_results_simp
  refine ⟨?_, ?_, ?_, ?_, ?_, ?_, ?_, ?_⟩
  · rw [h12]; rfl
  · rw [h12]; rfl
  all_goals first | exact True.intro | rfl

end Cert.Moe.Ref

end
-- ==== Proof.RefStageC1.lean ====
/-
  The reference's third stretch, from any contents holding the rows owned, the sorted tokens and the features: the token
  table, laid out expert by expert; what the later stretches read is left as it was.
-/
import proofs.«116065_j74380243632185_2_alg».proof.Proof.RefOps
import proofs.«116065_j74380243632185_2_alg».proof.Proof.RefSpec

noncomputable section

namespace Cert.Moe.Ref

open Idealize.ShloMosaic Idealize.ShloMosaic.StableHlo Idealize.SL.Sem Cert.ReferenceIdeal

variable [Cert.KernelIdeal.Facts]

attribute [local irreducible] Host.gather Host.scatter in
set_option maxRecDepth 65536 in
set_option maxHeartbeats 4000000 in
theorem stageC1 (W : Valuation τ sig (Elt Ideal)) (a0 : FVec Ideal Cert.KernelIdeal.S4096x2048 .f32) (a1 : IVec Cert.KernelIdeal.S4096x2 32)
    (h53 : (W (Proc.devRef .tc main_v53) : IVec S8192 32) = slot a1) (h26 : (W (Proc.devRef .tc main_v26) : IVec S8192 32) = st a1)
    (h0 : W (Proc.devRef .tc main_arg0) = a0) :
    (after (opsC1 (F := Ideal)) W (Proc.devRef .tc main_v70) : FVec Ideal S8x1536x2048 .f32) = xtab (φ := .f32) 0x00000000#32 a0 a1
    ∧ after (opsC1 (F := Ideal)) W (Proc.devRef .tc main_v53) = W (Proc.devRef .tc main_v53)
    ∧ after (opsC1 (F := Ideal)) W (Proc.devRef .tc main_v49) = W (Proc.devRef .tc main_v49)
    ∧ after (opsC1 (F := Ideal)) W (Proc.devRef .tc main_v19) = W (Proc.devRef .tc main_v19)
    ∧ after (opsC1 (F := Ideal)) W (Proc.devRef .tc main_v26) = W (Proc.devRef .tc main_v26)
    ∧ after (opsC1 (F := Ideal)) W (Proc.devRef .tc main_arg3) = W (Proc.devRef .tc main_arg3)
    ∧ after (opsC1 (F := Ideal)) W (Proc.devRef .tc main_arg4) = W (Proc.devRef .tc main_arg4)
    ∧ after (opsC1 (F := Ideal)) W (Proc.devRef .tc main_arg5) = W (Proc.devRef .tc main_arg5) := by
  subst h0
  after_results_simp
  refine ⟨?_, ?_, ?_, ?_, ?_, ?_, ?_, ?_⟩
  · rw [h53, h26]; rfl
  all_goals first | exact True.intro | rfl

end Cert.Moe.Ref

end
-- ==== Proof.RefStageC2.lean ====
/-
  The reference's fourth stretch, from any contents holding the token table and the three weight arrays: the unit outputs
  of every table row, laid out row by row; the routing vectors are left as they were.
-/
import proofs.«116065_j74380243632185_2_alg».proof.Proof.RefOps
import proofs.«116065_j74380243632185_2_alg».proof.Proof.RefSpec

noncomputable section

namespace Cert.Moe.Ref

open Idealize.ShloMosaic Idealize.ShloMosaic.StableHlo Idealize.SL.Sem Cert.ReferenceIdeal

variable [Cert.KernelIdeal.Facts]

variable [Cert.ReferenceIdeal.Facts]

set_option maxRecDepth 65536 in
set_option maxHeartbeats 4000000 in
theorem stageC2 (W : Valuation τ sig (Elt Ideal)) (X : FVec Ideal S8x1536x2048 .f32)
    (a3 a4 : FVec Ideal S8x2048x688 .f32) (a5 : FVec Ideal S8x688x2048 .f32)
    (h70 : (W (Proc.devRef .tc main_v70) : FVec Ideal S8x1536x2048 .f32) = X)
    (h3 : W (Proc.devRef .tc main_arg3) = a3) (h4 : W (Proc.devRef .tc main_arg4) = a4) (h5 : W (Proc.devRef .tc main_arg5) = a5) :
    (after (opsC2 (F := Ideal)) W (Proc.devRef .tc main_v76) : FVec Ideal S12288x2048 .f32)
        = shapeCast S12288x2048 (Yref X a3 a4 a5) Facts₀.shapeCasts_S8x1536x2048_S12288x2048
    ∧ after (opsC2 (F := Ideal)) W (Proc.devRef .tc main_v53) = W (Proc.devRef .tc main_v53)
    ∧ after (opsC2 (F := Ideal)) W (Proc.devRef .tc main_v49) = W (Proc.devRef .tc main_v49)
    ∧ after (opsC2 (F := Ideal)) W (Proc.devRef .tc main_v19) = W (Proc.devRef .tc main_v19)
    ∧ after (opsC2 (F := Ideal)) W (Proc.devRef .tc main_v26) = W (Proc.devRef .tc main_v26) := by
  subst h70 h3 h4 h5
  after_results_simp
  refine ⟨?_, ?_, ?_, ?_, ?_⟩
  · rfl
  all_goals first | exact True.intro | rfl

end Cert.Moe.Ref

end
-- ==== Proof.RefStageD.lean ====
/-
  The reference's last stretch, from any contents holding the unit outputs row by row and the routing vectors: the result
  is every pair's row, times the pair's weight, added to its token.
-/
import proofs.«116065_j74380243632185_2_alg».proof.Proof.RefOps
import proofs.«116065_j74380243632185_2_alg».proof.Proof.RefSpec

noncomputable section

namespace Cert.Moe.Ref

open Idealize.ShloMosaic Idealize.ShloMosaic.StableHlo Idealize.SL.Sem Cert.ReferenceIdeal

variable [Cert.KernelIdeal.Facts]

attribute [local irreducible] Host.gather Host.scatterAdd in
set_option maxRecDepth 65536 in
set_option maxHeartbeats 4000000 in
theorem stageD (W : Valuation τ sig (Elt Ideal)) (Y : FVec Ideal Cert.KernelIdeal.S8x1536x2048 .f32) (a1 : IVec Cert.KernelIdeal.S4096x2 32)
    (a2 : FVec Ideal Cert.KernelIdeal.S4096x2 .f32)
    (h76 : (W (Proc.devRef .tc main_v76) : FVec Ideal S12288x2048 .f32) = shapeCast S12288x2048 Y Facts₀.shapeCasts_S8x1536x2048_S12288x2048)
    (h53 : (W (Proc.devRef .tc main_v53) : IVec S8192 32) = slot a1) (h49 : (W (Proc.devRef .tc main_v49) : IVec S8192 1) = valid a1)
    (h19 : (W (Proc.devRef .tc main_v19) : FVec Ideal S8192 .f32) = ssrt a1 a2) (h26 : (W (Proc.devRef .tc main_v26) : IVec S8192 32) = st a1) :
    (after (opsD (F := Ideal)) W (Proc.devRef .tc main_v99) : FVec Ideal S4096x2048 .f32) = refOutOf Y a1 a2 := by
  after_results_simp
  rw [h76, h53, h49, h19, h26]; rfl

end Cert.Moe.Ref

end
-- ==== Proof.LibAfterAppend.lean ====
/-
  A line of host operations run in two parts.

  The buffer contents after a line of operations is a fold over the line; after a line made of two parts it is the fold
  over the second part of the fold over the first. So a long line can be read part by part, each part from ANY contents.
-/
import Idealize.ShloMosaic.Lib.StableHlo.Run

namespace Cert.LibAfterAppend

open Idealize.ShloMosaic Idealize.ShloMosaic.StableHlo

/-- The contents after two parts run one after the other. -/
theorem after_append {τ : Topo} {sig : RefSig} {Val : EltTy → Type} (A B : List (HloOp τ sig Val)) (V : Valuation τ sig Val) :
    after (A ++ B) V = after B (after A V) := by
  induction A generalizing V with
  | nil => rfl
  | cons op A ih => exact ih _

end Cert.LibAfterAppend
-- ==== Proof.RefValue.lean ====
/-
  What the reference's result buffer holds after its run: `refOut` of the six argument arrays. The line of operations is
  read stretch by stretch, each from the contents the earlier ones left.
-/
import proofs.«116065_j74380243632185_2_alg».proof.Proof.RefOps
import proofs.«116065_j74380243632185_2_alg».proof.Proof.RefSpec
import proofs.«116065_j74380243632185_2_alg».proof.Proof.RefStageA
import proofs.«116065_j74380243632185_2_alg».proof.Proof.RefStageB
import proofs.«116065_j74380243632185_2_alg».proof.Proof.RefStageC1
import proofs.«116065_j74380243632185_2_alg».proof.Proof.RefStageC2
import proofs.«116065_j74380243632185_2_alg».proof.Proof.RefStageD
import proofs.«116065_j74380243632185_2_alg».proof.Proof.LibAfterAppend

noncomputable section

namespace Cert.Moe.Ref

open Idealize.ShloMosaic Idealize.ShloMosaic.StableHlo Idealize.SL.Sem Cert.ReferenceIdeal

variable [Cert.KernelIdeal.Facts]

variable [Cert.ReferenceIdeal.Facts]

/-- The result buffer after the operations, from any contents `V`, is `refOut` of `V` at the argument buffers. -/
theorem out_eq (V : Valuation τ sig (Elt Ideal)) :
    (after (ops (F := Ideal)) V (Proc.devRef .tc main_v99) : FVec Ideal S4096x2048 .f32)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_split, Cert.LibAfterAppend.after_append, Cert.LibAfterAppend.after_append, Cert.LibAfterAppend.after_append,
    Cert.LibAfterAppend.after_append]
  obtain ⟨hA12, hA19, hA26, hA0, hA3, hA4, hA5⟩ := stageA V _ _ rfl rfl
  obtain ⟨hB53, hB49, hB19, hB26, hB0, hB3, hB4, hB5⟩ := stageB (after opsA V) _ hA12
  obtain ⟨hT70, hT53, hT49, hT19, hT26, hT3, hT4, hT5⟩ := stageC1 (after opsB (after opsA V)) _ _ hB53 (hB26.trans hA26)
    (hB0.trans hA0)
  obtain ⟨hU76, hU53, hU49, hU19, hU26⟩ := stageC2 (after opsC1 (after opsB (after opsA V))) _ _ _ _ hT70
    ((hT3.trans hB3).trans hA3) ((hT4.trans hB4).trans hA4) ((hT5.trans hB5).trans hA5)
  exact stageD (after opsC2 (after opsC1 (after opsB (after opsA V)))) _ _ _ hU76 ((hU53.trans hT53).trans hB53)
    ((hU49.trans hT49).trans hB49) (((hU19.trans hT19).trans hB19).trans hA19) (((hU26.trans hT26).trans hB26).trans hA26)

end Cert.Moe.Ref

end
-- ==== Proof.RefArgs.lean ====
/-
  The reference never writes one of its six argument buffers: each operation writes only its own result buffer, and
  none of those is an argument. So after the whole line every argument holds what the launch put there.
-/
import proofs.«116065_j74380243632185_2_alg».proof.Proof.RefOps

noncomputable section

namespace Cert.Moe.Ref

open Idealize.ShloMosaic Idealize.ShloMosaic.StableHlo Idealize.SL.Sem Cert.ReferenceIdeal

variable {F : FTy → Type} [FloatOps F]

set_option maxRecDepth 16384

/-- No operation of the line writes argument 0: it ends as launched. -/
theorem kept_arg0 (V : Valuation τ sig (Elt F)) :
    after (ops (F := F)) V (Proc.devRef .tc main_arg0) = V (Proc.devRef .tc main_arg0) :=
  StableHlo.after_of_forall_not_mem (b := Proc.devRef .tc main_arg0) _ _ (List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

/-- No operation of the line writes argument 1: it ends as launched. -/
theorem kept_arg1 (V : Valuation τ sig (Elt F)) :
    after (ops (F := F)) V (Proc.devRef .tc main_arg1) = V (Proc.devRef .tc main_arg1) :=
  StableHlo.after_of_forall_not_mem (b := Proc.devRef .tc main_arg1) _ _ (List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

/-- No operation of the line writes argument 2: it ends as launched. -/
theorem kept_arg2 (V : Valuation τ sig (Elt F)) :
    after (ops (F := F)) V (Proc.devRef .tc main_arg2) = V (Proc.devRef .tc main_arg2) :=
  StableHlo.after_of_forall_not_mem (b := Proc.devRef .tc main_arg2) _ _ (List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

/-- No operation of the line writes argument 3: it ends as launched. -/
theorem kept_arg3 (V : Valuation τ sig (Elt F)) :
    after (ops (F := F)) V (Proc.devRef .tc main_arg3) = V (Proc.devRef .tc main_arg3) :=
  StableHlo.after_of_forall_not_mem (b := Proc.devRef .tc main_arg3) _ _ (List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

/-- No operation of the line writes argument 4: it ends as launched. -/
theorem kept_arg4 (V : Valuation τ sig (Elt F)) :
    after (ops (F := F)) V (Proc.devRef .tc main_arg4) = V (Proc.devRef .tc main_arg4) :=
  StableHlo.after_of_forall_not_mem (b := Proc.devRef .tc main_arg4) _ _ (List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

/-- No operation of the line writes argument 5: it ends as launched. -/
theorem kept_arg5 (V : Valuation τ sig (Elt F)) :
    after (ops (F := F)) V (Proc.devRef .tc main_arg5) = V (Proc.devRef .tc main_arg5) :=
  StableHlo.after_of_forall_not_mem (b := Proc.devRef .tc main_arg5) _ _ (List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

end Cert.Moe.Ref

end
-- ==== Proof.LibRangeOfReduce.lean ====
/-
  Bounds read back from an `and`-reduction over every entry of an array.

  A predicate that ends in "all entries satisfy …" is an `and`-reduction, from one, of the array of the entries' one-bit
  tests, and the claim is that its result is one. Then every entry passed its test. Two tests are read back here:
  a signed integer entry between two bounds (`lo ≤ x` and `x ≤ hi`, each a signed comparison), and an extended-real
  entry of finite size (`|x| < +∞`, where `|x|` is `max x (-x)`): such an entry is a real number.
-/
import Idealize.ShloMosaic.Lib.ReduceAll
import Idealize.ShloMosaic.PureOps.Ideal
import Idealize.ShloMosaic.PureOps.Ideal.Laws

namespace Cert.Lib.RangeOfReduce

open Idealize.ShloMosaic

variable {s t u : Shape} {axes : List (Fin s.rank)}

/-- If the `and` over ALL entries of "`lo ≤ x` and `x ≤ hi`" (signed comparisons, entry by entry against the arrays
    `lo` and `hi` — splat constants in the usual case) is one, every entry of `x` lies between its bounds. -/
theorem sbounds_of_reduce_all [Subsingleton t.Idx] {w : Nat} (x lo hi : IVec s w) (init : u.Idx → BitVec 1)
    (h : s.ReducesTo axes t) (hu : 0 < u.numel) (j : t.Idx)
    (e : Host.reduce IntOp.andi (andi (cmpi .sge x lo) (cmpi .sle x hi)) init h hu j = 1#1) (i : s.Idx) :
    (lo i).toInt ≤ (x i).toInt ∧ (x i).toInt ≤ (hi i).toInt := by
  obtain ⟨hge, hle⟩ := IntOp.andi_eq_one.1 (Host.reduce_andi_all _ init h hu j e i)
  exact ⟨IntOp.cmpi_sge.1 hge, IntOp.cmpi_sle.1 hle⟩

/-- A one-bit word made from a truth value is one exactly when the value is true. -/
theorem ofBool_eq_one {b : Bool} : BitVec.ofBool b = 1#1 ↔ b = true := by cases b <;> decide

/-- An extended real whose absolute value `max x (-x)` is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- If the `and` over ALL entries of "`|x| < bound`" is one and the bound array is `+∞` everywhere, every entry of
    `x` is a real number. -/
theorem real_of_reduce_all [Subsingleton t.Idx] {φ : FTy} (x bound : FVec Ideal s φ) (hb : ∀ i, bound i = (⊤ : EReal))
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, x i = (r : EReal) := by
  have hi : Ideal.cmp .olt (max (x i) (-(x i))) (bound i) = 1#1 := Host.reduce_andi_all _ init h hu j e i
  rw [hb i] at hi
  refine real_of_abs_lt_top (x i) ?_
  have hd : decide (max (x i) (-(x i)) < (⊤ : EReal)) = true := ofBool_eq_one.1 hi
  exact of_decide_eq_true hd

end Cert.Lib.RangeOfReduce
-- ==== Proof.Pre.lean ====
/-
  What the precondition says about the expert numbers: its last conjunct is the "and" over all 8192 entries of
  "0 ≤ entry and entry ≤ 7" (signed), and the precondition is that the whole conjunction is one. So every entry names
  one of the eight experts.
-/
import proofs.«116065_j74380243632185_2_alg».proof.Proof.Spec
import proofs.«116065_j74380243632185_2_alg».proof.Pre_finite_inputs
import proofs.«116065_j74380243632185_2_alg».proof.Proof.LibRangeOfReduce

noncomputable section

namespace Cert.Moe

open Idealize.ShloMosaic

variable [Cert.KernelIdeal.Facts] [Cert.Pre_finite_inputs.Facts]

instance : Subsingleton Cert.Pre_finite_inputs.S_.Idx := ⟨fun a b => funext fun d => d.elim0⟩

/-- Under the precondition every expert number lies in 0 … 7. -/
theorem inRange_of_pre (a0 : FVec Ideal Cert.Pre_finite_inputs.S4096x2048 .f32) (a1 : IVec Cert.Pre_finite_inputs.S4096x2 32)
    (a2 : FVec Ideal Cert.Pre_finite_inputs.S4096x2 .f32) (a3 a4 : FVec Ideal Cert.Pre_finite_inputs.S8x2048x688 .f32)
    (a5 : FVec Ideal Cert.Pre_finite_inputs.S8x688x2048 .f32)
    (h : Cert.Pre_finite_inputs.fn (F := Ideal) a0 a1 a2 a3 a4 a5 = fun _ => 1#1) : InRange a1 := by
  have h0 := congrFun h ValueIdx.ix0
  dsimp only [Cert.Pre_finite_inputs.fn, Cert.Pre_finite_inputs.fn_part1] at h0
  have h1 := (IntOp.andi_eq_one.1 h0).2
  intro i
  have hb := Cert.Lib.RangeOfReduce.sbounds_of_reduce_all a1 _ _ _ _ _ ValueIdx.ix0 h1 i
  simp only [broadcastInDim, constantI] at hb
  have e0 : (0#32 : BitVec 32).toInt = 0 := by decide
  have e7 : (7#32 : BitVec 32).toInt = 7 := by decide
  rw [e0, e7] at hb
  exact hb

end Cert.Moe

end
-- ==== Proof.Gate.lean ====
/-
  The reference's gated unit read at an entry, and the law joining the kernel's function of its operand arrays to it.

  A product batched over the leading axis, [B, M, K] by [B, K, N], contracting the left operand's last axis against the
  right operand's middle axis, has at the result entry (e, r, h) and the contraction coordinate k the operand indices
  (e, r, k) and (e, k, h); so at the ideal values it is, at (e, r, h), the sum over k of lhs (e, r, k) · rhs (e, k, h).
  The reference's three products are of this form, and x · (1 / (1 + exp (-x))) is x · sigmoid x entry by entry, so the
  reference's unit output at (e, r, d) is the sum over h of (g · sigmoid g · u) · wd (e, h, d) with g, u the two
  projections of row r of expert e's table.
-/
import proofs.«116065_j74380243632185_2_alg».proof.Proof.RefSpec
import Idealize.ShloMosaic.Lib.IdealHost
import Idealize.ShloMosaic.PureOps.Ideal.Laws

noncomputable section

open scoped BigOperators

namespace Cert.Moe

open Idealize.ShloMosaic Idealize.ShloMosaic.ValueIdx

/-- The dimension numbers of a product batched over the leading axis: [B, M, K] by [B, K, N] into [B, M, N]. -/
def bdot (B M K N : ℕ)
    (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := wf

section Generic
variable {B M K N : ℕ} (wf : DotDims.WF ⟨3, ![B, M, K]⟩ ⟨3, ![B, K, N]⟩ ⟨3, ![B, M, N]⟩ [2] [1] [1] [2] [0] [0])

/-- The left operand's index at result entry (e, r, h) and contraction coordinate k is (e, r, k). -/
theorem bdot_lhsIdx (e : Fin B) (r : Fin M) (h : Fin N) (k : Fin K) :
    (bdot B M K N wf).lhsIdx (ix3 e r h) ((contrEquiv1 (bdot B M K N wf) K rfl rfl).symm k) = ix3 e r k :=
  funext fun a => Fin.ext (by
    match a with
    | ⟨0, _⟩ => rfl
    | ⟨1, _⟩ => rfl
    | ⟨2, _⟩ => exact contrEquiv1_symm_val (bdot B M K N wf) K rfl rfl k)

/-- The right operand's index at result entry (e, r, h) and contraction coordinate k is (e, k, h). -/
theorem bdot_rhsIdx (e : Fin B) (r : Fin M) (h : Fin N) (k : Fin K) :
    (bdot B M K N wf).rhsIdx (ix3 e r h) ((contrEquiv1 (bdot B M K N wf) K rfl rfl).symm k) = ix3 e k h :=
  funext fun a => Fin.ext (by
    match a with
    | ⟨0, _⟩ => rfl
    | ⟨1, _⟩ => exact contrEquiv1_symm_val (bdot B M K N wf) K rfl rfl k
    | ⟨2, _⟩ => rfl)

/-- The host's batched product at the ideal values, read at (e, r, h): the sum over the contraction coordinate. -/
theorem bdot_apply {φ₁ φ₂ : FTy} (prec : Option ContractPrecision) (sched : HostSchedule)
    (lhs : FVec Ideal ⟨3, ![B, M, K]⟩ φ₁) (rhs : FVec Ideal ⟨3, ![B, K, N]⟩ φ₂) (e : Fin B) (r : Fin M) (h : Fin N) :
    FloatOps.dotGeneral (bdot B M K N wf) prec sched lhs rhs (ix3 e r h)
      = ∑ k : Fin K, lhs (ix3 e r k) * rhs (ix3 e k h) := by
  rw [Ideal.dotGeneral_apply, ← Equiv.sum_comp (contrEquiv1 (bdot B M K N wf) K rfl rfl).symm]
  refine Finset.sum_congr rfl fun k _ => ?_
  rw [bdot_lhsIdx, bdot_rhsIdx]

end Generic

variable [Cert.KernelIdeal.Facts] [Cert.ReferenceIdeal.Facts]

/-- The host's product of the token table with one of the experts' first matrices, read at (e, r, h). -/
theorem dotIn_apply (xb : FVec Ideal Cert.ReferenceIdeal.S8x1536x2048 .f32) (w : FVec Ideal Cert.ReferenceIdeal.S8x2048x688 .f32)
    (e : Fin 8) (r : Fin 1536) (h : Fin 688) :
    Host.dotGeneral Cert.ReferenceIdeal.dot_S8x1536x2048_S8x2048x688_S8x1536x688_2_1_1_2_0_0 none xb w (ix3 e r h)
      = proj xb w e r h :=
  bdot_apply (B := 8) (M := 1536) (K := 2048) (N := 688)
    Cert.ReferenceIdeal.Facts₀.dot_S8x1536x2048_S8x2048x688_S8x1536x688_2_1_1_2_0_0_wf none .single xb w e r h

/-- The host's product of a hidden array with the experts' second matrices, read at (e, r, d). -/
theorem dotOut_apply (y : FVec Ideal Cert.ReferenceIdeal.S8x1536x688 .f32) (wd : FVec Ideal Cert.ReferenceIdeal.S8x688x2048 .f32)
    (e : Fin 8) (r : Fin 1536) (d : Fin 2048) :
    Host.dotGeneral Cert.ReferenceIdeal.dot_S8x1536x688_S8x688x2048_S8x1536x2048_2_1_1_2_0_0 none y wd (ix3 e r d)
      = ∑ h : Fin 688, y (ix3 e r h) * wd (ix3 e h d) :=
  bdot_apply (B := 8) (M := 1536) (K := 688) (N := 2048)
    Cert.ReferenceIdeal.Facts₀.dot_S8x1536x688_S8x688x2048_S8x1536x2048_2_1_1_2_0_0_wf none .single y wd e r d

/-- x * (1 / (1 + exp (-x))) at an entry is x * sigmoid x. -/
theorem siluH_apply (x : FVec Ideal Cert.ReferenceIdeal.S8x1536x688 .f32) (j : Cert.ReferenceIdeal.S8x1536x688.Idx) :
    siluH x j = x j * Ideal.logistic (x j) := by
  unfold siluH
  rw [mulf_apply, hostDivf_apply, addf_apply, broadcastInDim_scalar_apply, constant_apply, Ideal.ofBits_one_f32]
  rfl

/-- The reference's unit outputs read at an entry. -/
theorem Yref_apply (xb : FVec Ideal Cert.ReferenceIdeal.S8x1536x2048 .f32) (wg wu : FVec Ideal Cert.ReferenceIdeal.S8x2048x688 .f32)
    (wd : FVec Ideal Cert.ReferenceIdeal.S8x688x2048 .f32) (e : Fin 8) (r : Fin 1536) (d : Fin 2048) :
    Yref xb wg wu wd (ix3 e r d) = unit xb wg wu wd e r d := by
  unfold Yref
  rw [dotOut_apply]
  unfold unit hid
  refine Finset.sum_congr rfl fun h _ => ?_
  rw [mulf_apply, siluH_apply, dotIn_apply, dotIn_apply]

/-- The kernel's function of the five operand arrays is the reference's unit output times the row's weight. -/
theorem gate (xb : FVec Ideal Cert.ReferenceIdeal.S8x1536x2048 .f32) (wg wu : FVec Ideal Cert.ReferenceIdeal.S8x2048x688 .f32)
    (wd : FVec Ideal Cert.ReferenceIdeal.S8x688x2048 .f32) (wb : Cert.KernelIdeal.S8x1536x1.Idx → EReal)
    (e : Fin 8) (r : Fin 1536) (d : Fin 2048) :
    G xb wg wu wd wb (ix3 e r d) = Yref xb wg wu wd (ix3 e r d) * wb (ix3 e r 0) := by
  rw [Yref_apply]
  rfl

end Cert.Moe

end
-- ==== Proof.LibRowGatherScatter.lean ====
/-
  Row gather and row scatter-add read at an index given by coordinates.

  A gather of whole rows of a matrix (or of single entries of a vector) at a column of integer
  start indices reads row "start index, taken signed and clamped into the operand"; a
  scatter-add of rows adds update row e to operand row c exactly when the start index of e, taken
  signed and NOT clamped, is c (an index outside the operand drops its row).
-/
import Idealize.ShloMosaic.PureOps.Ideal
import Idealize.ShloMosaic.Lib.ValueIdx

noncomputable section

open scoped BigOperators

namespace Cert.LibRowGatherScatter

open Idealize.ShloMosaic Idealize.ShloMosaic.ValueIdx

/-- The row a start index selects among N rows: its signed value clamped into [0, N - 1]. -/
def clampRow (N : Nat) (hN : 0 < N) {w : Nat} (v : BitVec w) : Fin N :=
  ⟨min v.toInt.toNat (N - 1), by omega⟩

/-! ## Gather of entries of a vector -/

/-- The dimension numbers of a gather of single entries of a vector of length N at a column of E
    start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- Entry e of the gathered vector is the operand at the e-th start index, taken signed and clamped. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampRow N hN (idx (ix2 e 0)))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Gather of rows of a matrix -/

/-- The dimension numbers of a gather of whole rows of an N by C matrix at a column of E start
    indices. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- Entry (e, f) of the gathered matrix is the operand at row "e-th start index, taken signed and
    clamped" and column f. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGather N E C wf) x idx (ix2 e f) = x (ix2 (clampRow N hN (idx (ix2 e 0))) f) := by
  have h0 : (rowGather N E C wf).operandIdx (ix2 e f) idx (0 : Fin 2) = clampRow N hN (idx (ix2 e 0)) := by
    refine Fin.ext ?_
    show (rowGather N E C wf).start (ix2 e f) idx (0 : Fin 2) + (rowGather N E C wf).batchCoord (ix2 e f) (0 : Fin 2)
      + (rowGather N E C wf).offCoord (ix2 e f) (0 : Fin 2) = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e f) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : (rowGather N E C wf).operandIdx (ix2 e f) idx (1 : Fin 2) = f := by
    refine Fin.ext ?_
    show (rowGather N E C wf).start (ix2 e f) idx (1 : Fin 2) + (rowGather N E C wf).batchCoord (ix2 e f) (1 : Fin 2)
      + (rowGather N E C wf).offCoord (ix2 e f) (1 : Fin 2) = _
    have hs : (rowGather N E C wf).start (ix2 e f) idx (1 : Fin 2) = 0 := by
      unfold GatherDims.start
      rw [dif_neg (show (1 : Fin 2) ∉ (rowGather N E C wf).startIndexMap from
        (by decide : (1 : Fin 2) ∉ ([0] : List (Fin 2))))]
    have ho : (rowGather N E C wf).offCoord (ix2 e f) (1 : Fin 2) = f.val := by
      unfold GatherDims.offCoord
      rw [dif_pos (show (1 : Fin 2) ∈ (rowGather N E C wf).sKept from
        (GatherDims.mem_sKept _ _).mpr ⟨(by decide : (1 : Fin 2) ∉ ([0] : List (Fin 2))), List.not_mem_nil⟩)]
      rfl
    rw [GatherDims.batchCoord_eq_zero _ _ _ List.not_mem_nil, hs, ho, Nat.add_zero, Nat.zero_add]
  unfold Host.gather
  congr 1
  funext a
  match a with
  | ⟨0, _⟩ => exact h0
  | ⟨1, _⟩ => exact h1

/-! ## Scatter-add of rows of a matrix -/

/-- An update lands on an operand index exactly when, on every axis, its signed start plus its
    window coordinate is that index's coordinate. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hg a
      have h1 : (d.start j idx a + (d.window j a : ℤ)).toNat = (i a).val := by
        rw [← hg]
      have h2 := (h a).1
      omega
    · intro hall
      funext a
      refine Fin.ext ?_
      have h1 := hall a
      show (d.start j idx a + (d.window j a : ℤ)).toNat = (i a).val
      omega
  · rename_i h
    constructor
    · intro hn
      exact absurd hn (by simp)
    · intro hall
      refine absurd (fun a => ?_) h
      have h1 := hall a
      have h2 := (i a).isLt
      constructor <;> omega

/-- The dimension numbers of a scatter of E update rows of width C into an N by C matrix at a
    column of E start indices. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1,
    wf := wf }

/-- Update entry (e, f') lands on operand entry (c, f) exactly when the columns agree and the e-th
    start index, taken signed, is c. -/
theorem rowScatter_resultIdx?_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (f' : Fin C) (c : Fin N) (f : Fin C) :
    (rowScatter N E C wf).resultIdx? (ix2 e f') idx = some (ix2 c f)
      ↔ f' = f ∧ (idx (ix2 e 0)).toInt = (c.val : ℤ) := by
  have hm0 : (0 : Fin 2) ∈ (rowScatter N E C wf).scatterDimsToOperandDims := List.mem_singleton.mpr rfl
  have hs0 : (rowScatter N E C wf).start (ix2 e f') idx (0 : Fin 2) = (idx (ix2 e 0)).toInt := by
    unfold ScatterDims.start
    rw [dif_pos hm0]
    have hsi : (rowScatter N E C wf).siIdx (ix2 e f')
        ⟨List.idxOf (0 : Fin 2) (rowScatter N E C wf).scatterDimsToOperandDims,
          List.idxOf_lt_length_iff.2 hm0⟩ = ix2 e 0 := by
      funext b; refine Fin.ext ?_
      match b with
      | ⟨0, _⟩ => rfl
      | ⟨1, _⟩ => rfl
    rw [hsi]
  have hs1 : (rowScatter N E C wf).start (ix2 e f') idx (1 : Fin 2) = 0 := by
    unfold ScatterDims.start
    rw [dif_neg (show (1 : Fin 2) ∉ (rowScatter N E C wf).scatterDimsToOperandDims from
      (by decide : (1 : Fin 2) ∉ ([0] : List (Fin 2))))]
  have hw0 : (rowScatter N E C wf).window (ix2 e f') (0 : Fin 2) = 0 := by
    unfold ScatterDims.window
    rw [dif_neg (show (0 : Fin 2) ∉ (rowScatter N E C wf).sKept from
      (by decide : (0 : Fin 2) ∉ (List.finRange 2).filter (· ∉ ([0] : List (Fin 2)))))]
  have hw1 : (rowScatter N E C wf).window (ix2 e f') (1 : Fin 2) = f'.val := by
    unfold ScatterDims.window
    rw [dif_pos (show (1 : Fin 2) ∈ (rowScatter N E C wf).sKept from
      (by decide : (1 : Fin 2) ∈ (List.finRange 2).filter (· ∉ ([0] : List (Fin 2)))))]
    rfl
  rw [resultIdx?_eq_some_iff]
  constructor
  · intro h
    have h0 := h (0 : Fin 2)
    have h1 := h (1 : Fin 2)
    rw [hs0, hw0] at h0
    rw [hs1, hw1] at h1
    have h0' : (idx (ix2 e 0)).toInt + ((0 : ℕ) : ℤ) = (c.val : ℤ) := h0
    have h1' : (0 : ℤ) + (f'.val : ℤ) = (f.val : ℤ) := h1
    exact ⟨Fin.ext (by omega), by omega⟩
  · rintro ⟨rfl, hc⟩ a
    match a with
    | ⟨0, _⟩ =>
      show (rowScatter N E C wf).start (ix2 e f') idx (0 : Fin 2)
        + ((rowScatter N E C wf).window (ix2 e f') (0 : Fin 2) : ℤ) = (c.val : ℤ)
      rw [hs0, hw0]; omega
    | ⟨1, _⟩ =>
      show (rowScatter N E C wf).start (ix2 e f') idx (1 : Fin 2)
        + ((rowScatter N E C wf).window (ix2 e f') (1 : Fin 2) : ℤ) = (f'.val : ℤ)
      rw [hs1, hw1]; omega

/-- Entry (c, f) of the scatter-add is the operand's entry plus the sum, over the update rows whose
    start index taken signed is c, of their entries in column f. -/
theorem scatterAdd_rows_apply {N E C w : Nat}
    (wf : ScatterDims.WF ⟨2, ![N, C]⟩ ⟨2, ![E, 1]⟩ ⟨2, ![E, C]⟩ [1] [0] [0] 1)
    (z : (⟨2, ![N, C]⟩ : Shape).Idx → EReal) (idx : IVec ⟨2, ![E, 1]⟩ w)
    (u : (⟨2, ![E, C]⟩ : Shape).Idx → EReal) (c : Fin N) (f : Fin C) :
    Ideal.hostScatterAdd (rowScatter N E C wf) z idx u (ix2 c f)
      = z (ix2 c f) + ∑ e : Fin E, if (idx (ix2 e 0)).toInt = (c.val : ℤ) then u (ix2 e f) else 0 := by
  unfold Ideal.hostScatterAdd
  congr 1
  rw [Finset.sum_filter, sum_idx2]
  refine Finset.sum_congr rfl (fun e _ => ?_)
  simp only [rowScatter_resultIdx?_iff]
  by_cases hc : (idx (ix2 e 0)).toInt = (c.val : ℤ)
  · simp only [hc, and_true, if_true]
    rw [Finset.sum_ite_eq' Finset.univ f (fun f' => u (ix2 e f'))]
    simp
  · simp only [hc, and_false, if_false]
    exact Finset.sum_const_zero

end Cert.LibRowGatherScatter

end
-- ==== Proof.LibHostColumn.lean ====
/-
  The host's broadcast_in_dim read at an index given by coordinates, for the column forms, any extents:
  a vector [n] stood up as a column [n,1] read at (i,0) is the vector at i; a column [n,1] spread over [n,b] read at
  (i,j) is the column at (i,0); a scalar spread over any shape is the scalar everywhere.
-/
import Idealize.ShloMosaic.Lib.Pipeline.Value
import Idealize.ShloMosaic.Lib.ValueIdx

namespace Cert.LibHostColumn

open Idealize.ShloMosaic Idealize.ShloMosaic.ValueIdx

variable {α : Type}

/-- A vector stood up as a column, read at row `i`: the vector's entry `i`. -/
theorem vec_as_column {n : Nat} (h : (⟨1, ![n]⟩ : Shape).BroadcastsInDim ⟨2, ![n, 1]⟩ ![0])
    (x : (⟨1, ![n]⟩ : Shape).Idx → α) (i : Fin n) (z : Fin 1) :
    broadcastInDim ⟨2, ![n, 1]⟩ ![0] h x (ix2 i z) = x (ix1 i) := by
  refine broadcastInDim_apply _ h x _ (ix1 i) (fun a => ?_)
  obtain rfl : a = 0 := Subsingleton.elim _ _
  show i.val = if n = 1 then 0 else i.val
  split
  · have := i.isLt; omega
  · rfl

/-- A column spread over the columns of a matrix, read at `(i, j)`: the column's entry `i`. -/
theorem column_spread {n b : Nat} (h : (⟨2, ![n, 1]⟩ : Shape).BroadcastsInDim ⟨2, ![n, b]⟩ ![0, 1])
    (x : (⟨2, ![n, 1]⟩ : Shape).Idx → α) (i : Fin n) (j : Fin b) :
    broadcastInDim ⟨2, ![n, b]⟩ ![0, 1] h x (ix2 i j) = x (ix2 i 0) := by
  refine broadcastInDim_apply _ h x _ (ix2 i 0) (fun a => ?_)
  match a with
  | ⟨0, _⟩ =>
    show i.val = if n = 1 then 0 else i.val
    split
    · have := i.isLt; omega
    · rfl
  | ⟨1, _⟩ =>
    show (0 : Nat) = if (1 : Nat) = 1 then 0 else j.val
    rw [if_pos rfl]

/-- A scalar spread over any shape is the scalar at every index. -/
theorem scalar_spread {t : Shape} (h : (⟨0, ![]⟩ : Shape).BroadcastsInDim t ![])
    (x : (⟨0, ![]⟩ : Shape).Idx → α) (j : t.Idx) :
    broadcastInDim t ![] h x j = x ix0 :=
  broadcastInDim_apply _ h x j ix0 (fun a => a.elim0)

end Cert.LibHostColumn
-- ==== Proof.LibFlatten.lean ====
/-
  Merging and splitting the two leading axes of a rank-3 array, read at an index given by coordinates.

  An array [a, b, c] re-laid as [n, c] with n = a * b keeps its row-major order: row r = p * b + q of the matrix is line
  (p, q) of the array. So the matrix at (r, k) is the array at (p, q, k), and, the other way round, a matrix [n, c] re-laid
  as [a, b, c] reads at (p, q, k) the matrix at (p * b + q, k).
-/
import Idealize.ShloMosaic.Lib.Pipeline.Value
import Idealize.ShloMosaic.Lib.ValueIdx

namespace Cert.LibFlatten

open Idealize.ShloMosaic Idealize.ShloMosaic.ValueIdx

variable {α : Type}

/-- An array `[a, b, c]` re-laid as a matrix `[n, c]` reads, at row `r = p * b + q` and column `k`, the array at `(p, q, k)`. -/
theorem merge_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- A matrix `[n, c]` re-laid as an array `[a, b, c]` reads, at `(p, q, k)`, the matrix at row `r = p * b + q` and column `k`. -/
theorem split_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

end Cert.LibFlatten
-- ==== Proof.Rows.lean ====
/-
  The two programs' per-pair rows are the same array.

  Pair i reads row r of the table, r the row the pair owns (clamped into the table). Write r = e * 1536 + c. The kernel's
  row is the unit's output at (e, c, ·) times the weight stored in row r of the weight table, kept when the pair fits and
  replaced by zero when it does not; the reference's is the unit's output at (e, c, ·) times the pair's own weight, which
  is zero when the pair does not fit. When the pair fits, row r of the weight table holds the pair's own weight (the
  hypothesis `hw`, which is where the routing's injectivity enters); when it does not, both rows are zero, because
  anything times zero is zero on the extended reals.
-/
import proofs.«116065_j74380243632185_2_alg».proof.Proof.Gate
import proofs.«116065_j74380243632185_2_alg».proof.Proof.LibRowGatherScatter
import proofs.«116065_j74380243632185_2_alg».proof.Proof.LibHostColumn
import proofs.«116065_j74380243632185_2_alg».proof.Proof.LibFlatten
import Idealize.ShloMosaic.PureOps.Ideal.Laws

noncomputable section

namespace Cert.Moe

open Idealize.ShloMosaic Idealize.ShloMosaic.ValueIdx Cert.KernelIdeal Cert.KernelIdeal.Facts₀

variable [Cert.KernelIdeal.Facts] [Cert.ReferenceIdeal.Facts]

/-- The narrow format's zero word is zero. -/
theorem ofBits_bf16_zero : Ideal.ofBits .bf16 0x0000#16 = 0 := by simp [Ideal.ofBits, Ideal.ieee]

/-- The weight table laid out expert by expert, read at (e, c, 0), is the flat table at row e * 1536 + c. -/
theorem wbuf_apply (a1 : IVec S4096x2 32) (a2 : FVec Ideal S4096x2 .f32) (e : Fin 8) (c : Fin 1536) (r : Fin 12288)
    (hr : r.val = e.val * 1536 + c.val) : wbuf a1 a2 (ix3 e c 0) = wvec a1 a2 (ix1 r) :=
  shapeCast_apply (wvec a1 a2) shapeCasts_S12288_S8x1536x1 _ _ (by
    rw [Shape.rowMajor_val_one, Shape.rowMajor_val_three]
    show r.val = (e.val * 1536 + c.val) * 1 + 0
    omega)

/-- A pair's weight is zero when the pair does not fit. -/
theorem wgt_of_not_valid (a1 : IVec S4096x2 32) (a2 : FVec Ideal S4096x2 .f32) (i : Fin 8192) (h0 : valid a1 (ix1 i) = 0#1) :
    wgt a1 a2 (ix1 i) = 0 := by
  unfold wgt
  rw [select_apply, h0, select_zero]
  exact (Cert.LibHostColumn.scalar_spread bcast_S_S8192 _ _).trans Ideal.ofBits_zero_f32

theorem rows_eq (xb : FVec Ideal S8x1536x2048 .f32) (wg wu : FVec Ideal S8x2048x688 .f32) (wd : FVec Ideal S8x688x2048 .f32)
    (a1 : IVec S4096x2 32) (a2 : FVec Ideal S4096x2 .f32)
    (hw : ∀ i : Fin 8192, valid a1 (ix1 i) = 1#1 →
      wvec a1 a2 (ix1 (Cert.LibRowGatherScatter.clampRow 12288 (by decide) (rowIdx a1 (ix2 i 0)))) = wgt a1 a2 (ix1 i)) :
    rowsK (G xb wg wu wd (wbuf a1 a2)) a1 = rowsR (Yref xb wg wu wd) a1 a2 := by
  funext j
  obtain ⟨i, d, rfl⟩ : ∃ (i : Fin 8192) (d : Fin 2048), j = ix2 i d := ⟨j 0, j 1, eq_ix2 j⟩
  generalize hr : Cert.LibRowGatherScatter.clampRow 12288 (by decide) (rowIdx a1 (ix2 i 0)) = r
  have hw' := hw i
  rw [hr] at hw'
  have hg : ∀ M : S12288x2048.Idx → EReal,
      Host.gather gather_S12288x2048_S8192x1_S8192x2048_1_0_n_n_0_1_12048 M (rowIdx a1) (ix2 i d) = M (ix2 r d) := fun M => by
    rw [← hr]
    exact Cert.LibRowGatherScatter.gather_rows_apply (N := 12288) (E := 8192) (C := 2048) (by decide)
      gather_S12288x2048_S8192x1_S8192x2048_1_0_n_n_0_1_12048_wf M (rowIdx a1) i d
  have hre : r.val = (⟨r.val / 1536, by omega⟩ : Fin 8).val * 1536 + (⟨r.val % 1536, Nat.mod_lt _ (by decide)⟩ : Fin 1536).val := by
    show r.val = r.val / 1536 * 1536 + r.val % 1536
    omega
  generalize (⟨r.val / 1536, by omega⟩ : Fin 8) = e at hre
  generalize (⟨r.val % 1536, Nat.mod_lt _ (by decide)⟩ : Fin 1536) = c at hre
  have hK : shapeCast S12288x2048 (G xb wg wu wd (wbuf a1 a2)) shapeCasts_S8x1536x2048_S12288x2048 (ix2 r d)
      = Yref xb wg wu wd (ix3 e c d) * wvec a1 a2 (ix1 r) := by
    rw [Cert.LibFlatten.merge_apply _ shapeCasts_S8x1536x2048_S12288x2048 e c d r hre, gate, wbuf_apply a1 a2 e c r hre]
  have hR : shapeCast S12288x2048 (Yref xb wg wu wd) shapeCasts_S8x1536x2048_S12288x2048 (ix2 r d) = Yref xb wg wu wd (ix3 e c d) :=
    Cert.LibFlatten.merge_apply _ shapeCasts_S8x1536x2048_S12288x2048 e c d r hre
  have hv : broadcastInDim S8192x2048 ![0, 1] bcast_S8192x1_S8192x2048_0_1
      (broadcastInDim S8192x1 ![0] bcast_S8192_S8192x1_0 (valid a1)) (ix2 i d) = valid a1 (ix1 i) :=
    (Cert.LibHostColumn.column_spread bcast_S8192x1_S8192x2048_0_1 _ i d).trans
      (Cert.LibHostColumn.vec_as_column bcast_S8192_S8192x1_0 _ i 0)
  have hwt : broadcastInDim S8192x2048 ![0, 1] bcast_S8192x1_S8192x2048_0_1
      (broadcastInDim S8192x1 ![0] bcast_S8192_S8192x1_0 (wgt a1 a2)) (ix2 i d) = wgt a1 a2 (ix1 i) :=
    (Cert.LibHostColumn.column_spread bcast_S8192x1_S8192x2048_0_1 _ i d).trans
      (Cert.LibHostColumn.vec_as_column bcast_S8192_S8192x1_0 _ i 0)
  unfold rowsK rowsR
  rw [extf_apply, select_apply, mulf_apply, hv, hwt, hg, hg, hK, hR]
  rcases BitVec.eq_zero_or_eq_one (valid a1 (ix1 i)) with h0 | h1
  · rw [h0, select_zero, wgt_of_not_valid a1 a2 i h0, mul_zero]
    exact (Cert.LibHostColumn.scalar_spread bcast_S_S8192x2048 _ _).trans ofBits_bf16_zero
  · rw [h1, select_one, hw' h1]

end Cert.Moe

end
-- ==== Proof.SortedExperts.lean ====
/-
  The sorted expert numbers stay expert numbers and are in non-decreasing order.

  The sorting permutation is carried as a vector of position numbers: entry i is the number of the position, below
  8192, whose pair lands at place i. Such a number is not negative as a signed word, so the host's "count from the end"
  adjustment leaves it alone, and the lookup of the flattened expert numbers at it reads the flattened array at that
  position. So sorted entry i is the flattened entry at the position the stable sort puts at place i: an entry of the
  expert array (range), and, the sort's comparator being "signed less than" on the keys, never greater than a later
  sorted entry (no inversion).
-/
import proofs.«116065_j74380243632185_2_alg».proof.Proof.Spec
import proofs.«116065_j74380243632185_2_alg».proof.Proof.LibRowGatherScatter
import proofs.«116065_j74380243632185_2_alg».proof.Proof.LibHostColumn
import Idealize.ShloMosaic.Lib.SortFacts
import Idealize.ShloMosaic.Lib.DynamicIndex

noncomputable section

namespace Cert.Moe

open Idealize.ShloMosaic Idealize.ShloMosaic.ValueIdx Cert.KernelIdeal Cert.KernelIdeal.Facts₀

namespace SortedExperts

/-! ## Facts of any length -/

/-- The two spellings of a one-axis index agree. -/
theorem ofFin_eq_ix1 {n : Nat} (k : Fin n) : Shape.Idx.ofFin k = ix1 k := by
  funext d
  match d with
  | ⟨0, _⟩ => exact Fin.ext rfl

/-- A stable sort of a vector that carries the position numbers along: entry `i` of the carried vector is the number
    of the position whose pair lands at place `i`. -/
theorem argsort_rank1 {n : Nat} {α : Type} (cmp : α × BitVec 32 → α × BitVec 32 → BitVec 1)
    (x : (⟨1, ![n]⟩ : Shape).Idx → α) (i : Fin n) :
    (Host.sort2 ⟨1, ![n]⟩ 0 cmp x (iotaInDim ⟨1, ![n]⟩ 32 0)).2 (ix1 i)
      = BitVec.ofNat 32 (sortedFrom (fun k k' => cmp (x (ix1 k), BitVec.ofNat 32 k.val) (x (ix1 k'), BitVec.ofNat 32 k'.val) == 1#1) i).val := by
  unfold Host.sort2
  simp [ofFin_eq_ix1, iotaInDim]

/-- The bit "signed less than" as a decision on the signed values. -/
theorem slt_bit (x y : BitVec 32) : (IntOp.cmpi .slt x y == 1#1) = decide (x.toInt < y.toInt) := by
  unfold IntOp.cmpi
  by_cases h : x.toInt < y.toInt
  · have : x.slt y = true := by simp [BitVec.slt, h]
    simp [this, h]
  · have : x.slt y = false := by simp [BitVec.slt, h]
    simp [this, h]

/-- A stable sort by "signed less than" on the keys leaves the keys in non-decreasing order. -/
theorem sortedFrom_keys_mono {n : Nat} (key : Fin n → BitVec 32) (before : Fin n → Fin n → Bool)
    (hb : ∀ k k', before k k' = decide ((key k).toInt < (key k').toInt)) (i j : Fin n) (hij : i ≤ j) :
    (key (sortedFrom before i)).toInt ≤ (key (sortedFrom before j)).toInt := by
  rcases Nat.lt_or_ge i.val j.val with hlt | hge
  · have h := sortedFrom_noInversion before before
      (fun a b h => by rw [hb] at h ⊢; simp only [decide_eq_true_eq, decide_eq_false_iff_not] at h ⊢; omega)
      (fun _ _ h => h)
      (fun a b c h₁ h₂ => by rw [hb] at h₁ h₂ ⊢; simp only [decide_eq_false_iff_not] at h₁ h₂ ⊢; omega)
      i j hlt
    rw [hb] at h
    simp only [decide_eq_false_iff_not] at h
    omega
  · have : i = j := Fin.ext (by have := Fin.le_def.mp hij; omega)
    rw [this]

/-! ## The 8192 pairs -/

variable [Cert.KernelIdeal.Facts]

/-- Whether the pair at position `k` sorts strictly before the pair at position `k'`. -/
def keyBefore (a1 : IVec S4096x2 32) (k k' : Fin 8192) : Bool :=
  comparator_i32_i32_d0 (flatE a1 (ix1 k), BitVec.ofNat 32 k.val) (flatE a1 (ix1 k'), BitVec.ofNat 32 k'.val) == 1#1

theorem keyBefore_eq (a1 : IVec S4096x2 32) (k k' : Fin 8192) :
    keyBefore a1 k k' = decide ((flatE a1 (ix1 k)).toInt < (flatE a1 (ix1 k')).toInt) :=
  slt_bit _ _

/-- The position whose pair the stable sort puts at place `i`. -/
def src (a1 : IVec S4096x2 32) (i : Fin 8192) : Fin 8192 := sortedFrom (keyBefore a1) i

set_option maxHeartbeats 50000 in
/-- Entry `i` of the carried position numbers is the number of that position. -/
theorem order_apply (a1 : IVec S4096x2 32) (i : Fin 8192) : order a1 (ix1 i) = BitVec.ofNat 32 (src a1 i).val :=
  argsort_rank1 comparator_i32_i32_d0 (flatE a1) i

/-- The sort's comparator is "signed less than" on the keys, so the keys at the sorted places do not decrease. -/
theorem src_mono (a1 : IVec S4096x2 32) (i j : Fin 8192) (hij : i ≤ j) :
    (flatE a1 (ix1 (src a1 i))).toInt ≤ (flatE a1 (ix1 (src a1 j))).toInt :=
  sortedFrom_keys_mono (fun k => flatE a1 (ix1 k)) (keyBefore a1) (keyBefore_eq a1) i j hij

/-- The sorted places read every position exactly once. -/
theorem src_injective (a1 : IVec S4096x2 32) : Function.Injective (src a1) := sortedFrom_injective (keyBefore a1)

theorem src_surjective (a1 : IVec S4096x2 32) : Function.Surjective (src a1) := sortedFrom_surjective (keyBefore a1)

attribute [irreducible] src

/-- A position number is not negative as a signed word, so counting from the end leaves it alone. -/
theorem nrm_ofNat (n : BitVec 32) (x : IVec S8192 32) (j : S8192.Idx) (p : Nat) (hp : p < 2 ^ 31)
    (hx : x j = BitVec.ofNat 32 p) : nrm n x j = BitVec.ofNat 32 p := by
  have h0 : 0 ≤ (x j).toInt := by rw [hx, toInt_ofNat_of_lt hp]; omega
  exact (select_slt_zero_of_nonneg x (addi x (bc n)) x j h0).trans hx

set_option maxHeartbeats 50000 in
/-- The start index of sorted place `i` is the number of its position. -/
theorem ordIdx_apply (a1 : IVec S4096x2 32) (i : Fin 8192) : ordIdx a1 (ix2 i 0) = BitVec.ofNat 32 (src a1 i).val := by
  have hp : (src a1 i).val < 2 ^ 31 := by have := (src a1 i).isLt; omega
  exact (Cert.LibHostColumn.vec_as_column bcast_S8192_S8192x1_0 (nrm 8192#32 (order a1)) i 0).trans
    (nrm_ofNat 8192#32 (order a1) (ix1 i) _ hp (order_apply a1 i))

/-- A position number taken signed and clamped into the 8192 positions is the position. -/
theorem clampRow_ofNat (p : Fin 8192) :
    Cert.LibRowGatherScatter.clampRow 8192 (by decide) (BitVec.ofNat 32 p.val) = p := by
  have hp : p.val < 2 ^ 31 := by have := p.isLt; omega
  refine Fin.ext ?_
  show min (BitVec.ofNat 32 p.val).toInt.toNat (8192 - 1) = p.val
  rw [toInt_ofNat_of_lt hp]
  have := p.isLt
  omega

set_option maxHeartbeats 50000 in
/-- Sorted entry `i` is the flattened entry at the position the sort puts at place `i`. -/
theorem se_apply (a1 : IVec S4096x2 32) (i : Fin 8192) : se a1 (ix1 i) = flatE a1 (ix1 (src a1 i)) := by
  refine (Cert.LibRowGatherScatter.gather_vec_apply (N := 8192) (E := 8192) (by decide)
    gather_S8192_S8192x1_S8192_n_0_n_n_0_1_1_wf (flatE a1) (ordIdx a1) i).trans ?_
  rw [ordIdx_apply, clampRow_ofNat]

/-- Every flattened entry is an entry of the expert array. -/
theorem flatE_range (a1 : IVec S4096x2 32) (h : InRange a1) (j : S8192.Idx) :
    0 ≤ (flatE a1 j).toInt ∧ (flatE a1 j).toInt ≤ 7 :=
  h (Shape.reshapeEquiv shapeCasts_S4096x2_S8192 j)

end SortedExperts

open SortedExperts

variable [Cert.KernelIdeal.Facts]

/-- A sorted expert number names one of the eight experts. -/
theorem se_range (a1 : IVec S4096x2 32) (h : InRange a1) (i : Fin 8192) :
    0 ≤ (se a1 (ix1 i)).toInt ∧ (se a1 (ix1 i)).toInt ≤ 7 := by
  rw [se_apply]
  exact flatE_range a1 h _

/-- The sorted expert numbers do not decrease. -/
theorem se_sorted (a1 : IVec S4096x2 32) (i j : Fin 8192) (hij : i ≤ j) :
    (se a1 (ix1 i)).toInt ≤ (se a1 (ix1 j)).toInt := by
  rw [se_apply, se_apply]
  exact src_mono a1 i j hij

end Cert.Moe

end
-- ==== Proof.LibScatterColumn.lean ====
/-
  A scatter of scalars into a one-axis operand, read through its dimension record.

  The record: the updates are a vector of `n` scalars (no update window axes), the operand has one axis of `V`
  positions and that axis is an inserted window axis, the scatter indices are an `[n, 1]` column whose second axis
  is the index vector (of one component, naming operand axis 0). Then update `j` lands at the position that the
  index word in row `j` of the column denotes READ SIGNED, when that is within `0 ≤ · < V`, and is dropped otherwise:
  `resultIdx?_column`. The landing map `land V` depends on the word alone — not on `n` — so two scatters of
  different lengths into the same operand land equal words at equal positions.
-/
import Idealize.ShloMosaic.PureOps.Ideal
import Idealize.ShloMosaic.Lib.ValueIdx

namespace Cert.Splat
open Idealize.ShloMosaic Idealize.ShloMosaic.ValueIdx

/-- Where a signed index word lands in a one-axis operand of `V` elements: at that position when it is in range. -/
def land (V : Nat) {w : Nat} (b : BitVec w) : Option (⟨1, ![V]⟩ : Shape).Idx :=
  if h : 0 ≤ b.toInt ∧ b.toInt < (V : Int) then some (ix1 ⟨b.toInt.toNat, by omega⟩) else none

/-- Update `j` of a scatter of `n` scalars through an `[n, 1]` index column into a one-axis operand lands where the
    word in row `j` says. -/
theorem resultIdx?_column {V n w : Nat}
    (wf : ScatterDims.WF ⟨1, ![V]⟩ ⟨2, ![n, 1]⟩ ⟨1, ![n]⟩ [] [0] [0] 1)
    (j : (⟨1, ![n]⟩ : Shape).Idx) (idx : IVec ⟨2, ![n, 1]⟩ w) :
    (⟨[], [0], [0], 1, wf⟩ : ScatterDims ⟨1, ![V]⟩ ⟨2, ![n, 1]⟩ ⟨1, ![n]⟩).resultIdx? j idx
      = land V (idx (ix2 (j 0) 0)) := by
  have hw : ∀ a, (⟨[], [0], [0], 1, wf⟩ : ScatterDims ⟨1, ![V]⟩ ⟨2, ![n, 1]⟩ ⟨1, ![n]⟩).window j a = 0 := by
    intro a
    unfold ScatterDims.window
    rw [dif_neg]
    simp [ScatterDims.sKept, Shape.kept, List.finRange]
  have hs : ∀ a, (⟨[], [0], [0], 1, wf⟩ : ScatterDims ⟨1, ![V]⟩ ⟨2, ![n, 1]⟩ ⟨1, ![n]⟩).start j idx a = (idx (ix2 (j 0) 0)).toInt := by
    intro a
    unfold ScatterDims.start
    have ha : a ∈ ([0] : List (Fin 1)) := by simp [Subsingleton.elim a 0]
    rw [dif_pos ha]
    congr 2
    funext b
    have ha0 : a = 0 := Subsingleton.elim _ _
    subst ha0
    refine Fin.ext ?_
    unfold ScatterDims.siIdx
    by_cases hb : b.val = 1
    · rw [dif_pos hb]
      have hb1 : b = 1 := Fin.ext hb
      subst hb1
      simp
      rfl
    · rw [dif_neg hb]
      have hb0 : b = 0 := Fin.ext (by have hlt : b.val < 2 := b.isLt; show b.val = 0; omega)
      subst hb0
      unfold ScatterDims.siCoord
      simp only [Fin.coe_cast]
      exact congrArg (fun x => (j x).val) (Subsingleton.elim _ _)
  unfold ScatterDims.resultIdx? land
  simp only [hw, hs]
  by_cases h : 0 ≤ (idx (ix2 (j 0) 0)).toInt ∧ (idx (ix2 (j 0) 0)).toInt < (V : Int)
  · have h' : ∀ a : Fin 1, 0 ≤ (idx (ix2 (j 0) 0)).toInt + ((0 : Nat) : Int) ∧ (idx (ix2 (j 0) 0)).toInt + ((0 : Nat) : Int) < ((![V] a : Nat) : Int) := by
      intro a
      have ha0 : a = 0 := Subsingleton.elim _ _
      subst ha0
      simpa using h
    rw [dif_pos h', dif_pos h]
    refine congrArg some (funext fun a => ?_)
    have ha0 : a = 0 := Subsingleton.elim _ _
    subst ha0
    refine Fin.ext ?_
    simp
  · have h' : ¬ ∀ a : Fin 1, 0 ≤ (idx (ix2 (j 0) 0)).toInt + ((0 : Nat) : Int) ∧ (idx (ix2 (j 0) 0)).toInt + ((0 : Nat) : Int) < ((![V] a : Nat) : Int) := by
      intro hh
      exact h (by simpa using hh 0)
    rw [dif_neg h', dif_neg h]

end Cert.Splat
-- ==== Proof.CountFacts.lean ====
/-
  How many pairs go to experts of smaller number.

  Under the hypothesis that every sorted expert number lies in 0..7: the clip at zero and the host's reading of a start
  index leave each number alone, so the scatter adds one at bin "expert number" for each of the 8192 pairs and bin k
  ends at the number of pairs of expert k (at most 8192, so nothing wraps in 32 bits). The windowed sum with window 8,
  stride 1 and seven cells of padding in front is, at entry e, the sum of the bins 0..e; less bin e it is the sum of
  the bins below e, which is the number of pairs whose expert number is below e.
-/
import proofs.«116065_j74380243632185_2_alg».proof.Proof.Spec
import proofs.«116065_j74380243632185_2_alg».proof.Proof.LibScatterColumn
import proofs.«116065_j74380243632185_2_alg».proof.Proof.LibHostColumn
import Idealize.ShloMosaic.Lib.WordArith

open scoped BigOperators

namespace Cert.Moe

open Idealize.ShloMosaic Idealize.ShloMosaic.ValueIdx Cert.KernelIdeal Cert.KernelIdeal.Facts₀

variable [Cert.KernelIdeal.Facts]

/-! ## A fold that adds one per landing update -/

/-- A left fold over a list of update numbers whose step adds one at the bin the update lands in (and does nothing
    when it lands nowhere): every bin ends at its starting word plus the number of the list's updates that landed
    in it. -/
theorem foldl_count {ι κ : Type} [DecidableEq κ] (g : ι → Option κ) (step : (κ → BitVec 32) → ι → κ → BitVec 32)
    (hstep : ∀ r n i', step r n i' = if g n = some i' then r i' + 1#32 else r i') (L : List ι) (r : κ → BitVec 32) (i' : κ) :
    L.foldl step r i' = r i' + BitVec.ofNat 32 (L.countP fun n => g n = some i') := by
  induction L generalizing r with
  | nil => simp
  | cons n L ih =>
    rw [List.foldl_cons, ih, hstep, List.countP_cons]
    by_cases h : g n = some i'
    · simp [h, BitVec.ofNat_add, BitVec.add_assoc, BitVec.add_comm]
    · simp [h]

/-- The number of entries of the list of all of `Fin n` with a property is the number of elements of `Fin n` with it. -/
theorem countP_finRange (n : Nat) (p : Fin n → Prop) [DecidablePred p] :
    (List.finRange n).countP (fun k => decide (p k)) = (Finset.univ.filter p).card := by
  rw [Fin.univ_def, List.countP_eq_length_filter]
  rfl

/-- A signed word lands in bin `e` of eight exactly when it reads `e`. -/
theorem land_eq_some_iff (w : BitVec 32) (e : Fin 8) :
    Cert.Splat.land 8 w = some (ix1 e) ↔ w.toInt = (e.val : ℤ) := by
  unfold Cert.Splat.land
  by_cases h : 0 ≤ w.toInt ∧ w.toInt < ((8 : Nat) : Int)
  · rw [dif_pos h]
    constructor
    · intro hh
      have h1 := congrFun (Option.some.inj hh) 0
      have h2 : w.toInt.toNat = e.val := congrArg Fin.val h1
      omega
    · intro hh
      refine congrArg some (congrArg ix1 (Fin.ext ?_))
      show w.toInt.toNat = e.val
      omega
  · rw [dif_neg h]
    constructor
    · intro hh; exact absurd hh (by simp)
    · intro hh; exfalso; apply h; have := e.isLt; omega

/-- The positions of a vector of 8192 entries correspond to their coordinates. -/
def vecPos8192 : Fin 8192 ≃ S8192.Idx where
  toFun := ix1
  invFun := fun j => j 0
  left_inv := fun _ => rfl
  right_inv := fun j => (eq_ix1 j).symm

/-- Ones scattered by addition into eight zero bins through a column of 8192 index words: bin `e` ends at the number
    of rows whose word reads `e`. -/
theorem counts_of_column (idx : IVec S8192x1 32) (e : Fin 8) :
    Host.scatter scatter_S8_S8192x1_S8192_n_0_0_1 IntOp.addi (broadcastInDim S8 ![] bcast_S_S8 (constantI S_ 32 0#32))
      idx (bc 1#32) (ix1 e)
      = BitVec.ofNat 32 (Finset.univ.filter fun i : Fin 8192 => (idx (ix2 i 0)).toInt = (e.val : ℤ)).card := by
  unfold Host.scatter
  refine (foldl_count (fun n => scatter_S8_S8192x1_S8192_n_0_0_1.resultIdx? (S8192.rowMajor.symm n) idx) _ ?hstep _ _ _).trans ?_
  case hstep =>
    intro r n i'
    cases hg : scatter_S8_S8192x1_S8192_n_0_0_1.resultIdx? (S8192.rowMajor.symm n) idx with
    | none => simp
    | some i =>
      by_cases h : i' = i
      · subst h; simp [IntOp.addi]; rfl
      · have h' : ¬ (i = i') := fun e => h e.symm
        simp [h, h']
  have h0 : (broadcastInDim S8 ![] bcast_S_S8 (constantI S_ 32 0#32)) (ix1 e) = 0#32 := rfl
  rw [h0, BitVec.zero_add]
  congr 1
  have hcol : ∀ n : Fin S8192.numel,
      (scatter_S8_S8192x1_S8192_n_0_0_1.resultIdx? (S8192.rowMajor.symm n) idx = some (ix1 e))
        ↔ (idx (ix2 (S8192.rowMajor.symm n 0) 0)).toInt = (e.val : ℤ) := by
    intro n
    rw [show scatter_S8_S8192x1_S8192_n_0_0_1.resultIdx? (S8192.rowMajor.symm n) idx
        = Cert.Splat.land 8 (idx (ix2 (S8192.rowMajor.symm n 0) 0)) from
      Cert.Splat.resultIdx?_column scatter_S8_S8192x1_S8192_n_0_0_1_wf (S8192.rowMajor.symm n) idx]
    exact land_eq_some_iff _ e
  simp only [hcol]
  rw [countP_finRange]
  symm
  refine Finset.card_equiv (vecPos8192.trans S8192.rowMajor) (fun i => ?_)
  simp only [Finset.mem_filter, Finset.mem_univ, true_and, Equiv.trans_apply, Equiv.symm_apply_apply]
  rfl

/-! ## The index column is the sorted expert numbers -/

/-- A non-negative word is left alone by the clip at zero followed by the host's reading of a start index. -/
theorem nrm_clip_word (w : BitVec 32) (h0 : 0 ≤ w.toInt) :
    Scalar.select (IntOp.cmpi .slt (IntOp.maxsi 0#32 w) 0#32) (IntOp.addi (IntOp.maxsi 0#32 w) 8#32) (IntOp.maxsi 0#32 w) = w := by
  have hs : w.slt 0#32 = false := by
    rw [Bool.eq_false_iff]
    intro h
    rw [BitVec.slt_iff_toInt_lt] at h
    simp at h
    omega
  have hm : IntOp.maxsi 0#32 w = w := by
    unfold IntOp.maxsi
    rw [hs]
    rfl
  rw [hm]
  unfold Scalar.select IntOp.cmpi
  simp [hs]

/-- Row `i` of the scatter's index column is the sorted expert number `i`, when that is not negative. -/
theorem binIdx_apply (a1 : IVec S4096x2 32) (i : Fin 8192) (h0 : 0 ≤ (se a1 (ix1 i)).toInt) :
    col (nrm 8#32 (clipped a1)) (ix2 i 0) = se a1 (ix1 i) := by
  refine (Cert.LibHostColumn.vec_as_column bcast_S8192_S8192x1_0 _ i 0).trans ?_
  exact nrm_clip_word _ h0

/-- Bin `k` of the counts is the number of pairs of expert `k`. -/
theorem counts_apply (a1 : IVec S4096x2 32) (hr0 : ∀ i : Fin 8192, 0 ≤ (se a1 (ix1 i)).toInt) (k : Fin 8) :
    counts a1 (ix1 k)
      = BitVec.ofNat 32 (Finset.univ.filter fun i : Fin 8192 => (se a1 (ix1 i)).toInt = (k.val : ℤ)).card := by
  refine (counts_of_column (col (nrm 8#32 (clipped a1))) k).trans ?_
  refine congrArg (fun s : Finset (Fin 8192) => BitVec.ofNat 32 s.card) (Finset.filter_congr fun i _ => ?_)
  rw [binIdx_apply a1 i (hr0 i)]

/-! ## The running totals -/

/-- A fold over all of `Fin m` is the fold over all of `Fin n` when `m = n`. -/
theorem foldl_finRange_cast {β : Type} {m n : Nat} (h : m = n) (f : β → Fin m → β) (b : β) :
    (List.finRange m).foldl f b = (List.finRange n).foldl (fun r k => f r (k.cast h.symm)) b := by
  subst h; rfl

/-- A window of eight cells along one axis has eight cells. -/
theorem numel_W8 : (⟨1, ![8]⟩ : Shape).numel = 8 := by decide

/-- On one axis the index at row-major position `n` has coordinate `n`. -/
theorem rowMajor_symm_val_one {d : Fin 1 → Nat} (n : Fin (⟨1, d⟩ : Shape).numel) :
    (((⟨1, d⟩ : Shape).rowMajor.symm n) 0).val = n.val := by
  have := Shape.rowMajor_val_one ((⟨1, d⟩ : Shape).rowMajor.symm n)
  rw [Equiv.apply_symm_apply] at this
  exact this.symm

/-- The windowed sum (window 8, stride 1, seven cells of padding in front, from zero) of eight words, at entry `e`:
    the left fold over the window cells `n = 0..7` of the word at `e + n - 7`, a cell in the padding giving zero. -/
theorem csum_apply (c : IVec S8 32) (e : Fin 8) :
    Host.reduceWindow IntOp.addi ![8] ![1] ![7] ![0] c (broadcastInDim S_ ![] bcast_S_S_ (constantI S_ 32 0#32))
        reduceWindows_S8_S8_w8s1p7_0 h_S_ (ix1 e)
      = (List.finRange 8).foldl (fun r n => r + (if h : 7 ≤ e.val + n.val then c (ix1 ⟨e.val + n.val - 7, by omega⟩) else 0#32)) 0#32 := by
  unfold Host.reduceWindow
  dsimp only
  refine (foldl_finRange_cast numel_W8 _ _).trans ?_
  congr 1
  funext r k
  have hk := rowMajor_symm_val_one (d := ![8]) (Fin.cast numel_W8.symm k)
  rw [Fin.val_cast] at hk
  refine congrArg (fun x => r + x) ?_
  split
  · rename_i hin
    have h0 := hin 0
    have h7 : 7 ≤ e.val + k.val := by
      have h1 := h0.1
      change 7 ≤ e.val * 1 + _ at h1
      rw [hk] at h1
      omega
    rw [dif_pos h7]
    refine congrArg c (funext fun a => ?_)
    obtain rfl : a = 0 := Subsingleton.elim _ _
    refine Fin.ext ?_
    show e.val * 1 + _ - 7 = e.val + k.val - 7
    rw [hk, Nat.mul_one]
  · rename_i hin
    have h7 : ¬ 7 ≤ e.val + k.val := by
      intro h7
      apply hin
      intro a
      obtain rfl : a = 0 := Subsingleton.elim _ _
      show 7 ≤ e.val * 1 + _ ∧ e.val * 1 + _ - 7 < 8
      rw [hk]
      have := e.isLt
      have := k.isLt
      omega
    rw [dif_neg h7]
    rfl

/-- The running total at `e` less the word at `e`, when word `k` is the 32-bit word of a number `N k`: the word of the
    sum of the numbers below `e`. -/
theorem offs_of_counts (c : IVec S8 32) (N : ℕ → ℕ) (hc : ∀ k : Fin 8, c (ix1 k) = BitVec.ofNat 32 (N k.val)) (e : Fin 8) :
    IntOp.subi ((List.finRange 8).foldl (fun r n => r + (if h : 7 ≤ e.val + n.val then c (ix1 ⟨e.val + n.val - 7, by omega⟩) else 0#32)) 0#32) (c (ix1 e))
      = BitVec.ofNat 32 (∑ m ∈ Finset.range e.val, N m) := by
  have hL : List.finRange 8 = [0, 1, 2, 3, 4, 5, 6, 7] := by decide
  rw [hL]
  simp only [List.foldl_cons, List.foldl_nil]
  fin_cases e
  · simp [IntOp.subi, hc, Finset.sum_range_succ, BitVec.ofNat_add]
  · simp [IntOp.subi, hc, Finset.sum_range_succ, BitVec.ofNat_add]
  · simp [IntOp.subi, hc, Finset.sum_range_succ, BitVec.ofNat_add]
  · simp [IntOp.subi, hc, Finset.sum_range_succ, BitVec.ofNat_add]
  · simp [IntOp.subi, hc, Finset.sum_range_succ, BitVec.ofNat_add]
  · simp [IntOp.subi, hc, Finset.sum_range_succ, BitVec.ofNat_add]
  · simp [IntOp.subi, hc, Finset.sum_range_succ, BitVec.ofNat_add]
  · simp [IntOp.subi, hc, Finset.sum_range_succ, BitVec.ofNat_add]

/-! ## Counting -/

/-- Among finitely many non-negative integers, those below `m` are counted value by value. -/
theorem card_lt_eq_sum {n : ℕ} (x : Fin n → ℤ) (hx : ∀ i, 0 ≤ x i) (m : ℕ) :
    (Finset.univ.filter fun i => x i < (m : ℤ)).card
      = ∑ k ∈ Finset.range m, (Finset.univ.filter fun i => x i = (k : ℤ)).card := by
  induction m with
  | zero =>
    rw [Finset.sum_range_zero, Finset.card_eq_zero, Finset.filter_eq_empty_iff]
    intro i _ h
    have := hx i
    simp at h
    omega
  | succ m ih =>
    rw [Finset.sum_range_succ, ← ih, ← Finset.card_union_of_disjoint]
    · congr 1
      ext i
      simp only [Finset.mem_filter, Finset.mem_univ, true_and, Finset.mem_union, Nat.cast_add, Nat.cast_one]
      omega
    · rw [Finset.disjoint_filter]
      intro i _ h1 h2
      omega

/-- The offset of expert `e` is the number of pairs whose expert number is below `e`. -/
theorem offs_count (a1 : IVec S4096x2 32) (hr : ∀ i : Fin 8192, 0 ≤ (se a1 (ix1 i)).toInt ∧ (se a1 (ix1 i)).toInt ≤ 7) (e : Fin 8) :
    (offs a1 (ix1 e)).toInt = ((Finset.univ.filter fun i : Fin 8192 => (se a1 (ix1 i)).toInt < (e.val : ℤ)).card : ℤ) := by
  have hr0 : ∀ i : Fin 8192, 0 ≤ (se a1 (ix1 i)).toInt := fun i => (hr i).1
  have hw : offs a1 (ix1 e)
      = BitVec.ofNat 32 (∑ m ∈ Finset.range e.val, (Finset.univ.filter fun i : Fin 8192 => (se a1 (ix1 i)).toInt = (m : ℤ)).card) := by
    have h1 : offs a1 (ix1 e) = IntOp.subi (csum a1 (ix1 e)) (counts a1 (ix1 e)) := rfl
    have h2 := csum_apply (counts a1) e
    rw [h1]
    refine (congrArg (fun x => IntOp.subi x (counts a1 (ix1 e))) h2).trans ?_
    exact offs_of_counts (counts a1) (fun m => (Finset.univ.filter fun i : Fin 8192 => (se a1 (ix1 i)).toInt = (m : ℤ)).card)
      (fun k => counts_apply a1 hr0 k) e
  rw [hw, ← card_lt_eq_sum (fun i : Fin 8192 => (se a1 (ix1 i)).toInt) hr0 e.val]
  refine WordArith.toInt_ofNat_small _ ?_
  refine lt_of_le_of_lt (Finset.card_filter_le _ _) ?_
  rw [Finset.card_univ, Fintype.card_fin]
  decide

end Cert.Moe
-- ==== Proof.SlotFacts.lean ====
/-
  The weight table read at the row a fitting pair owns holds that pair's weight.

  For a sorted pair i with expert number s (between 0 and 7): its place is i less the number of pairs of smaller expert
  number, and that number is at most i, because in sorted order every pair of smaller expert number stands before i; so the
  place is not negative, and the pair fits exactly when the place is below 1536. A fitting pair's row is
  s * 1536 + place, inside [0, 12288), computed with no 32-bit wrap; every other pair's row is the spare row 12288. Two
  pairs with one row, one of them fitting, are the same pair: the row fixes the expert (divide by 1536), hence the place,
  hence the position. The weight table is an overwriting scatter, a left fold over the pairs; read at a row where exactly
  one pair lands it holds that pair's update. The table without its spare row is the same entry.
-/
import proofs.«116065_j74380243632185_2_alg».proof.Proof.Spec
import proofs.«116065_j74380243632185_2_alg».proof.Proof.LibRowGatherScatter
import proofs.«116065_j74380243632185_2_alg».proof.Proof.LibScatterColumn
import proofs.«116065_j74380243632185_2_alg».proof.Proof.LibHostColumn

namespace Cert.Moe

open Idealize.ShloMosaic Idealize.ShloMosaic.ValueIdx Cert.KernelIdeal Cert.KernelIdeal.Facts₀

/-! ## An overwriting scatter read where exactly one update lands -/

/-- A left fold of steps none of which changes the value at `r0` leaves the value at `r0` as it was. -/
theorem foldl_at_of_miss {ι A B : Type} (step : (A → B) → ι → (A → B)) (r0 : A) (l : List ι) :
    ∀ x : A → B, (∀ n ∈ l, ∀ r, step r n r0 = r r0) → l.foldl step x r0 = x r0 := by
  induction l with
  | nil => intro x _; rfl
  | cons a t ih =>
    intro x h
    rw [List.foldl_cons, ih _ (fun n hn => h n (List.mem_cons_of_mem _ hn))]
    exact h a List.mem_cons_self x

/-- A left fold in which the step of `n0` sets the value at `r0` to `v`, and no step of another element changes the
    value at `r0`, ends with `v` at `r0`. -/
theorem foldl_at_of_hit {ι A B : Type} (step : (A → B) → ι → (A → B)) (r0 : A) (n0 : ι) (v : B)
    (hhit : ∀ r, step r n0 r0 = v) (l : List ι) :
    ∀ x : A → B, n0 ∈ l → (∀ n ∈ l, n ≠ n0 → ∀ r, step r n r0 = r r0) → l.foldl step x r0 = v := by
  induction l with
  | nil => intro x h; exact absurd h List.not_mem_nil
  | cons a t ih =>
    intro x hmem hmiss
    rw [List.foldl_cons]
    by_cases ht : n0 ∈ t
    · exact ih _ ht (fun n hn => hmiss n (List.mem_cons_of_mem _ hn))
    · have ha : a = n0 := by
        rcases List.mem_cons.mp hmem with h | h
        · exact h.symm
        · exact absurd h ht
      subst ha
      rw [foldl_at_of_miss step r0 t _
        (fun n hn => hmiss n (List.mem_cons_of_mem _ hn) (fun e => ht (e ▸ hn)))]
      exact hhit x

/-- An overwriting scatter read at a position where exactly one update lands: that update's value. -/
theorem scatter_set_apply {s si u : Shape} {w : Nat} {α : Type} (d : ScatterDims s si u) (x : s.Idx → α) (idx : IVec si w)
    (upd : u.Idx → α) (j0 : u.Idx) (r0 : s.Idx) (h0 : d.resultIdx? j0 idx = some r0)
    (huniq : ∀ j, d.resultIdx? j idx = some r0 → j = j0) :
    Host.scatter d (fun _ b => b) x idx upd r0 = upd j0 := by
  unfold Host.scatter
  refine foldl_at_of_hit _ r0 (u.rowMajor j0) (upd j0) ?_ _ x (List.mem_finRange _) ?_
  · intro r
    show (match d.resultIdx? (u.rowMajor.symm (u.rowMajor j0)) idx with
      | some i => fun i' => if i' = i then (fun _ b => b) (r i) (upd (u.rowMajor.symm (u.rowMajor j0))) else r i'
      | none => r) r0 = upd j0
    rw [Equiv.symm_apply_apply, h0]
    exact if_pos rfl
  · intro n _ hn r
    show (match d.resultIdx? (u.rowMajor.symm n) idx with
      | some i => fun i' => if i' = i then (fun _ b => b) (r i) (upd (u.rowMajor.symm n)) else r i'
      | none => r) r0 = r r0
    generalize hres : d.resultIdx? (u.rowMajor.symm n) idx = o
    cases o with
    | none => rfl
    | some i =>
      have hne : r0 ≠ i := by
        intro e
        rw [← e] at hres
        exact hn (by rw [← huniq _ hres, Equiv.apply_symm_apply])
      exact if_neg hne

/-! ## Words and integers -/

theorem toInt_add32 (x y : BitVec 32) (h1 : -2147483648 ≤ x.toInt + y.toInt) (h2 : x.toInt + y.toInt < 2147483648) :
    (x + y).toInt = x.toInt + y.toInt := by
  rw [BitVec.toInt_add]
  exact Int.bmod_eq_of_le_mul_two (by omega) (by omega)

theorem toInt_sub32 (x y : BitVec 32) (h1 : -2147483648 ≤ x.toInt - y.toInt) (h2 : x.toInt - y.toInt < 2147483648) :
    (x - y).toInt = x.toInt - y.toInt := by
  rw [BitVec.toInt_sub]
  exact Int.bmod_eq_of_le_mul_two (by omega) (by omega)

theorem toInt_mul1536 (x : BitVec 32) (h1 : 0 ≤ x.toInt) (h2 : x.toInt ≤ 7) :
    (x * 1536#32).toInt = x.toInt * 1536 := by
  rw [BitVec.toInt_mul]
  have h : (1536#32 : BitVec 32).toInt = 1536 := by decide
  rw [h]
  exact Int.bmod_eq_of_le_mul_two (by omega) (by omega)

theorem toInt_ofNat32 (n : Nat) (h : n < 8192) : (BitVec.ofNat 32 n).toInt = (n : ℤ) := by
  rw [BitVec.toInt_ofNat']
  exact Int.bmod_eq_of_le_mul_two (by omega) (by omega)

variable [Cert.KernelIdeal.Facts]

/-! ## The routing functions at one pair -/

theorem bc_apply (v : BitVec 32) (j : S8192.Idx) : bc v j = v := rfl

theorem col_apply (x : IVec S8192 32) (i : Fin 8192) : col x (ix2 i 0) = x (ix1 i) :=
  Cert.LibHostColumn.vec_as_column bcast_S8192_S8192x1_0 x i 0

theorem nrm_of_nonneg (n : BitVec 32) (x : IVec S8192 32) (j : S8192.Idx) (h : 0 ≤ (x j).toInt) : nrm n x j = x j := by
  show Scalar.select (IntOp.cmpi .slt (x j) 0#32) (IntOp.addi (x j) n) (x j) = x j
  have hs : (x j).slt 0#32 = false := by
    rw [BitVec.slt_eq_decide]
    have h0 : (0#32 : BitVec 32).toInt = 0 := by decide
    rw [h0]
    exact decide_eq_false (by omega)
  show (if BitVec.ofBool ((x j).slt 0#32) = 1#1 then _ else _) = _
  rw [hs]
  exact if_neg (by decide)

theorem pos_apply (a1 : IVec S4096x2 32) (i : Fin 8192) :
    pos a1 (ix1 i) = BitVec.ofNat 32 i.val
      - offs a1 (ix1 (Cert.LibRowGatherScatter.clampRow 8 (by decide) (nrm 8#32 (se a1) (ix1 i)))) := by
  show IntOp.subi (BitVec.ofNat 32 i.val)
    (Host.gather gather_S8_S8192x1_S8192_n_0_n_n_0_1_1 (offs a1) (col (nrm 8#32 (se a1))) (ix1 i)) = _
  have hg := Cert.LibRowGatherScatter.gather_vec_apply (N := 8) (E := 8192) (by decide)
    gather_S8_S8192x1_S8192_n_0_n_n_0_1_1_wf (offs a1) (col (nrm 8#32 (se a1))) i
  rw [col_apply] at hg
  exact congrArg (fun z => BitVec.ofNat 32 i.val - z) hg

theorem valid_apply (a1 : IVec S4096x2 32) (j : S8192.Idx) :
    valid a1 j = BitVec.ofBool ((pos a1 j).slt 1536#32) := rfl

theorem slot_apply (a1 : IVec S4096x2 32) (j : S8192.Idx) :
    slot a1 j = if valid a1 j = 1#1 then se a1 j * 1536#32 + pos a1 j else 12288#32 := rfl

/-! ## Places and rows as integers -/

/-- How many sorted pairs have a smaller expert number than pair `i`. -/
def below (a1 : IVec S4096x2 32) (i : Fin 8192) : ℕ :=
  (Finset.univ.filter fun j : Fin 8192 => (se a1 (ix1 j)).toInt < (se a1 (ix1 i)).toInt).card

/-- In sorted order every pair of smaller expert number stands before pair `i`, so there are at most `i` of them. -/
theorem below_le (a1 : IVec S4096x2 32)
    (hs : ∀ i j : Fin 8192, i ≤ j → (se a1 (ix1 i)).toInt ≤ (se a1 (ix1 j)).toInt) (i : Fin 8192) :
    below a1 i ≤ i.val := by
  have hsub : (Finset.univ.filter fun j : Fin 8192 => (se a1 (ix1 j)).toInt < (se a1 (ix1 i)).toInt) ⊆ Finset.Iio i := by
    intro j hj
    rw [Finset.mem_filter] at hj
    rw [Finset.mem_Iio]
    by_contra hge
    have := hs i j (not_lt.mp hge)
    omega
  exact (Finset.card_le_card hsub).trans (le_of_eq (Fin.card_Iio i))

theorem below_congr (a1 : IVec S4096x2 32) (i j : Fin 8192) (h : (se a1 (ix1 i)).toInt = (se a1 (ix1 j)).toInt) :
    below a1 i = below a1 j := by
  unfold below
  rw [h]

section
variable (a1 : IVec S4096x2 32)
  (hr : ∀ i : Fin 8192, 0 ≤ (se a1 (ix1 i)).toInt ∧ (se a1 (ix1 i)).toInt ≤ 7)
  (hs : ∀ i j : Fin 8192, i ≤ j → (se a1 (ix1 i)).toInt ≤ (se a1 (ix1 j)).toInt)
  (ho : ∀ e : Fin 8, (offs a1 (ix1 e)).toInt
    = ((Finset.univ.filter fun i : Fin 8192 => (se a1 (ix1 i)).toInt < (e.val : ℤ)).card : ℤ))
include hr

/-- The expert a pair's count is looked up at is the pair's own expert number. -/
theorem expert_val (i : Fin 8192) :
    ((Cert.LibRowGatherScatter.clampRow 8 (by decide) (nrm 8#32 (se a1) (ix1 i))).val : ℤ) = (se a1 (ix1 i)).toInt := by
  rw [nrm_of_nonneg _ _ _ (hr i).1]
  show ((min (se a1 (ix1 i)).toInt.toNat (8 - 1) : ℕ) : ℤ) = _
  have := hr i
  omega

include hs ho

/-- A pair's place is its position less the number of pairs of smaller expert number, with no wrap. -/
theorem pos_toInt (i : Fin 8192) : (pos a1 (ix1 i)).toInt = (i.val : ℤ) - (below a1 i : ℤ) := by
  have hb := below_le a1 hs i
  have hi := i.isLt
  have ho' := ho (Cert.LibRowGatherScatter.clampRow 8 (by decide) (nrm 8#32 (se a1) (ix1 i)))
  rw [expert_val a1 hr i] at ho'
  have hof : (offs a1 (ix1 (Cert.LibRowGatherScatter.clampRow 8 (by decide) (nrm 8#32 (se a1) (ix1 i))))).toInt
      = (below a1 i : ℤ) := ho'
  rw [pos_apply, toInt_sub32, toInt_ofNat32 _ hi, hof]
  · rw [toInt_ofNat32 _ hi, hof]; omega
  · rw [toInt_ofNat32 _ hi, hof]; omega

theorem valid_iff (i : Fin 8192) : valid a1 (ix1 i) = 1#1 ↔ (i.val : ℤ) - (below a1 i : ℤ) < 1536 := by
  rw [valid_apply, ← pos_toInt a1 hr hs ho i]
  have h : (1536#32 : BitVec 32).toInt = 1536 := by decide
  rw [← h, ← BitVec.slt_iff_toInt_lt]
  cases (pos a1 (ix1 i)).slt 1536#32 <;> decide

/-- A pair that fits owns row "expert * 1536 + place", with no wrap. -/
theorem slot_valid (i : Fin 8192) (hv : valid a1 (ix1 i) = 1#1) :
    (slot a1 (ix1 i)).toInt = (se a1 (ix1 i)).toInt * 1536 + ((i.val : ℤ) - (below a1 i : ℤ)) := by
  have hb := below_le a1 hs i
  have hp := pos_toInt a1 hr hs ho i
  have hlt := (valid_iff a1 hr hs ho i).mp hv
  have hm := toInt_mul1536 _ (hr i).1 (hr i).2
  have := hr i
  rw [slot_apply, if_pos hv, toInt_add32, hm, hp]
  · rw [hm, hp]; omega
  · rw [hm, hp]; omega

/-- A pair that does not fit is sent to the spare row. -/
theorem slot_invalid (i : Fin 8192) (hv : ¬ valid a1 (ix1 i) = 1#1) : slot a1 (ix1 i) = 12288#32 := by
  rw [slot_apply, if_neg hv]

theorem slot_range (i : Fin 8192) : 0 ≤ (slot a1 (ix1 i)).toInt ∧ (slot a1 (ix1 i)).toInt ≤ 12288 := by
  by_cases hv : valid a1 (ix1 i) = 1#1
  · have hb := below_le a1 hs i
    have hlt := (valid_iff a1 hr hs ho i).mp hv
    have := hr i
    rw [slot_valid a1 hr hs ho i hv]
    omega
  · rw [slot_invalid a1 hr hs ho i hv]
    decide

theorem slot_valid_lt (i : Fin 8192) (hv : valid a1 (ix1 i) = 1#1) : (slot a1 (ix1 i)).toInt < 12288 := by
  have hb := below_le a1 hs i
  have hlt := (valid_iff a1 hr hs ho i).mp hv
  have := hr i
  rw [slot_valid a1 hr hs ho i hv]
  omega

/-- Two pairs with one row, one of them fitting, are one pair: the row gives the expert (divide by 1536), hence the
    place, hence the position. -/
theorem slot_inj (i j : Fin 8192) (hv : valid a1 (ix1 i) = 1#1)
    (h : (slot a1 (ix1 j)).toInt = (slot a1 (ix1 i)).toInt) : j = i := by
  have hlt := slot_valid_lt a1 hr hs ho i hv
  have hvj : valid a1 (ix1 j) = 1#1 := by
    by_contra hn
    rw [slot_invalid a1 hr hs ho j hn] at h
    have h' : (12288#32 : BitVec 32).toInt = 12288 := by decide
    omega
  have hi := slot_valid a1 hr hs ho i hv
  have hj := slot_valid a1 hr hs ho j hvj
  have hbi := below_le a1 hs i
  have hbj := below_le a1 hs j
  have hli := (valid_iff a1 hr hs ho i).mp hv
  have hlj := (valid_iff a1 hr hs ho j).mp hvj
  have hri := hr i
  have hrj := hr j
  have hse : (se a1 (ix1 j)).toInt = (se a1 (ix1 i)).toInt := by omega
  have hbe := below_congr a1 j i hse
  exact Fin.ext (by omega)

end

/-! ## Where an update of the weight table lands -/

omit [Cert.KernelIdeal.Facts] in
theorem ix1_inj {n : Nat} {a b : Fin n} (h : (ix1 a : (⟨1, ![n]⟩ : Shape).Idx) = ix1 b) : a = b :=
  congrFun h 0

omit [Cert.KernelIdeal.Facts] in
theorem land_of_range (V : Nat) {w : Nat} (b : BitVec w) (h0 : 0 ≤ b.toInt) (h1 : b.toInt < (V : ℤ)) :
    Cert.Splat.land V b = some (ix1 ⟨b.toInt.toNat, by omega⟩) := dif_pos ⟨h0, h1⟩

omit [Cert.KernelIdeal.Facts] in
theorem toInt_of_land (V : Nat) {w : Nat} (b : BitVec w) (r : Fin V) (h : Cert.Splat.land V b = some (ix1 r)) :
    b.toInt = (r.val : ℤ) := by
  unfold Cert.Splat.land at h
  split at h
  · rename_i hb
    have h1 := ix1_inj (Option.some.inj h)
    have h2 : b.toInt.toNat = r.val := congrArg Fin.val h1
    omega
  · exact absurd h (by simp)

theorem wtab_landing (idx : IVec S8192x1 32) (j : Fin 8192) :
    scatter_S12289_S8192x1_S8192_n_0_0_1.resultIdx? (ix1 j) idx = Cert.Splat.land 12289 (idx (ix2 j 0)) :=
  Cert.Splat.resultIdx?_column scatter_S12289_S8192x1_S8192_n_0_0_1_wf (ix1 j) idx

section
variable (a1 : IVec S4096x2 32)
  (hr : ∀ i : Fin 8192, 0 ≤ (se a1 (ix1 i)).toInt ∧ (se a1 (ix1 i)).toInt ≤ 7)
  (hs : ∀ i j : Fin 8192, i ≤ j → (se a1 (ix1 i)).toInt ≤ (se a1 (ix1 j)).toInt)
  (ho : ∀ e : Fin 8, (offs a1 (ix1 e)).toInt
    = ((Finset.univ.filter fun i : Fin 8192 => (se a1 (ix1 i)).toInt < (e.val : ℤ)).card : ℤ))
include hr hs ho

/-- The row a pair is written to is its row word itself: no row is negative. -/
theorem slotIdx_apply (j : Fin 8192) : slotIdx a1 (ix2 j 0) = slot a1 (ix1 j) := by
  show col (nrm 12289#32 (slot a1)) (ix2 j 0) = _
  rw [col_apply, nrm_of_nonneg _ _ _ (slot_range a1 hr hs ho j).1]

/-- The row a fitting pair reads is its own row: it is below the last row and not negative. -/
theorem rowIdx_valid (i : Fin 8192) (hv : valid a1 (ix1 i) = 1#1) : rowIdx a1 (ix2 i 0) = slot a1 (ix1 i) := by
  show col (nrm 12288#32 (minsi (slot a1) (bc 12287#32))) (ix2 i 0) = _
  have hm : minsi (slot a1) (bc 12287#32) (ix1 i) = slot a1 (ix1 i) := by
    show IntOp.minsi (slot a1 (ix1 i)) 12287#32 = _
    unfold IntOp.minsi
    split
    · rfl
    · rename_i hn
      apply BitVec.toInt_inj.mp
      have hn' : ¬ (slot a1 (ix1 i)).toInt < (12287#32 : BitVec 32).toInt :=
        fun h => hn (BitVec.slt_iff_toInt_lt.mpr h)
      have h' : (12287#32 : BitVec 32).toInt = 12287 := by decide
      have := slot_valid_lt a1 hr hs ho i hv
      omega
  rw [col_apply, nrm_of_nonneg _ _ _ (by rw [hm]; exact (slot_range a1 hr hs ho i).1), hm]

end

/-- The weight table, read at the row a fitting pair reads its result from, holds that pair's weight. -/
theorem wvec_at_row (a1 : IVec S4096x2 32) (a2 : FVec Ideal S4096x2 .f32)
    (hr : ∀ i : Fin 8192, 0 ≤ (se a1 (ix1 i)).toInt ∧ (se a1 (ix1 i)).toInt ≤ 7)
    (hs : ∀ i j : Fin 8192, i ≤ j → (se a1 (ix1 i)).toInt ≤ (se a1 (ix1 j)).toInt)
    (ho : ∀ e : Fin 8, (offs a1 (ix1 e)).toInt = ((Finset.univ.filter fun i : Fin 8192 => (se a1 (ix1 i)).toInt < (e.val : ℤ)).card : ℤ))
    (i : Fin 8192) (hv : valid a1 (ix1 i) = 1#1) :
    wvec a1 a2 (ix1 (Cert.LibRowGatherScatter.clampRow 12288 (by decide) (rowIdx a1 (ix2 i 0)))) = wgt a1 a2 (ix1 i) := by
  have hrg := slot_range a1 hr hs ho i
  have hlt := slot_valid_lt a1 hr hs ho i hv
  rw [rowIdx_valid a1 hr hs ho i hv]
  have hslice : wvec a1 a2 (ix1 (Cert.LibRowGatherScatter.clampRow 12288 (by decide) (slot a1 (ix1 i))))
      = wtab a1 a2 (ix1 (⟨(slot a1 (ix1 i)).toInt.toNat, by omega⟩ : Fin 12289)) := by
    unfold wvec extractStridedSlice
    refine congrArg (wtab a1 a2) (funext fun a => Fin.ext ?_)
    obtain rfl : a = 0 := Subsingleton.elim _ _
    show 0 + min (slot a1 (ix1 i)).toInt.toNat (12288 - 1) = (slot a1 (ix1 i)).toInt.toNat
    omega
  rw [hslice]
  refine scatter_set_apply _ _ _ _ (ix1 i) _ ?_ ?_
  · rw [wtab_landing, slotIdx_apply a1 hr hs ho i]
    exact land_of_range 12289 _ hrg.1 (by omega)
  · intro j hj
    obtain ⟨j', rfl⟩ : ∃ j' : Fin 8192, j = ix1 j' := ⟨j 0, eq_ix1 j⟩
    rw [wtab_landing, slotIdx_apply a1 hr hs ho j'] at hj
    have h1 := toInt_of_land 12289 _ _ hj
    have h2 : (slot a1 (ix1 j')).toInt = (slot a1 (ix1 i)).toInt := by
      rw [h1]
      show (((slot a1 (ix1 i)).toInt.toNat : ℕ) : ℤ) = _
      omega
    rw [slot_inj a1 hr hs ho i j' hv h2]

end Cert.Moe
-- ==== Proof.KerRes.lean ====
/-
  The kernel's result as one function of its six arguments: the ending applied to the region's function `G` of the
  token table (features narrowed to the matrix unit's format), the three narrowed weight arrays and the weight table.
-/
import proofs.«116065_j74380243632185_2_alg».proof.Proof.Spec

noncomputable section

namespace Cert.Moe.Ker

open Idealize.ShloMosaic Cert.KernelIdeal Cert.KernelIdeal.Facts₀

variable [Cert.KernelIdeal.Facts]

/-- The kernel's result as one function of its six arguments. -/
def kerRes (a0 : FVec Ideal S4096x2048 .f32) (a1 : IVec S4096x2 32) (a2 : FVec Ideal S4096x2 .f32)
    (a3 a4 : FVec Ideal S8x2048x688 .f32) (a5 : FVec Ideal S8x688x2048 .f32) : FVec Ideal S4096x2048 .f32 :=
  kerOut
    (G (xtab (φ := .bf16) 0x0000#16 (truncf .bf16 a0 bitsLt_bf16_f32) a1) (truncf .bf16 a3 bitsLt_bf16_f32)
      (truncf .bf16 a4 bitsLt_bf16_f32) (truncf .bf16 a5 bitsLt_bf16_f32) (wbuf a1 a2))
    a1

end Cert.Moe.Ker

end
-- ==== Proof.Final.lean ====
/-
  The two programs' results are one function of the arguments, when every expert number names one of the eight experts.

  Both results are "every pair's row added to its token" over the same routing, so it is enough that the per-pair rows
  agree (`rows_eq`). The kernel's token table is the reference's: narrowing the features to the matrix unit's format
  changes nothing at the ideal values, and the two formats' zero words are both zero; likewise the narrowed weight
  arrays are the weight arrays. The weight table holds, at the row a fitting pair owns, that pair's weight
  (`wvec_at_row`), from the three facts about the sorted expert numbers: they lie in 0 … 7, they are in order, and the
  offsets count the pairs of smaller expert number.
-/
import proofs.«116065_j74380243632185_2_alg».proof.Proof.Rows
import proofs.«116065_j74380243632185_2_alg».proof.Proof.SortedExperts
import proofs.«116065_j74380243632185_2_alg».proof.Proof.CountFacts
import proofs.«116065_j74380243632185_2_alg».proof.Proof.SlotFacts
import proofs.«116065_j74380243632185_2_alg».proof.Proof.KerRes

noncomputable section

namespace Cert.Moe

open Idealize.ShloMosaic Idealize.ShloMosaic.ValueIdx Cert.KernelIdeal Cert.KernelIdeal.Facts₀

variable [Cert.KernelIdeal.Facts] [Cert.ReferenceIdeal.Facts]

/-- The token table does not depend on the format the features are held in, at the ideal values. -/
theorem xtab_congr {φ ψ : FTy} (z : BitVec φ.bits) (z' : BitVec ψ.bits) (X : S4096x2048.Idx → EReal) (a1 : IVec S4096x2 32)
    (hz : Ideal.ofBits φ z = Ideal.ofBits ψ z') :
    (xtab (φ := φ) z X a1 : S8x1536x2048.Idx → EReal) = xtab (φ := ψ) z' X a1 := by
  have hc : (constant (F := Ideal) S_ φ z : S_.Idx → EReal) = constant (F := Ideal) S_ ψ z' := funext fun _ => hz
  unfold xtab
  rw [hc]

theorem kerRes_eq_refOut (a0 : FVec Ideal S4096x2048 .f32) (a1 : IVec S4096x2 32) (a2 : FVec Ideal S4096x2 .f32)
    (a3 a4 : FVec Ideal S8x2048x688 .f32) (a5 : FVec Ideal S8x688x2048 .f32) (h : InRange a1) :
    Ker.kerRes a0 a1 a2 a3 a4 a5 = refOut a0 a1 a2 a3 a4 a5 := by
  unfold Ker.kerRes refOut kerOut refOutOf
  refine congrArg (Host.scatterAdd scatter_S4096x2048_S8192x1_S8192x2048_1_0_0_1 _ (tokIdx a1)) ?_
  have hx : (xtab (φ := .bf16) 0x0000#16 (truncf .bf16 a0 bitsLt_bf16_f32) a1 : S8x1536x2048.Idx → EReal)
      = xtab (φ := .f32) 0x00000000#32 a0 a1 :=
    xtab_congr (φ := .bf16) (ψ := .f32) 0x0000#16 0x00000000#32 a0 a1 (ofBits_bf16_zero.trans Ideal.ofBits_zero_f32.symm)
  rw [hx]
  exact rows_eq (xtab (φ := .f32) 0x00000000#32 a0 a1) a3 a4 a5 a1 a2 (fun i hv =>
    wvec_at_row a1 a2 (se_range a1 h) (se_sorted a1) (offs_count a1 (se_range a1 h)) i hv)

end Cert.Moe

end
-- ==== Proof.KerPre.lean ====
/-
  What the kernel's program has in its buffers when the region is entered, as functions of the argument arrays.

  The host operations before the region are the shared routing steps followed by the two tables: the token table (the
  features narrowed to the matrix unit's format, then written at the rows their pairs own) and the weight table, and the
  three weight arrays narrowed to the same format. Unrolling the fold of those operations at each buffer the region or
  the later operations read leaves the named functions of `Dispatch.lean` and `Spec.lean` composed over the launch
  contents at the argument buffers.
-/
import proofs.«116065_j74380243632185_2_alg».proof.Proof.Gen.KernelIdeal.Frame
import proofs.«116065_j74380243632185_2_alg».proof.Proof.Spec

noncomputable section

namespace Cert.Moe.Ker

open Idealize.ShloMosaic Idealize.ShloMosaic.StableHlo Idealize.SL.Sem Cert.KernelIdeal Cert.KernelIdeal.Gen

/-- The host operations before the region, in order. -/
abbrev preOps : List (HloOp τ sig (Elt Ideal)) :=
  List.flatten [hostOps0, hostOps0_1, hostOps0_2, hostOps0_3, hostOps0_4, hostOps0_5, hostOps0_6, hostOps0_7, hostOps0_8, hostOps0_9, hostOps0_10]

/-- The six argument arrays read off a valuation, at their array types. -/
abbrev arg0 (W : Valuation τ sig (Elt Ideal)) : FVec Ideal S4096x2048 .f32 := W (Proc.devRef .tc main_arg0)
abbrev arg1 (W : Valuation τ sig (Elt Ideal)) : IVec S4096x2 32 := W (Proc.devRef .tc main_arg1)
abbrev arg2 (W : Valuation τ sig (Elt Ideal)) : FVec Ideal S4096x2 .f32 := W (Proc.devRef .tc main_arg2)
abbrev arg3 (W : Valuation τ sig (Elt Ideal)) : FVec Ideal S8x2048x688 .f32 := W (Proc.devRef .tc main_arg3)
abbrev arg4 (W : Valuation τ sig (Elt Ideal)) : FVec Ideal S8x2048x688 .f32 := W (Proc.devRef .tc main_arg4)
abbrev arg5 (W : Valuation τ sig (Elt Ideal)) : FVec Ideal S8x688x2048 .f32 := W (Proc.devRef .tc main_arg5)

attribute [local irreducible] Host.gather Host.scatter Host.sort2 Host.reduceWindow in
set_option maxRecDepth 65536 in
set_option maxHeartbeats 8000000 in
/-- After the operations before the region, from any contents `W`: the five arrays the region stages and the three
    routing vectors the later operations read. -/
theorem pre_vals (W : Valuation τ sig (Elt Ideal)) :
    (StableHlo.after preOps W (Proc.devRef .tc main_v74) : FVec Ideal S8x1536x2048 .bf16)
        = xtab (φ := .bf16) 0x0000#16 (truncf .bf16 (arg0 W) bitsLt_bf16_f32) (arg1 W)
    ∧ (StableHlo.after preOps W (Proc.devRef .tc main_v85) : FVec Ideal S8x2048x688 .bf16) = truncf .bf16 (arg3 W) bitsLt_bf16_f32
    ∧ (StableHlo.after preOps W (Proc.devRef .tc main_v86) : FVec Ideal S8x2048x688 .bf16) = truncf .bf16 (arg4 W) bitsLt_bf16_f32
    ∧ (StableHlo.after preOps W (Proc.devRef .tc main_v87) : FVec Ideal S8x688x2048 .bf16) = truncf .bf16 (arg5 W) bitsLt_bf16_f32
    ∧ (StableHlo.after preOps W (Proc.devRef .tc main_v84) : FVec Ideal S8x1536x1 .f32) = wbuf (arg1 W) (arg2 W)
    ∧ (StableHlo.after preOps W (Proc.devRef .tc main_v53) : IVec S8192 32) = slot (arg1 W)
    ∧ (StableHlo.after preOps W (Proc.devRef .tc main_v49) : IVec S8192 1) = valid (arg1 W)
    ∧ (StableHlo.after preOps W (Proc.devRef .tc main_v26) : IVec S8192 32) = st (arg1 W) := by
  simp only [preOps, hostOps0, hostOps0_1, hostOps0_2, hostOps0_3, hostOps0_4, hostOps0_5, hostOps0_6, hostOps0_7, hostOps0_8, hostOps0_9, hostOps0_10, List.flatten_cons, List.flatten_nil, List.append_nil, List.cons_append,
    List.nil_append]
  after_results_simp
  refine ⟨?_, ?_, ?_, ?_, ?_, ?_, ?_, ?_⟩
  all_goals first | trivial | rfl

end Cert.Moe.Ker

end
-- ==== Proof.KerTail.lean ====
/-
  What the kernel's program leaves in its result buffer after the operations that follow the region, from any contents:
  the rows the pairs own are read from the region's output array, the rows of pairs that do not fit are replaced by
  zero, widened, and added to their tokens.
-/
import proofs.«116065_j74380243632185_2_alg».proof.Proof.Gen.KernelIdeal.Frame
import proofs.«116065_j74380243632185_2_alg».proof.Proof.Spec

noncomputable section

namespace Cert.Moe.Ker

open Idealize.ShloMosaic Idealize.ShloMosaic.StableHlo Idealize.SL.Sem Cert.KernelIdeal Cert.KernelIdeal.Facts₀

/-- The ending as a function of the region's output array and of the three routing vectors (row owned, fits, token). -/
def tailOf (Y : FVec Ideal S8x1536x2048 .bf16) (sl : IVec S8192 32) (vd : IVec S8192 1) (tk : IVec S8192 32) :
    FVec Ideal S4096x2048 .f32 :=
  Host.scatterAdd scatter_S4096x2048_S8192x1_S8192x2048_1_0_0_1
    (broadcastInDim S4096x2048 ![] bcast_S_S4096x2048 (constant S_ .f32 0x00000000#32)) (Cert.Moe.col (Cert.Moe.nrm 4096#32 tk))
    (extf .f32
      (select
        (broadcastInDim S8192x2048 ![0, 1] bcast_S8192x1_S8192x2048_0_1 (broadcastInDim S8192x1 ![0] bcast_S8192_S8192x1_0 vd))
        (Host.gather gather_S12288x2048_S8192x1_S8192x2048_1_0_n_n_0_1_12048
          (shapeCast S12288x2048 Y shapeCasts_S8x1536x2048_S12288x2048)
          (Cert.Moe.col (Cert.Moe.nrm 12288#32 (minsi sl (Cert.Moe.bc 12287#32)))))
        (broadcastInDim S8192x2048 ![] bcast_S_S8192x2048 (constant S_ .bf16 0x0000#16)))
      bitsLt_bf16_f32)

/-- At the routing vectors of one index array it is `kerOut`. -/
theorem tailOf_routing (Y : FVec Ideal S8x1536x2048 .bf16) (a1 : IVec S4096x2 32) :
    tailOf Y (Cert.Moe.slot a1) (Cert.Moe.valid a1) (Cert.Moe.st a1) = Cert.Moe.kerOut Y a1 := rfl

/-- The host operations after the region, in order. -/
abbrev tailOps : List (HloOp τ sig (Elt Ideal)) := List.flatten [Gen.hostOps1, Gen.hostOps1_1, Gen.hostOps1_2]

attribute [local irreducible] Host.gather Host.scatterAdd in
set_option maxRecDepth 65536 in
set_option maxHeartbeats 4000000 in
/-- The result buffer after the operations that follow the region, from any contents `W`. -/
theorem tail_eq (W : Valuation τ sig (Elt Ideal)) :
    StableHlo.after tailOps W (Proc.devRef .tc main_v109)
      = tailOf (W (Proc.devRef .tc main_v88)) (W (Proc.devRef .tc main_v53)) (W (Proc.devRef .tc main_v49))
          (W (Proc.devRef .tc main_v26)) := by
  simp only [tailOps, Gen.hostOps1, Gen.hostOps1_1, Gen.hostOps1_2, List.flatten_cons, List.flatten_nil, List.append_nil, List.cons_append,
    List.nil_append]
  after_results_simp
  rfl

end Cert.Moe.Ker

end
-- ==== Proof.LibPlainDot.lean ====
/-
  A plain matrix product read at an entry.

  For an [M, K] by [K, N] product with no batch axis, contracting the left operand's columns against the right operand's
  rows, the operand indices at the result entry (p, o) and the contraction coordinate q are (p, q) and (q, o). So at the
  ideal values the product accumulated onto the zero splat is, at (p, o), the sum over q of lhs (p, q) · rhs (q, o).
-/
import Idealize.ShloMosaic.PureOps.Ideal.Laws
import Idealize.ShloMosaic.Lib.ValueIdx

noncomputable section

namespace Cert.LibPlainDot

open Idealize.ShloMosaic Idealize.ShloMosaic.ValueIdx

/-- The left operand's index at result entry (p, o) and contraction coordinate q is (p, q). -/
theorem plain_lhsIdx {M K N : ℕ} (p : Fin M) (o : Fin N) (q : Fin K) :
    (DotDims.plain M K N).lhsIdx (ix2 p o) ((contrEquiv1 (DotDims.plain M K N) K rfl rfl).symm q) = ix2 p q :=
  funext fun a => Fin.ext (by
    match a with
    | ⟨0, _⟩ => rfl
    | ⟨1, _⟩ => exact contrEquiv1_symm_val (DotDims.plain M K N) K rfl rfl q)

/-- The right operand's index at result entry (p, o) and contraction coordinate q is (q, o). -/
theorem plain_rhsIdx {M K N : ℕ} (p : Fin M) (o : Fin N) (q : Fin K) :
    (DotDims.plain M K N).rhsIdx (ix2 p o) ((contrEquiv1 (DotDims.plain M K N) K rfl rfl).symm q) = ix2 q o :=
  funext fun a => Fin.ext (by
    match a with
    | ⟨0, _⟩ => exact contrEquiv1_symm_val (DotDims.plain M K N) K rfl rfl q
    | ⟨1, _⟩ => rfl)

/-- A plain product onto the zero splat, read at (p, o): the sum over the contraction coordinate. -/
theorem plain_matmul_zero_apply {M K N : ℕ} {φ₁ φ₂ : FTy} (prec : Option ContractPrecision)
    (lhs : FVec Ideal ⟨2, ![M, K]⟩ φ₁) (rhs : FVec Ideal ⟨2, ![K, N]⟩ φ₂) (p : Fin M) (o : Fin N) :
    FloatOps.matmul (DotDims.plain M K N) prec lhs rhs (constant ⟨2, ![M, N]⟩ .f32 0x00000000#32) (ix2 p o)
      = ∑ q : Fin K, lhs (ix2 p q) * rhs (ix2 q o) := by
  rw [Ideal.matmul_constant_zero_apply, ← Equiv.sum_comp (contrEquiv1 (DotDims.plain M K N) K rfl rfl).symm]
  refine Finset.sum_congr rfl fun q _ => ?_
  rw [plain_lhsIdx, plain_rhsIdx]

end Cert.LibPlainDot

end
-- ==== Proof.LibColumn.lean ====
/-
  Two layout operations of a "keep the reduced axis" column, read at an index given by its coordinates.

  A row-wise reduction with the reduced axis kept produces a column of shape [a, 1]: a vector [a] re-laid as [a, 1],
  later spread over [a, b]. Both are re-indexings: the re-laid column at (i, 0) is the vector at i, and the spread column
  at (i, j) is the column at (i, 0).
-/
import Idealize.ShloMosaic.Lib.Pipeline.Value
import Idealize.ShloMosaic.Lib.ValueIdx

namespace Cert.LibColumn

open Idealize.ShloMosaic Idealize.ShloMosaic.ValueIdx

variable {α : Type}

/-- A vector `[a]` re-laid as a column `[a, 1]` reads, at `(i, 0)`, the vector at `i`: the row-major position is the same. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.KerBody.lean ====
/-
  The region's body at one entry of its output block.

  At a grid point the body holds one block of 512 rows of one expert's token table (x0), that expert's two first
  matrices (x1, x2), its second matrix (x3) and the 512 weights of the same rows (x4), each with a leading axis of
  extent one. It forms the two products of the rows with the first matrices, passes the first through
  x * sigmoid x, multiplies the two entrywise, multiplies the result by the second matrix and scales every row
  by its weight. Changes of float format are the identity on the extended reals, and a product accumulated onto
  the zero array is the plain sum over the contracted coordinate, so entry (r, d) of the block is

      (∑ h, (p1 r h * sigmoid (p1 r h) * p2 r h) * x3 (0, h, d)) * x4 (0, r, 0),   p_i r h = ∑ k, x0 (0, r, k) * x_i (0, k, h).

  When the five blocks are the blocks "expert e, rows cb * 512 .. cb * 512 + 511" of five whole arrays, this is the
  specification's function of the whole arrays at (e, cb * 512 + r, d).
-/
import proofs.«116065_j74380243632185_2_alg».proof.Proof.Spec
import proofs.«116065_j74380243632185_2_alg».proof.Proof.Gen.KernelIdeal.Skeleton
import proofs.«116065_j74380243632185_2_alg».proof.Proof.LibPlainDot
import proofs.«116065_j74380243632185_2_alg».proof.Proof.LibColumn
import Idealize.ShloMosaic.Lib.ValueLayout

noncomputable section

open scoped BigOperators

namespace Cert.Moe.Ker

open Idealize.ShloMosaic Idealize.ShloMosaic.ValueIdx Cert.KernelIdeal Cert.KernelIdeal.Gen Cert.KernelIdeal.Facts₀

variable [Cert.KernelIdeal.Facts]

/-- Row `r` of the block against column `h` of one of the block's first matrices. -/
def bproj (x0 : S1x512x2048.Idx → EReal) (w : S1x2048x688.Idx → EReal) (r : Fin 512) (h : Fin 688) : EReal :=
  ∑ k : Fin 2048, x0 (ix3 (0 : Fin 1) r k) * w (ix3 (0 : Fin 1) k h)

/-- The first product of the body, with its operands' leading unit axes dropped, at (r, h). -/
theorem first_apply (x0 : Vec Ideal S1x512x2048 .bf16) (w : Vec Ideal S1x2048x688 .bf16)
    (c0 : S1x512x2048.ShapeCasts S512x2048) (c1 : S1x2048x688.ShapeCasts S2048x688) (r : Fin 512) (h : Fin 688) :
    matmul (φ₁ := .bf16) (φ₂ := .bf16) dot_S512x2048_S2048x688_S512x688_1_0_0_1_n_n none (shapeCast S512x2048 x0 c0) (shapeCast S2048x688 w c1)
        (constant (F := Ideal) S512x688 .f32 0x00000000#32) (ix2 r h)
      = bproj x0 w r h :=
  (Cert.LibPlainDot.plain_matmul_zero_apply none _ _ r h).trans
    (Finset.sum_congr rfl fun k _ =>
      congrArg₂ (· * ·) (shapeCast_1ab_ab_apply x0 _ r k) (shapeCast_1ab_ab_apply w _ k h))

/-- The gated entry of the block: (p1 * sigmoid p1) * p2 for the two projections. -/
def bhid (x0 : S1x512x2048.Idx → EReal) (x1 x2 : S1x2048x688.Idx → EReal) (r : Fin 512) (h : Fin 688) : EReal :=
  bproj x0 x1 r h * Ideal.logistic (bproj x0 x1 r h) * bproj x0 x2 r h

/-- Entry (r, d) of the block the body stores. -/
def bout (x0 : S1x512x2048.Idx → EReal) (x1 x2 : S1x2048x688.Idx → EReal) (x3 : S1x688x2048.Idx → EReal)
    (x4 : S1x512x1.Idx → EReal) (r : Fin 512) (d : Fin 2048) : EReal :=
  (∑ h : Fin 688, bhid x0 x1 x2 r h * x3 (ix3 (0 : Fin 1) h d)) * x4 (ix3 (0 : Fin 1) r (0 : Fin 1))

/-- The gating of the two first products, with the change of format after it, entry by entry. -/
theorem gate_apply (a b : FVec Ideal S512x688 .f32) (hb : FTy.bf16.bits < FTy.f32.bits) (j : S512x688.Idx) :
    (truncf .bf16 (mulf (mulf a (logistic a)) b) hb : FVec Ideal S512x688 .bf16) j = a j * Ideal.logistic (a j) * b j := rfl

/-- The scaling of the second product by the spread weights, with the change of format after it, entry by entry. -/
theorem scale_apply (a b : FVec Ideal S512x2048 .f32) (hb : FTy.bf16.bits < FTy.f32.bits) (j : S512x2048.Idx) :
    (truncf .bf16 (mulf a b) hb : FVec Ideal S512x2048 .bf16) j = a j * b j := rfl

/-- The second product of the body, its right operand's leading unit axis dropped, at (r, d). -/
theorem second_apply (l : FVec Ideal S512x688 .bf16) (x3 : Vec Ideal S1x688x2048 .bf16)
    (c3 : S1x688x2048.ShapeCasts S688x2048) (r : Fin 512) (d : Fin 2048) :
    matmul (φ₁ := .bf16) (φ₂ := .bf16) dot_S512x688_S688x2048_S512x2048_1_0_0_1_n_n none l (shapeCast S688x2048 x3 c3)
        (constant (F := Ideal) S512x2048 .f32 0x00000000#32) (ix2 r d)
      = ∑ h : Fin 688, l (ix2 r h) * x3 (ix3 (0 : Fin 1) h d) :=
  (Cert.LibPlainDot.plain_matmul_zero_apply none _ _ r d).trans
    (Finset.sum_congr rfl fun h _ => congrArg (l (ix2 r h) * ·) (shapeCast_1ab_ab_apply x3 _ h d))

/-- The row weights spread over the block's columns, at (r, d): the weight of row r. -/
theorem weight_apply (x4 : Vec Ideal S1x512x1 .f32) (c4 : S1x512x1.ShapeCasts S512x1) (b4 : S512x1.Broadcasts S512x2048)
    (r : Fin 512) (d : Fin 2048) :
    broadcastTo S512x2048 (shapeCast S512x1 x4 c4) b4 (ix2 r d) = x4 (ix3 (0 : Fin 1) r (0 : Fin 1)) :=
  (Cert.LibColumn.broadcastTo_a1_ab_apply _ b4 r d).trans (shapeCast_1ab_ab_apply x4 c4 r (0 : Fin 1))

/-- THE BODY'S PAYLOAD AT AN ENTRY of the stored block. -/
theorem pay_apply (x0 : Vec Ideal S1x512x2048 .bf16) (x1 x2 : Vec Ideal S1x2048x688 .bf16) (x3 : Vec Ideal S1x688x2048 .bf16)
    (x4 : Vec Ideal S1x512x1 .f32) (u : Fin 1) (r : Fin 512) (d : Fin 2048) :
    k0_pay1 (F := Ideal) x0 x1 x2 x3 x4 (ix3 u r d) = bout x0 x1 x2 x3 x4 r d := by
  unfold k0_pay1
  refine (shapeCast_ab_1ab_apply _ _ u r d).trans ?_
  refine (scale_apply _ _ _ _).trans ?_
  refine congrArg₂ (· * ·) ?_ (weight_apply x4 _ _ r d)
  refine (second_apply _ x3 _ r d).trans ?_
  refine Finset.sum_congr rfl fun h _ => congrArg (· * x3 (ix3 (0 : Fin 1) h d)) ?_
  refine (gate_apply _ _ _ _).trans ?_
  exact congrArg₂ (· * ·)
    (congrArg₂ (· * ·) (first_apply x0 x1 _ _ r h) (congrArg Ideal.logistic (first_apply x0 x1 _ _ r h)))
    (first_apply x0 x2 _ _ r h)

/-! ## The block against the whole arrays -/

/-- Row `r` of the row block `cb` (512 rows each) among an expert's 1536 rows. -/
def row (cb : Fin 3) (r : Fin 512) : Fin 1536 := ⟨cb.val * 512 + r.val, by omega⟩

/-- When the five blocks are expert `e`'s blocks of five whole arrays (rows `cb * 512 ..` of the token table and of the
    weights, all of the expert's matrices), the block's entry (r, d) is the specification's function of the whole arrays
    at (e, cb * 512 + r, d). -/
theorem bout_eq_G (xb : S8x1536x2048.Idx → EReal) (wg wu : S8x2048x688.Idx → EReal) (wd : S8x688x2048.Idx → EReal)
    (wb : S8x1536x1.Idx → EReal)
    (x0 : S1x512x2048.Idx → EReal) (x1 x2 : S1x2048x688.Idx → EReal) (x3 : S1x688x2048.Idx → EReal) (x4 : S1x512x1.Idx → EReal)
    (e : Fin 8) (cb : Fin 3)
    (h0 : ∀ (r : Fin 512) (k : Fin 2048), x0 (ix3 (0 : Fin 1) r k) = xb (ix3 e (row cb r) k))
    (h1 : ∀ (k : Fin 2048) (h : Fin 688), x1 (ix3 (0 : Fin 1) k h) = wg (ix3 e k h))
    (h2 : ∀ (k : Fin 2048) (h : Fin 688), x2 (ix3 (0 : Fin 1) k h) = wu (ix3 e k h))
    (h3 : ∀ (h : Fin 688) (d : Fin 2048), x3 (ix3 (0 : Fin 1) h d) = wd (ix3 e h d))
    (h4 : ∀ r : Fin 512, x4 (ix3 (0 : Fin 1) r (0 : Fin 1)) = wb (ix3 e (row cb r) (0 : Fin 1)))
    (r : Fin 512) (d : Fin 2048) :
    bout x0 x1 x2 x3 x4 r d = G xb wg wu wd wb (ix3 e (row cb r) d) := by
  have p : ∀ (w : S1x2048x688.Idx → EReal) (W : S8x2048x688.Idx → EReal),
      (∀ (k : Fin 2048) (h : Fin 688), w (ix3 (0 : Fin 1) k h) = W (ix3 e k h)) →
        ∀ h : Fin 688, bproj x0 w r h = proj xb W e (row cb r) h :=
    fun w W hw h => Finset.sum_congr rfl fun k _ => by rw [h0, hw]
  show bout x0 x1 x2 x3 x4 r d = unit xb wg wu wd e (row cb r) d * wb (ix3 e (row cb r) (0 : Fin 1))
  unfold bout unit hid bhid
  rw [h4]
  refine congrArg (· * wb (ix3 e (row cb r) (0 : Fin 1))) (Finset.sum_congr rfl fun h _ => ?_)
  rw [p x1 wg h1 h, p x2 wu h2 h, h3]

/-- THE STORED BLOCK AGAINST THE WHOLE ARRAYS, entry by entry. -/
theorem pay_eq_G (xb : S8x1536x2048.Idx → EReal) (wg wu : S8x2048x688.Idx → EReal) (wd : S8x688x2048.Idx → EReal)
    (wb : S8x1536x1.Idx → EReal)
    (x0 : Vec Ideal S1x512x2048 .bf16) (x1 x2 : Vec Ideal S1x2048x688 .bf16) (x3 : Vec Ideal S1x688x2048 .bf16)
    (x4 : Vec Ideal S1x512x1 .f32) (e : Fin 8) (cb : Fin 3)
    (h0 : ∀ (r : Fin 512) (k : Fin 2048), x0 (ix3 (0 : Fin 1) r k) = xb (ix3 e (row cb r) k))
    (h1 : ∀ (k : Fin 2048) (h : Fin 688), x1 (ix3 (0 : Fin 1) k h) = wg (ix3 e k h))
    (h2 : ∀ (k : Fin 2048) (h : Fin 688), x2 (ix3 (0 : Fin 1) k h) = wu (ix3 e k h))
    (h3 : ∀ (h : Fin 688) (d : Fin 2048), x3 (ix3 (0 : Fin 1) h d) = wd (ix3 e h d))
    (h4 : ∀ r : Fin 512, x4 (ix3 (0 : Fin 1) r (0 : Fin 1)) = wb (ix3 e (row cb r) (0 : Fin 1)))
    (u : Fin 1) (r : Fin 512) (d : Fin 2048) :
    k0_pay1 (F := Ideal) x0 x1 x2 x3 x4 (ix3 u r d) = G xb wg wu wd wb (ix3 e (row cb r) d) :=
  (pay_apply x0 x1 x2 x3 x4 u r d).trans (bout_eq_G xb wg wu wd wb x0 x1 x2 x3 x4 e cb h0 h1 h2 h3 h4 r d)

end Cert.Moe.Ker

end
-- ==== Proof.KerFinal.lean ====
/-
  From the blocks to the array.

  The grid has 8 x 3 points. At point (e, cb) the region reads rows cb * 512 .. cb * 512 + 511 of expert e's token table
  and of its weights and all of expert e's three matrices, and writes back the same rows of expert e's part of the
  output. Every block's coordinate in its array is "block index times block size plus the coordinate inside the block",
  and the block indices are decided once over the 24 points. So what a point writes back is its block of ONE function of
  the five whole arrays, the specification's G; the 24 output blocks tile the output array; hence the array ends
  holding G of the arrays as the region found them.
-/
import proofs.«116065_j74380243632185_2_alg».proof.Proof.KerBody
import proofs.«116065_j74380243632185_2_alg».proof.Proof.Gen.KernelIdeal.Frame
import Idealize.ShloMosaic.Lib.Pipeline.Value

noncomputable section

namespace Cert.Moe.Ker

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Facts₀

variable [Cert.KernelIdeal.Facts]
variable (m : (ℓ : Loc nD τ sig) → Buf (Elt Ideal) ℓ)

/-- The zero offsets of a whole-block access, however spelt. -/
theorem hz : (![0, 0, 0] : Fin 3 → Nat) = fun _ => 0 := funext fun a => by fin_cases a <;> rfl

/-- The printed index maps, decided over the grid: the token table's and the weights' blocks move with the output's
    block on the first two axes, the matrices' blocks with its first axis only, and the output's block index is
    (expert, row block, 0). -/
theorem idx_facts : ∀ t : Fin cfg0.N,
    win0_0.index t (0 : Fin 3) = win0_5.index t (0 : Fin 3)
    ∧ win0_0.index t (1 : Fin 3) = win0_5.index t (1 : Fin 3)
    ∧ win0_0.index t (2 : Fin 3) = 0
    ∧ win0_4.index t (0 : Fin 3) = win0_5.index t (0 : Fin 3)
    ∧ win0_4.index t (1 : Fin 3) = win0_5.index t (1 : Fin 3)
    ∧ win0_4.index t (2 : Fin 3) = 0
    ∧ win0_1.index t (0 : Fin 3) = win0_5.index t (0 : Fin 3)
    ∧ win0_1.index t (1 : Fin 3) = 0
    ∧ win0_1.index t (2 : Fin 3) = 0
    ∧ win0_2.index t (0 : Fin 3) = win0_5.index t (0 : Fin 3)
    ∧ win0_2.index t (1 : Fin 3) = 0
    ∧ win0_2.index t (2 : Fin 3) = 0
    ∧ win0_3.index t (0 : Fin 3) = win0_5.index t (0 : Fin 3)
    ∧ win0_3.index t (1 : Fin 3) = 0
    ∧ win0_3.index t (2 : Fin 3) = 0
    ∧ win0_5.index t (0 : Fin 3) < 8
    ∧ win0_5.index t (1 : Fin 3) < 3
    ∧ win0_5.index t (2 : Fin 3) = 0 :=
  (by decide +kernel : ∀ t : Fin grid0.N, _)

/-- Every (expert, row block) is some point's output block. -/
theorem idx_onto : ∀ (q0 : Fin 8) (q1 : Fin 3), ∃ t : Fin cfg0.N, win0_5.index t = ![q0.val, q1.val, 0] :=
  (by decide +kernel : ∀ (q0 : Fin 8) (q1 : Fin 3), ∃ t : Fin grid0.N, win0_5.index t = ![q0.val, q1.val, 0])

/-! ## Where a block's entry sits in its array -/

/-- Entry (0, r, k) of the token table's block at a point whose output block is (e, cb) is entry (e, cb * 512 + r, k) of the table. -/
theorem emb0 (t : Fin cfg0.N) (e : Fin 8) (cb : Fin 3)
    (he : win0_5.index t (0 : Fin 3) = e.val) (hc : win0_5.index t (1 : Fin 3) = cb.val) (r : Fin 512) (k : Fin 2048) :
    ((cfg0.win 0).blk t).view.emb (ix3 (0 : Fin 1) r k) = ix3 e (row cb r) k := by
  obtain ⟨a0, a1, a2, -, -, -, -, -, -, -, -, -, -, -, -, -, -, -⟩ := idx_facts t
  funext a; apply Fin.ext
  match a with
  | ⟨0, _⟩ => show win0_0.index t (0 : Fin 3) * 1 + 1 * (0 : Fin 1).val = e.val; omega
  | ⟨1, _⟩ => show win0_0.index t (1 : Fin 3) * 512 + 1 * r.val = cb.val * 512 + r.val; omega
  | ⟨2, _⟩ => show win0_0.index t (2 : Fin 3) * 2048 + 1 * k.val = k.val; omega

/-- Entry (0, r, 0) of the weights' block is entry (e, cb * 512 + r, 0) of the weight table. -/
theorem emb4 (t : Fin cfg0.N) (e : Fin 8) (cb : Fin 3)
    (he : win0_5.index t (0 : Fin 3) = e.val) (hc : win0_5.index t (1 : Fin 3) = cb.val) (r : Fin 512) :
    ((cfg0.win 4).blk t).view.emb (ix3 (0 : Fin 1) r (0 : Fin 1)) = ix3 e (row cb r) (0 : Fin 1) := by
  obtain ⟨-, -, -, a0, a1, a2, -, -, -, -, -, -, -, -, -, -, -, -⟩ := idx_facts t
  funext a; apply Fin.ext
  match a with
  | ⟨0, _⟩ => show win0_4.index t (0 : Fin 3) * 1 + 1 * (0 : Fin 1).val = e.val; omega
  | ⟨1, _⟩ => show win0_4.index t (1 : Fin 3) * 512 + 1 * r.val = cb.val * 512 + r.val; omega
  | ⟨2, _⟩ => show win0_4.index t (2 : Fin 3) * 1 + 1 * (0 : Fin 1).val = (0 : Fin 1).val; omega

/-- Entry (0, k, h) of the block of the first of the first matrices is entry (e, k, h) of the array. -/
theorem emb1 (t : Fin cfg0.N) (e : Fin 8) (cb : Fin 3)
    (he : win0_5.index t (0 : Fin 3) = e.val) (hc : win0_5.index t (1 : Fin 3) = cb.val) (k : Fin 2048) (h : Fin 688) :
    ((cfg0.win 1).blk t).view.emb (ix3 (0 : Fin 1) k h) = ix3 e k h := by
  obtain ⟨-, -, -, -, -, -, a0, a1, a2, -, -, -, -, -, -, -, -, -⟩ := idx_facts t
  funext a; apply Fin.ext
  match a with
  | ⟨0, _⟩ => show win0_1.index t (0 : Fin 3) * 1 + 1 * (0 : Fin 1).val = e.val; omega
  | ⟨1, _⟩ => show win0_1.index t (1 : Fin 3) * 2048 + 1 * k.val = k.val; omega
  | ⟨2, _⟩ => show win0_1.index t (2 : Fin 3) * 688 + 1 * h.val = h.val; omega

/-- Entry (0, k, h) of the block of the second of the first matrices is entry (e, k, h) of the array. -/
theorem emb2 (t : Fin cfg0.N) (e : Fin 8) (cb : Fin 3)
    (he : win0_5.index t (0 : Fin 3) = e.val) (hc : win0_5.index t (1 : Fin 3) = cb.val) (k : Fin 2048) (h : Fin 688) :
    ((cfg0.win 2).blk t).view.emb (ix3 (0 : Fin 1) k h) = ix3 e k h := by
  obtain ⟨-, -, -, -, -, -, -, -, -, a0, a1, a2, -, -, -, -, -, -⟩ := idx_facts t
  funext a; apply Fin.ext
  match a with
  | ⟨0, _⟩ => show win0_2.index t (0 : Fin 3) * 1 + 1 * (0 : Fin 1).val = e.val; omega
  | ⟨1, _⟩ => show win0_2.index t (1 : Fin 3) * 2048 + 1 * k.val = k.val; omega
  | ⟨2, _⟩ => show win0_2.index t (2 : Fin 3) * 688 + 1 * h.val = h.val; omega

/-- Entry (0, h, d) of the second matrix's block is entry (e, h, d) of the array. -/
theorem emb3 (t : Fin cfg0.N) (e : Fin 8) (cb : Fin 3)
    (he : win0_5.index t (0 : Fin 3) = e.val) (hc : win0_5.index t (1 : Fin 3) = cb.val) (h : Fin 688) (d : Fin 2048) :
    ((cfg0.win 3).blk t).view.emb (ix3 (0 : Fin 1) h d) = ix3 e h d := by
  obtain ⟨-, -, -, -, -, -, -, -, -, -, -, -, a0, a1, a2, -, -, -⟩ := idx_facts t
  funext a; apply Fin.ext
  match a with
  | ⟨0, _⟩ => show win0_3.index t (0 : Fin 3) * 1 + 1 * (0 : Fin 1).val = e.val; omega
  | ⟨1, _⟩ => show win0_3.index t (1 : Fin 3) * 688 + 1 * h.val = h.val; omega
  | ⟨2, _⟩ => show win0_3.index t (2 : Fin 3) * 2048 + 1 * d.val = d.val; omega

/-- Entry (u, r, d) of the output's block is entry (e, cb * 512 + r, d) of the output array. -/
theorem emb5 (t : Fin cfg0.N) (e : Fin 8) (cb : Fin 3)
    (he : win0_5.index t (0 : Fin 3) = e.val) (hc : win0_5.index t (1 : Fin 3) = cb.val) (u : Fin 1) (r : Fin 512) (d : Fin 2048) :
    ((cfg0.win 5).blk t).view.emb (ix3 u r d) = ix3 e (row cb r) d := by
  obtain ⟨-, -, -, -, -, -, -, -, -, -, -, -, -, -, -, a0, a1, a2⟩ := idx_facts t
  funext a; apply Fin.ext
  match a with
  | ⟨0, _⟩ => show win0_5.index t (0 : Fin 3) * 1 + 1 * u.val = e.val; omega
  | ⟨1, _⟩ => show win0_5.index t (1 : Fin 3) * 512 + 1 * r.val = cb.val * 512 + r.val; omega
  | ⟨2, _⟩ => show win0_5.index t (2 : Fin 3) * 2048 + 1 * d.val = d.val; omega

/-! ## A block read off ANY contents of its array, entry by entry -/

/-- The token table's block of any contents `A` of its array. -/
theorem read0 (A : S8x1536x2048.Idx → EReal) (t : Fin cfg0.N) (e : Fin 8) (cb : Fin 3)
    (he : win0_5.index t (0 : Fin 3) = e.val) (hc : win0_5.index t (1 : Fin 3) = cb.val) (r : Fin 512) (k : Fin 2048) :
    (((cfg0.win 0).blk t).view.read (Elt Ideal) A : S1x512x2048.Idx → EReal) (ix3 (0 : Fin 1) r k) = A (ix3 e (row cb r) k) :=
  congrArg A (emb0 t e cb he hc r k)

/-- The block of the first of the first matrices, of any contents of its array. -/
theorem read1 (A : S8x2048x688.Idx → EReal) (t : Fin cfg0.N) (e : Fin 8) (cb : Fin 3)
    (he : win0_5.index t (0 : Fin 3) = e.val) (hc : win0_5.index t (1 : Fin 3) = cb.val) (k : Fin 2048) (h : Fin 688) :
    (((cfg0.win 1).blk t).view.read (Elt Ideal) A : S1x2048x688.Idx → EReal) (ix3 (0 : Fin 1) k h) = A (ix3 e k h) :=
  congrArg A (emb1 t e cb he hc k h)

/-- The block of the second of the first matrices, of any contents of its array. -/
theorem read2 (A : S8x2048x688.Idx → EReal) (t : Fin cfg0.N) (e : Fin 8) (cb : Fin 3)
    (he : win0_5.index t (0 : Fin 3) = e.val) (hc : win0_5.index t (1 : Fin 3) = cb.val) (k : Fin 2048) (h : Fin 688) :
    (((cfg0.win 2).blk t).view.read (Elt Ideal) A : S1x2048x688.Idx → EReal) (ix3 (0 : Fin 1) k h) = A (ix3 e k h) :=
  congrArg A (emb2 t e cb he hc k h)

/-- The second matrix's block, of any contents of its array. -/
theorem read3 (A : S8x688x2048.Idx → EReal) (t : Fin cfg0.N) (e : Fin 8) (cb : Fin 3)
    (he : win0_5.index t (0 : Fin 3) = e.val) (hc : win0_5.index t (1 : Fin 3) = cb.val) (h : Fin 688) (d : Fin 2048) :
    (((cfg0.win 3).blk t).view.read (Elt Ideal) A : S1x688x2048.Idx → EReal) (ix3 (0 : Fin 1) h d) = A (ix3 e h d) :=
  congrArg A (emb3 t e cb he hc h d)

/-- The weights' block, of any contents of its array. -/
theorem read4 (A : S8x1536x1.Idx → EReal) (t : Fin cfg0.N) (e : Fin 8) (cb : Fin 3)
    (he : win0_5.index t (0 : Fin 3) = e.val) (hc : win0_5.index t (1 : Fin 3) = cb.val) (r : Fin 512) :
    (((cfg0.win 4).blk t).view.read (Elt Ideal) A : S1x512x1.Idx → EReal) (ix3 (0 : Fin 1) r (0 : Fin 1))
      = A (ix3 e (row cb r) (0 : Fin 1)) :=
  congrArg A (emb4 t e cb he hc r)

/-- The output's block, of any contents of its array. -/
theorem read5 (A : S8x1536x2048.Idx → EReal) (t : Fin cfg0.N) (e : Fin 8) (cb : Fin 3)
    (he : win0_5.index t (0 : Fin 3) = e.val) (hc : win0_5.index t (1 : Fin 3) = cb.val) (u : Fin 1) (r : Fin 512) (d : Fin 2048) :
    (((cfg0.win 5).blk t).view.read (Elt Ideal) A : S1x512x2048.Idx → EReal) (ix3 u r d) = A (ix3 e (row cb r) d) :=
  congrArg A (emb5 t e cb he hc u r d)

/-! ## The region's input blocks, entry by entry -/

/-- The token table's block at a point whose output block is (e, cb): rows cb * 512 .. of expert e. -/
theorem blk0_apply (c : Dev nD) (t : Fin cfg0.N) (e : Fin 8) (cb : Fin 3)
    (he : win0_5.index t (0 : Fin 3) = e.val) (hc : win0_5.index t (1 : Fin 3) = cb.val) (r : Fin 512) (k : Fin 2048) :
    (iblk m c 0 t : Vec Ideal S1x512x2048 .bf16) (ix3 (0 : Fin 1) r k)
      = (V m c main_v74 : S8x1536x2048.Idx → EReal) (ix3 e (row cb r) k) := by
  unfold iblk
  exact read0 (V m c main_v74) t e cb he hc r k

/-- The first of the first matrices: all of expert e's. -/
theorem blk1_apply (c : Dev nD) (t : Fin cfg0.N) (e : Fin 8) (cb : Fin 3)
    (he : win0_5.index t (0 : Fin 3) = e.val) (hc : win0_5.index t (1 : Fin 3) = cb.val) (k : Fin 2048) (h : Fin 688) :
    (iblk m c 1 t : Vec Ideal S1x2048x688 .bf16) (ix3 (0 : Fin 1) k h)
      = (V m c main_v85 : S8x2048x688.Idx → EReal) (ix3 e k h) := by
  unfold iblk
  exact read1 (V m c main_v85) t e cb he hc k h

/-- The second of the first matrices: all of expert e's. -/
theorem blk2_apply (c : Dev nD) (t : Fin cfg0.N) (e : Fin 8) (cb : Fin 3)
    (he : win0_5.index t (0 : Fin 3) = e.val) (hc : win0_5.index t (1 : Fin 3) = cb.val) (k : Fin 2048) (h : Fin 688) :
    (iblk m c 2 t : Vec Ideal S1x2048x688 .bf16) (ix3 (0 : Fin 1) k h)
      = (V m c main_v86 : S8x2048x688.Idx → EReal) (ix3 e k h) := by
  unfold iblk
  exact read2 (V m c main_v86) t e cb he hc k h

/-- The second matrix: all of expert e's. -/
theorem blk3_apply (c : Dev nD) (t : Fin cfg0.N) (e : Fin 8) (cb : Fin 3)
    (he : win0_5.index t (0 : Fin 3) = e.val) (hc : win0_5.index t (1 : Fin 3) = cb.val) (h : Fin 688) (d : Fin 2048) :
    (iblk m c 3 t : Vec Ideal S1x688x2048 .bf16) (ix3 (0 : Fin 1) h d)
      = (V m c main_v87 : S8x688x2048.Idx → EReal) (ix3 e h d) := by
  unfold iblk
  exact read3 (V m c main_v87) t e cb he hc h d

/-- The weights: rows cb * 512 .. of expert e. -/
theorem blk4_apply (c : Dev nD) (t : Fin cfg0.N) (e : Fin 8) (cb : Fin 3)
    (he : win0_5.index t (0 : Fin 3) = e.val) (hc : win0_5.index t (1 : Fin 3) = cb.val) (r : Fin 512) :
    (iblk m c 4 t : Vec Ideal S1x512x1 .f32) (ix3 (0 : Fin 1) r (0 : Fin 1))
      = (V m c main_v84 : S8x1536x1.Idx → EReal) (ix3 e (row cb r) (0 : Fin 1)) := by
  unfold iblk
  exact read4 (V m c main_v84) t e cb he hc r

/-! ## What a point writes back -/

/-- The specification's function of the five arrays as the region finds them. -/
abbrev GV (c : Dev nD) : S8x1536x2048.Idx → EReal :=
  G (V m c main_v74) (V m c main_v85) (V m c main_v86) (V m c main_v87) (V m c main_v84)

/-- WHAT POINT `t` WRITES BACK is its block of `G` of the arrays as the region finds them. -/
theorem flushed_eq (c : Dev nD) (t : Fin cfg0.N) :
    (dats (F := Ideal) m 0 c).flushed 5 t = ((cfg0.win 5).blk t).view.read (Elt Ideal) (GV m c) := by
  show (cfg0.win 5).cut (grid0.coords t) ((dats (F := Ideal) m 0 c).after 5 t) = _
  rw [after0_5]
  unfold out0_5
  rw [View.canon_unit_zero hz]
  simp only [View.ld_unit_zero (S := S1x512x2048) hz, View.ld_unit_zero (S := S1x2048x688) hz,
    View.ld_unit_zero (S := S1x688x2048) hz, View.ld_unit_zero (S := S1x512x1) hz]
  obtain ⟨-, -, -, -, -, -, -, -, -, -, -, -, -, -, -, b0, b1, -⟩ := idx_facts t
  refine funext fun (j : S1x512x2048.Idx) => ?_
  obtain ⟨u, r, d, rfl⟩ : ∃ (u : Fin 1) (r : Fin 512) (d : Fin 2048), j = ix3 u r d := ⟨j 0, j 1, j 2, eq_ix3 j⟩
  refine Eq.trans ?_ (read5 (GV m c) t ⟨win0_5.index t (0 : Fin 3), b0⟩ ⟨win0_5.index t (1 : Fin 3), b1⟩ rfl rfl u r d).symm
  exact pay_eq_G (V m c main_v74) (V m c main_v85) (V m c main_v86) (V m c main_v87) (V m c main_v84)
    (iblk m c 0 t) (iblk m c 1 t) (iblk m c 2 t) (iblk m c 3 t) (iblk m c 4 t)
    ⟨win0_5.index t (0 : Fin 3), b0⟩ ⟨win0_5.index t (1 : Fin 3), b1⟩
    (blk0_apply m c t ⟨win0_5.index t (0 : Fin 3), b0⟩ ⟨win0_5.index t (1 : Fin 3), b1⟩ rfl rfl)
    (blk1_apply m c t ⟨win0_5.index t (0 : Fin 3), b0⟩ ⟨win0_5.index t (1 : Fin 3), b1⟩ rfl rfl)
    (blk2_apply m c t ⟨win0_5.index t (0 : Fin 3), b0⟩ ⟨win0_5.index t (1 : Fin 3), b1⟩ rfl rfl)
    (blk3_apply m c t ⟨win0_5.index t (0 : Fin 3), b0⟩ ⟨win0_5.index t (1 : Fin 3), b1⟩ rfl rfl)
    (blk4_apply m c t ⟨win0_5.index t (0 : Fin 3), b0⟩ ⟨win0_5.index t (1 : Fin 3), b1⟩ rfl rfl) u r d

/-! ## The output's blocks tile its array -/

/-- An index of the output array is in point `t`'s block iff each coordinate is in the block's range on its axis. -/
theorem mem_blk (t : Fin cfg0.N) (i : S8x1536x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v88).slice (win0_5.rect t)).set ↔ _
  rw [View.set_slice_whole, Rect.mem_set_unit]
  exact Iff.rfl

/-- Entry (e, ρ, d) of the output is written back by the point whose block is (e, ρ / 512). -/
theorem cover (i : S8x1536x2048.Idx) :
    ∃ t : Fin cfg0.N, (cfg0.win 5).flush t = true ∧ i ∈ ((cfg0.win 5).blk t).view.set := by
  have hi0 : (i 0).val < 8 := (i 0).isLt
  have hi1 : (i 1).val < 1536 := (i 1).isLt
  have hi2 : (i 2).val < 2048 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1; omega
  | ⟨1, _⟩ =>
    show win0_5.index t (1 : Fin 3) * 512 ≤ (i 1).val ∧ (i 1).val < win0_5.index t (1 : Fin 3) * 512 + 512; omega
  | ⟨2, _⟩ =>
    show win0_5.index t (2 : Fin 3) * 2048 ≤ (i 2).val ∧ (i 2).val < win0_5.index t (2 : Fin 3) * 2048 + 2048; omega

/-! ## The array after the run -/

/-- THE OUTPUT ARRAY AFTER THE REGION: the specification's function of the five operand arrays as the region finds them. -/
theorem final (c : Dev nD) :
    (dats (F := Ideal) m 0 c).arrAt 5 cfg0.N
      = G (V m c main_v74) (V m c main_v85) (V m c main_v86) (V m c main_v87) (V m c main_v84) :=
  (dats (F := Ideal) m 0 c).arrAt_eq_of_cover 5 (GV m c) (fun t _ => flushed_eq m c t) cover

end Cert.Moe.Ker

end
-- ==== Proof.KerRun.lean ====
/-
  The kernel's program, run at the ideal values: it terminates, leaves its arguments as they were, and leaves in its
  result buffer `kerRes` of the six argument arrays — the ending applied to the region's output array, which is the
  function `G` of the five arrays the host operations before the region prepared.
-/
import proofs.«116065_j74380243632185_2_alg».proof.Proof.KerPre
import proofs.«116065_j74380243632185_2_alg».proof.Proof.KerTail
import proofs.«116065_j74380243632185_2_alg».proof.Proof.KerFinal
import proofs.«116065_j74380243632185_2_alg».proof.Proof.KerRes

noncomputable section

namespace Cert.Moe.Ker

open Idealize.ShloMosaic Idealize.ShloMosaic.StableHlo Idealize.SL.Sem Cert.KernelIdeal Cert.KernelIdeal.Gen

/-- What the result buffer holds after the operations that follow the region. -/
theorem result_eq (m : (ℓ : Loc nD τ sig) → Buf (Elt Ideal) ℓ) (c : Dev nD) :
    (Pipeline.afterTail₀ cfgs (dats (F := Ideal) m) 0 (V0 m) [hostOps1, hostOps1_1, hostOps1_2] c main_v109 : FVec Ideal S4096x2048 .f32)
      = kerRes (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  obtain ⟨h74, h85, h86, h87, h84, h53, h49, h26⟩ := pre_vals (fun b => m (c, b))
  have e74 : (V m c main_v74 : FVec Ideal S8x1536x2048 .bf16) = _ := h74
  have e85 : (V m c main_v85 : FVec Ideal S8x2048x688 .bf16) = _ := h85
  have e86 : (V m c main_v86 : FVec Ideal S8x2048x688 .bf16) = _ := h86
  have e87 : (V m c main_v87 : FVec Ideal S8x688x2048 .bf16) = _ := h87
  have e84 : (V m c main_v84 : FVec Ideal S8x1536x1 .f32) = _ := h84
  have e53 : (V0 m c (Proc.devRef .tc main_v53) : IVec S8192 32) = _ := h53
  have e49 : (V0 m c (Proc.devRef .tc main_v49) : IVec S8192 1) = _ := h49
  have e26 : (V0 m c (Proc.devRef .tc main_v26) : IVec S8192 32) = _ := h26
  unfold Pipeline.afterTail₀
  refine (tail_eq _).trans ?_
  rw [Pipeline.withArrays_arr spec0 launch0.win.arr_inj c _ _ 5,
    Pipeline.withArrays_of_ne _ c (V0 m c) _ main_v53 (by decide),
    Pipeline.withArrays_of_ne _ c (V0 m c) _ main_v49 (by decide),
    Pipeline.withArrays_of_ne _ c (V0 m c) _ main_v26 (by decide)]
  rw [final m c, e74, e85, e86, e87, e84, e53, e49, e26]
  exact tailOf_routing _ _

set_option maxHeartbeats 2000000 in
set_option backward.isDefEq.respectTransparency.types false in
/-- From any memory with zero counters every weakly fair execution of the kernel's program terminates, with the result
    buffer at `kerRes` of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v109)
          = kerRes (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v109 (Pipeline.mem_restRefs_of main_v109 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main (F := Ideal) m ρ)

end Cert.Moe.Ker

end
-- ==== Proof.lean ====
/-
  A mixture-of-experts layer: each of 4096 tokens names two of eight experts, with a score for each. The 8192
  (token, choice) pairs are sorted by expert; a pair whose place within its expert's run is below the capacity 1536 owns
  one row of a table of 8 × 1536 rows, which receives the token's features; each expert's rows go through that expert's
  gated unit (two products, x · sigmoid x on the first, their product, a third product); every fitting pair's output row,
  times the pair's score, is added to its token's result.

  The kernel's program multiplies by the score INSIDE the region, reading it from a second table filled through the same
  rows, and zeroes the rows of pairs that do not fit; the reference multiplies each pair's row by the pair's own score
  (zero when the pair does not fit) AFTER reading it. The two agree because the rows the fitting pairs own are pairwise
  different: within one expert's run the places differ, and different experts own different blocks of 1536 rows. That
  needs every expert number to lie in 0 … 7 (the precondition's last conjunct): the sorted numbers are then in order, the
  offsets count the pairs of smaller number, and a place is never negative.

  The three frames: the kernel's two programs by their generated frame certificates; the reference's from its run as one
  straight line of host operations, none of which writes an argument. No operation of the kernel was rewritten when it
  was idealized, so that conjunct is trivial. The last conjunct: both programs run, the kernel's result buffer ends at
  `kerRes` of the arguments, the reference's at `refOut`, and these are one function of arguments that agree.
-/
import proofs.«116065_j74380243632185_2_alg».proof.Defs
import proofs.«116065_j74380243632185_2_alg».proof.Proof.Gen.Kernel
import proofs.«116065_j74380243632185_2_alg».proof.Proof.Gen.Kernel.Frame
import proofs.«116065_j74380243632185_2_alg».proof.Proof.Gen.KernelIdeal
import proofs.«116065_j74380243632185_2_alg».proof.Proof.Gen.KernelIdeal.Frame
import proofs.«116065_j74380243632185_2_alg».proof.Proof.Gen.ReferenceIdeal
import proofs.«116065_j74380243632185_2_alg».proof.Proof.Gen.Pre_finite_inputs
import proofs.«116065_j74380243632185_2_alg».proof.Proof.RefValue
import proofs.«116065_j74380243632185_2_alg».proof.Proof.RefArgs
import proofs.«116065_j74380243632185_2_alg».proof.Proof.Pre
import proofs.«116065_j74380243632185_2_alg».proof.Proof.Final
import proofs.«116065_j74380243632185_2_alg».proof.Proof.KerRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates and writes none of its arguments. -/
theorem frame_referenceIdeal : Cert.frame_ReferenceIdeal := fun m ρ _ =>
  (θ_run Cert.ReferenceIdeal.defs _ _).mono (fun _ h c =>
    ⟨(h c Cert.ReferenceIdeal.main_arg0).trans (Cert.Moe.Ref.kept_arg0 _), (h c Cert.ReferenceIdeal.main_arg1).trans (Cert.Moe.Ref.kept_arg1 _),
      (h c Cert.ReferenceIdeal.main_arg2).trans (Cert.Moe.Ref.kept_arg2 _), (h c Cert.ReferenceIdeal.main_arg3).trans (Cert.Moe.Ref.kept_arg3 _),
      (h c Cert.ReferenceIdeal.main_arg4).trans (Cert.Moe.Ref.kept_arg4 _), (h c Cert.ReferenceIdeal.main_arg5).trans (Cert.Moe.Ref.kept_arg5 _)⟩)
    (Cert.Moe.Ref.run (F := Ideal) m ρ)

/-- Both programs run; the kernel's result is `kerRes` of its arguments, the reference's `refOut` of its own, and on
    arguments that agree, with expert numbers in 0 … 7, these are equal. -/
theorem algebraic : Cert.algebraic_KernelIdeal_ReferenceIdeal := by
  intro m ρ m' ρ' hpre hagree
  refine ⟨fun c => Cert.Moe.Ker.kerRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.Moe.Ker.run m ρ, ?_⟩
  refine (θ_run Cert.ReferenceIdeal.defs _ _).mono (fun _ h c =>
    ⟨?_, (h c Cert.ReferenceIdeal.main_arg0).trans (Cert.Moe.Ref.kept_arg0 _), (h c Cert.ReferenceIdeal.main_arg1).trans (Cert.Moe.Ref.kept_arg1 _),
      (h c Cert.ReferenceIdeal.main_arg2).trans (Cert.Moe.Ref.kept_arg2 _), (h c Cert.ReferenceIdeal.main_arg3).trans (Cert.Moe.Ref.kept_arg3 _),
      (h c Cert.ReferenceIdeal.main_arg4).trans (Cert.Moe.Ref.kept_arg4 _), (h c Cert.ReferenceIdeal.main_arg5).trans (Cert.Moe.Ref.kept_arg5 _)⟩)
    (Cert.Moe.Ref.run (F := Ideal) m' ρ')
  refine (h c Cert.ReferenceIdeal.main_v99).trans ((Cert.Moe.Ref.out_eq _).trans ?_)
  show Cert.Moe.refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
  rw [(hagree c).1, (hagree c).2.1, (hagree c).2.2.1, (hagree c).2.2.2.1, (hagree c).2.2.2.2.1, (hagree c).2.2.2.2.2]
  exact (Cert.Moe.kerRes_eq_refOut _ _ _ _ _ _ (Cert.Moe.inRange_of_pre _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
